-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v223)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v223) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v322) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S6x128 .f32) (main_arg10 : FVec F S6x128 .f32) (main_arg11 : FVec F S128x1 .f32) (main_arg12 : FVec F S1 .f32) (main_v33 : IVec S_ 1) : IVec S_ 1 :=
  let main_v34 : FVec F S6x128 .f32 := Host.absf main_arg9
  let main_cst_12 : FVec F S_ .f32 := constant S_ .f32 0x7F800000#32
  let main_v35 : FVec F S6x128 .f32 := broadcastInDim S6x128 ![] bcast_S_S6x128 main_cst_12
  let main_v36 : IVec S6x128 1 := cmpf .olt main_v34 main_v35
  let main_c_13 : IVec S_ 1 := constantI S_ 1 1#1
  let main_v37 : IVec S_ 1 := (fun x v => Host.reduce IntOp.andi x v reducesTo_S6x128_S_d0_1 h_S_) main_v36 main_c_13
  let main_v38 : IVec S_ 1 := andi main_v33 main_v37
  let main_v39 : FVec F S6x128 .f32 := Host.absf main_arg10
  let main_cst_14 : FVec F S_ .f32 := constant S_ .f32 0x7F800000#32
  let main_v40 : FVec F S6x128 .f32 := broadcastInDim S6x128 ![] bcast_S_S6x128 main_cst_14
  let main_v41 : IVec S6x128 1 := cmpf .olt main_v39 main_v40
  let main_c_15 : IVec S_ 1 := constantI S_ 1 1#1
  let main_v42 : IVec S_ 1 := (fun x v => Host.reduce IntOp.andi x v reducesTo_S6x128_S_d0_1 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S6x128 .f32) (main_arg7 : FVec F S6x128 .f32) (main_arg8 : FVec F S6x128 .f32) (main_arg9 : FVec F S6x128 .f32) (main_arg10 : FVec F S6x128 .f32) (main_arg11 : FVec F S128x1 .f32) (main_arg12 : FVec F S1 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg6
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S6x128 .f32 := Host.absf main_arg7
  let main_cst_8 : FVec F S_ .f32 := constant S_ .f32 0x7F800000#32
  let main_v25 : FVec F S6x128 .f32 := broadcastInDim S6x128 ![] bcast_S_S6x128 main_cst_8
  let main_v26 : IVec S6x128 1 := cmpf .olt main_v24 main_v25
  let main_c_9 : IVec S_ 1 := constantI S_ 1 1#1
  let main_v27 : IVec S_ 1 := (fun x v => Host.reduce IntOp.andi x v reducesTo_S6x128_S_d0_1 h_S_) main_v26 main_c_9
  let main_v28 : IVec S_ 1 := andi main_v23 main_v27
  let main_v29 : FVec F S6x128 .f32 := Host.absf main_arg8
  let main_cst_10 : FVec F S_ .f32 := constant S_ .f32 0x7F800000#32
  let main_v30 : FVec F S6x128 .f32 := broadcastInDim S6x128 ![] bcast_S_S6x128 main_cst_10
  let main_v31 : IVec S6x128 1 := cmpf .olt main_v29 main_v30
  let main_c_11 : IVec S_ 1 := constantI S_ 1 1#1
  let main_v32 : IVec S_ 1 := (fun x v => Host.reduce IntOp.andi x v reducesTo_S6x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S6x128x128 .f32) (main_arg4 : FVec F S6x128 .f32) (main_arg5 : FVec F S6x128x128 .f32) (main_arg6 : FVec F S6x128 .f32) (main_arg7 : FVec F S6x128 .f32) (main_arg8 : FVec F S6x128 .f32) (main_arg9 : FVec F S6x128 .f32) (main_arg10 : FVec F S6x128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6x128x128 .f32 := Host.absf main_arg3
  let main_cst_0 : FVec F S_ .f32 := constant S_ .f32 0x7F800000#32
  let main_v5 : FVec F S6x128x128 .f32 := broadcastInDim S6x128x128 ![] bcast_S_S6x128x128 main_cst_0
  let main_v6 : IVec S6x128x128 1 := cmpf .olt main_v4 main_v5
  let main_c_1 : IVec S_ 1 := constantI S_ 1 1#1
  let main_v7 : IVec S_ 1 := (fun x v => Host.reduce IntOp.andi x v reducesTo_S6x128x128_S_d0_1_2 h_S_) main_v6 main_c_1
  let main_v8 : IVec S_ 1 := andi main_v3 main_v7
  let main_v9 : FVec F S6x128 .f32 := Host.absf main_arg4
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S6x128x128 .f32 := Host.absf main_arg5
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 259
  | .vmem => 78
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S6x128x128, .f32⟩
  | 4 => ⟨S6x128, .f32⟩
  | 5 => ⟨S6x128x128, .f32⟩
  | 6 => ⟨S6x128, .f32⟩
  | 7 => ⟨S6x128, .f32⟩
  | 8 => ⟨S6x128, .f32⟩
  | 9 => ⟨S6x128, .f32⟩
  | 10 => ⟨S6x128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S100000x128, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x128, .f32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x128, .f32⟩
  | 51 => ⟨S1x128x128, .f32⟩
  | 52 => ⟨S128x128, .f32⟩
  | 53 => ⟨S1x128, .f32⟩
  | 54 => ⟨S128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S1x128x128, .f32⟩
  | 89 => ⟨S128x128, .f32⟩
  | 90 => ⟨S1x128, .f32⟩
  | 91 => ⟨S128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S100000x128, .f32⟩
  | 111 => ⟨S_, .f32⟩
  | 112 => ⟨S512x128, .f32⟩
  | 113 => ⟨S100000x1, .i32⟩
  | 114 => ⟨S512x128, .f32⟩
  | 115 => ⟨S_, .f32⟩
  | 116 => ⟨S100000, .f32⟩
  | 117 => ⟨S_, .f32⟩
  | 118 => ⟨S512, .f32⟩
  | 119 => ⟨S100000x1, .i32⟩
  | 120 => ⟨S512, .f32⟩
  | 121 => ⟨S_, .f32⟩
  | 122 => ⟨S512, .f32⟩
  | 123 => ⟨S512, .f32⟩
  | 124 => ⟨S512x1, .f32⟩
  | 125 => ⟨S512x128, .f32⟩
  | 126 => ⟨S512x128, .f32⟩
  | 127 => ⟨S512x1, .f32⟩
  | _ => ⟨S100000x128, .f32⟩

abbrev hbmTy0_2 (i : Nat) : BufTy := match i % 128 with
  | 0 => ⟨S1x1, .f32⟩
  | 1 => ⟨S512x1, .f32⟩
  | 2 => ⟨S512x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S1x128, .f32⟩
  | .local _ .vmem, ⟨68, _⟩ => ⟨S128x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_1 : Ref sig .tc := ⟨.hbm, 54, rfl⟩
abbrev main_v38 : Ref sig .tc := ⟨.hbm, 55, rfl⟩
abbrev main_v39 : Ref sig .tc := ⟨.hbm, 56, rfl⟩
abbrev main_c_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_4 : Ref sig .tc := ⟨.hbm, 91, rfl⟩
abbrev main_v72 : Ref sig .tc := ⟨.hbm, 92, rfl⟩
abbrev main_v73 : Ref sig .tc := ⟨.hbm, 93, rfl⟩
abbrev main_c_5 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_6 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_c_7 : Ref sig .tc := ⟨.hbm, 128, rfl⟩
abbrev main_v106 : Ref sig .tc := ⟨.hbm, 129, rfl⟩
abbrev main_v107 : Ref sig .tc := ⟨.hbm, 130, rfl⟩
abbrev main_c_8 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_9 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_c_10 : Ref sig .tc := ⟨.hbm, 165, rfl⟩
abbrev main_v140 : Ref sig .tc := ⟨.hbm, 166, rfl⟩
abbrev main_v141 : Ref sig .tc := ⟨.hbm, 167, rfl⟩
abbrev main_c_11 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_12 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_c_13 : Ref sig .tc := ⟨.hbm, 202, rfl⟩
abbrev main_v174 : Ref sig .tc := ⟨.hbm, 203, rfl⟩
abbrev main_v175 : Ref sig .tc := ⟨.hbm, 204, rfl⟩
abbrev main_c_14 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_cst_15 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_cst_16 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_cst_17 : Ref sig .tc := ⟨.hbm, 243, rfl⟩
abbrev main_v211 : Ref sig .tc := ⟨.hbm, 244, rfl⟩
abbrev main_cst_18 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_cst_19 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg9_1 : Ref sig .tc := ⟨.vmem, 49, rfl⟩
abbrev cc3_stg10_0 : Ref sig .tc := ⟨.vmem, 50, rfl⟩
abbrev cc3_stg10_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg8_0 : Ref sig .tc := ⟨.vmem, 61, rfl⟩
abbrev cc4_stg9_0 : Ref sig .tc := ⟨.vmem, 62, rfl⟩
abbrev cc4_stg9_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg6_0 : Ref sig .tc := ⟨.vmem, 71, rfl⟩
abbrev cc5_stg7_0 : Ref sig .tc := ⟨.vmem, 72, rfl⟩
abbrev cc5_stg8_0 : Ref sig .tc := ⟨.vmem, 73, rfl⟩
abbrev cc5_stg9_0 : Ref sig .tc := ⟨.vmem, 74, rfl⟩
abbrev cc5_stg9_1 : Ref sig .tc := ⟨.vmem, 75, rfl⟩
abbrev cc5_stg10_0 : Ref sig .tc := ⟨.vmem, 76, rfl⟩
abbrev cc5_stg10_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem9_1 : DmaSem sig := 49
abbrev cc3_sem10_0 : DmaSem sig := 50
abbrev cc3_sem10_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem8_0 : DmaSem sig := 61
abbrev cc4_sem9_0 : DmaSem sig := 62
abbrev cc4_sem9_1 : DmaSem sig := 63
abbrev cc5_sem0_0 : DmaSem sig := 64
abbrev cc5_sem0_1 : DmaSem sig := 65
abbrev cc5_sem1_0 : DmaSem sig := 66
abbrev cc5_sem2_0 : DmaSem sig := 67
abbrev cc5_sem3_0 : DmaSem sig := 68
abbrev cc5_sem4_0 : DmaSem sig := 69
abbrev cc5_sem5_0 : DmaSem sig := 70
abbrev cc5_sem6_0 : DmaSem sig := 71
abbrev cc5_sem7_0 : DmaSem sig := 72
abbrev cc5_sem8_0 : DmaSem sig := 73
abbrev cc5_sem9_0 : DmaSem sig := 74
abbrev cc5_sem9_1 : DmaSem sig := 75
abbrev cc5_sem10_0 : DmaSem sig := 76
abbrev cc5_sem10_1 : DmaSem sig := 77

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S5000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S100000x128.size a
  hwx3_10 : ∀ i : grid3.Coords, EltTy.bits .f32 = 32 ∨ (Rect.block (s := S100000x128) S5000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x128.size a ≤ S100000x128.size a
  hwx4_9 : ∀ i : grid4.Coords, EltTy.bits .f32 = 32 ∨ (Rect.block (s := S100000x128) S5000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S100000x128.size a
  hwx5_9 : ∀ i : grid5.Coords, EltTy.bits .f32 = 32 ∨ (Rect.block (s := S100000x128) S5000x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x128.size a ≤ S100000x128.size a
  hwx5_10 : ∀ i : grid5.Coords, EltTy.bits .f32 = 32 ∨ (Rect.block (s := S100000x128) S5000x128.size (cc5_transform_10 i) (hinb5_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v69) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg0) S5000x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v71) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v82) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v99) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v100) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v101) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v102) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v103) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v104) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v105) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v116) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v118) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v133) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v122) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v134) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v135) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v136) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v137) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v138) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v71) S5000x128.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v139) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v150) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v152) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v167) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v156) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v168) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v169) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v170) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v171) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v172) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v173) S5000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v184) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v186) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v201) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v190) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v202) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v203) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v204) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v205) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v206) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v139) S5000x128.size cc5_transform_9 reads5_9 false false 2 stage5_9 sem5_9
    hrank5 hreads5_9 hinb5_9 nbuf5_9 (Memref.isWhole_whole _) hwx5_9 hstage5_9

abbrev win5_10 : Pipeline.Window sig grid5 :=
  Pipeline.Window.ofSpec (Memref.whole main_v207) S5000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 388
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S6x128x128, .f32⟩
  | 4 => ⟨S6x128, .f32⟩
  | 5 => ⟨S6x128x128, .f32⟩
  | 6 => ⟨S6x128, .f32⟩
  | 7 => ⟨S6x128, .f32⟩
  | 8 => ⟨S6x128, .f32⟩
  | 9 => ⟨S6x128, .f32⟩
  | 10 => ⟨S6x128, .f32⟩
  | 11 => ⟨S128x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S1x128x128, .f32⟩
  | 18 => ⟨S128x128, .f32⟩
  | 19 => ⟨S1x128, .f32⟩
  | 20 => ⟨S128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x128x128, .f32⟩
  | 76 => ⟨S128x128, .f32⟩
  | 77 => ⟨S1x128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S128, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S1x128x128, .f32⟩
  | 7 => ⟨S128x128, .f32⟩
  | 8 => ⟨S1x128, .f32⟩
  | 9 => ⟨S128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S128, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S1x128x128, .f32⟩
  | 65 => ⟨S128x128, .f32⟩
  | 66 => ⟨S1x128, .f32⟩
  | 67 => ⟨S128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S1x128x128, .f32⟩
  | 124 => ⟨S128x128, .f32⟩
  | 125 => ⟨S1x128, .f32⟩
  | 126 => ⟨S128, .f32⟩
  | 127 => ⟨S1x128x128, .f32⟩
  | _ => ⟨S100000x128, .f32⟩

abbrev hbmTy0_2 (i : Nat) : BufTy := match i % 128 with
  | 0 => ⟨S128x128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S128, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S128, .f32⟩
  | 95 => ⟨S128, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S_, .f32⟩
  | 113 => ⟨S512x128, .f32⟩
  | 114 => ⟨S100000x1, .i32⟩
  | 115 => ⟨S512x128, .f32⟩
  | 116 => ⟨S_, .f32⟩
  | 117 => ⟨S100000, .f32⟩
  | 118 => ⟨S_, .f32⟩
  | 119 => ⟨S512, .f32⟩
  | 120 => ⟨S100000x1, .i32⟩
  | 121 => ⟨S512, .f32⟩
  | 122 => ⟨S_, .f32⟩
  | 123 => ⟨S512, .f32⟩
  | 124 => ⟨S512, .f32⟩
  | 125 => ⟨S512x1, .f32⟩
  | 126 => ⟨S512x128, .f32⟩
  | 127 => ⟨S512x128, .f32⟩
  | _ => ⟨S100000x128, .f32⟩

abbrev hbmTy0_3 (i : Nat) : BufTy := match i % 128 with
  | 0 => ⟨S512x1, .f32⟩
  | 1 => ⟨S1x1, .f32⟩
  | 2 => ⟨S512x1, .f32⟩
  | 3 => ⟨S512x1, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call1_cst : Ref sig .tc := ⟨.hbm, 72, rfl⟩
abbrev main_call1_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_2 : Ref sig .tc := ⟨.hbm, 91, rfl⟩
abbrev main_v70 : Ref sig .tc := ⟨.hbm, 92, rfl⟩
abbrev main_v71 : Ref sig .tc := ⟨.hbm, 93, rfl⟩
abbrev main_c_3 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_4 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_call2_cst : Ref sig .tc := ⟨.hbm, 109, rfl⟩
abbrev main_call2_v0 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_5 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_call3_cst : Ref sig .tc := ⟨.hbm, 130, rfl⟩
abbrev main_call3_v0 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_c_6 : Ref sig .tc := ⟨.hbm, 150, rfl⟩
abbrev main_v121 : Ref sig .tc := ⟨.hbm, 151, rfl⟩
abbrev main_v122 : Ref sig .tc := ⟨.hbm, 152, rfl⟩
abbrev main_c_7 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_8 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_call4_cst : Ref sig .tc := ⟨.hbm, 168, rfl⟩
abbrev main_call4_v0 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_9 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_call5_cst : Ref sig .tc := ⟨.hbm, 189, rfl⟩
abbrev main_call5_v0 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_c_10 : Ref sig .tc := ⟨.hbm, 208, rfl⟩
abbrev main_v171 : Ref sig .tc := ⟨.hbm, 209, rfl⟩
abbrev main_v172 : Ref sig .tc := ⟨.hbm, 210, rfl⟩
abbrev main_c_11 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_12 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_call6_cst : Ref sig .tc := ⟨.hbm, 226, rfl⟩
abbrev main_call6_v0 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_13 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_call7_cst : Ref sig .tc := ⟨.hbm, 247, rfl⟩
abbrev main_call7_v0 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_c_14 : Ref sig .tc := ⟨.hbm, 267, rfl⟩
abbrev main_v222 : Ref sig .tc := ⟨.hbm, 268, rfl⟩
abbrev main_v223 : Ref sig .tc := ⟨.hbm, 269, rfl⟩
abbrev main_c_15 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_cst_16 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_call8_cst : Ref sig .tc := ⟨.hbm, 285, rfl⟩
abbrev main_call8_v0 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_cst_17 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_call9_cst : Ref sig .tc := ⟨.hbm, 306, rfl⟩
abbrev main_call9_v0 : Ref sig .tc := ⟨.hbm, 307, rfl⟩
abbrev main_v255 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_c_18 : Ref sig .tc := ⟨.hbm, 325, rfl⟩
abbrev main_v272 : Ref sig .tc := ⟨.hbm, 326, rfl⟩
abbrev main_v273 : Ref sig .tc := ⟨.hbm, 327, rfl⟩
abbrev main_c_19 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_cst_20 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_call10_cst : Ref sig .tc := ⟨.hbm, 343, rfl⟩
abbrev main_call10_v0 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_cst_21 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_call11_cst : Ref sig .tc := ⟨.hbm, 364, rfl⟩
abbrev main_call11_v0 : Ref sig .tc := ⟨.hbm, 365, rfl⟩
abbrev main_v305 : Ref sig .tc := ⟨.hbm, 366, rfl⟩
abbrev main_v306 : Ref sig .tc := ⟨.hbm, 367, rfl⟩
abbrev main_cst_22 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_cst_23 : Ref sig .tc := ⟨.hbm, 372, rfl⟩
abbrev main_v310 : Ref sig .tc := ⟨.hbm, 373, rfl⟩
abbrev main_cst_24 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_cst_25 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The kernel's program run, with its result named.

  The program is thirteen segments: seven stretches of host operations and, between them, six grid regions. Its run
  leaves every unscoped buffer at the contents the segments' fold gives it at the last boundary (`Gen.W13`). The
  generated frame reads the thirteen argument buffers out of that state; here the result buffer is read as well,
  from the same launch over the same segments, so that its value can be computed from the fold.
-/
import proofs.«126544_j10213432229997_1_alg».proof.Proof.Gen.KernelIdeal.Frame

set_option maxRecDepth 16384

noncomputable section

namespace Cert.KernelIdeal.NetRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the fold of
    the segments leaves in it and the argument arrays as launched. -/
theorem run_result : θ_run defs (onTc (τ := τ) (main (F := F))) ⟨m, fun _ => 0, ρ⟩ (fun r => ∀ c : Dev nD,
      r.2.mem ((c.tc : Thread nD τ).loc main_v223) = W13 m ρ c (Proc.devRef .tc main_v223)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v223 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.NetRun

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«126544_j10213432229997_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«126544_j10213432229997_1_alg».proof.Proof.LibRowsTimes
import proofs.«126544_j10213432229997_1_alg».proof.Proof.LibRowsCols
import proofs.«126544_j10213432229997_1_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.GinRows.lean ====
/-
  One layer of the network — two dense steps with a normalisation between them — read one row at a time.

  A dense step sends a row `r` of `K` numbers to the row `j ↦ max (∑ k, r k · w (k, j) + b j) 0`; the normalisation
  sends an entry `h k` to `(h k − mean k) · (g k · rsqrt (var k + ε)) + beta k`. A layer is dense, normalise, dense.
  Every step acts on each row by itself, so the layer applied to an array of rows is the layer applied to each
  row: this is why computing it one block of rows at a time gives the same array as computing it whole.

  Three readings of the same layer are joined here, each entry by entry on the extended reals:
  * `blockLayer`: the array whose row `p` is the layer of row `p` of the input, the parameters kept as `[1, K]` rows;
  * `block_apply`: a block of `R` rows run through the matrix unit (products into a zero accumulator, operands
    passed through a narrower float format, which is not seen on the extended reals), read at `(p, j)`;
  * `hostLayer`: the same steps as whole-array host operations (`dot_general`, a parameter vector repeated down the
    rows in two steps), equal to `blockLayer` once each parameter vector is given its unit axis.

  No entry needs to be finite: both sides are the same sums of the same products in the same order.
-/
import Idealize.ShloMosaic.PureOps.Ideal.Laws
import Idealize.ShloMosaic.Lib.ValueIdx
import Idealize.ShloMosaic.Lib.ValueLayout
import Idealize.ShloMosaic.Lib.Pipeline.Value
import proofs.«126544_j10213432229997_1_alg».proof.Proof.LibRowsTimes
import proofs.«126544_j10213432229997_1_alg».proof.Proof.LibRowsCols
import proofs.«126544_j10213432229997_1_alg».proof.Proof.LibRowLayers
import proofs.«126544_j10213432229997_1_alg».proof.Proof.LibHostColumn

noncomputable section

namespace Cert.Gin

open Idealize.ShloMosaic Idealize.ShloMosaic.ValueIdx Cert.Dense

variable {K : Nat}

/-- The f32 zero word as an extended real (the same word wherever it is printed; never evaluated). -/
abbrev zero : EReal := Ideal.ofBits .f32 0x00000000#32
/-- The variance floor's f32 word as an extended real (the same word on both sides; never evaluated). -/
abbrev eps : EReal := Ideal.ofBits .f32 0x3727C5AC#32

/-- A dense step on one row: `max (∑ k, row k · w (k, j) + b j) 0`. -/
def dense (row : Fin K → EReal) (w : Fin K → Fin K → EReal) (b : Fin K → EReal) (j : Fin K) : EReal :=
  max ((∑ k : Fin K, row k * w k j) + b j) zero

/-- The normalisation of one entry: `(h − mean) · (g · rsqrt (var + ε)) + beta`. -/
def norm (h g beta mean var : Fin K → EReal) (k : Fin K) : EReal :=
  (h k - mean k) * (g k * Ideal.rsqrt (var k + eps)) + beta k

/-- One layer on one row: dense, normalise, dense. -/
def rowLayer (row : Fin K → EReal) (w1 : Fin K → Fin K → EReal) (b1 : Fin K → EReal) (w2 : Fin K → Fin K → EReal)
    (b2 g beta mean var : Fin K → EReal) (j : Fin K) : EReal :=
  dense (norm (dense row w1 b1) g beta mean var) w2 b2 j

/-- The layer on an array of `M` rows, every parameter vector kept as a `[1, K]` row. -/
def blockLayer {M : Nat} (a : (⟨2, ![M, K]⟩ : Shape).Idx → EReal) (w1 : (⟨2, ![K, K]⟩ : Shape).Idx → EReal)
    (b1 : (⟨2, ![1, K]⟩ : Shape).Idx → EReal) (w2 : (⟨2, ![K, K]⟩ : Shape).Idx → EReal)
    (b2 g beta mean var : (⟨2, ![1, K]⟩ : Shape).Idx → EReal) : (⟨2, ![M, K]⟩ : Shape).Idx → EReal :=
  fun i => rowLayer (fun k => a (ix2 (i 0 : Fin M) k)) (fun k j => w1 (ix2 k j)) (fun j => b1 (ix2 (0 : Fin 1) j))
    (fun k j => w2 (ix2 k j)) (fun j => b2 (ix2 (0 : Fin 1) j)) (fun j => g (ix2 (0 : Fin 1) j))
    (fun j => beta (ix2 (0 : Fin 1) j)) (fun j => mean (ix2 (0 : Fin 1) j)) (fun j => var (ix2 (0 : Fin 1) j)) (i 1 : Fin K)

/-- The layer followed by the addition of a second array (the skip connection every other layer has). -/
def blockLayerRes {M : Nat} (a : (⟨2, ![M, K]⟩ : Shape).Idx → EReal) (w1 : (⟨2, ![K, K]⟩ : Shape).Idx → EReal)
    (b1 : (⟨2, ![1, K]⟩ : Shape).Idx → EReal) (w2 : (⟨2, ![K, K]⟩ : Shape).Idx → EReal)
    (b2 g beta mean var : (⟨2, ![1, K]⟩ : Shape).Idx → EReal) (res : (⟨2, ![M, K]⟩ : Shape).Idx → EReal) :
    (⟨2, ![M, K]⟩ : Shape).Idx → EReal :=
  fun i => blockLayer a w1 b1 w2 b2 g beta mean var i + res i

/-- Each row by itself: where a block holds at its row `y 0` what the array holds at row `i 0`, the parameters are
    the same and the columns agree, the layer of the block at `y` is the layer of the array at `i`. -/
theorem blockLayer_congr {M R : Nat} (a : (⟨2, ![M, K]⟩ : Shape).Idx → EReal) (a' : (⟨2, ![R, K]⟩ : Shape).Idx → EReal)
    (w1 w1' w2 w2' : (⟨2, ![K, K]⟩ : Shape).Idx → EReal) (b1 b1' b2 b2' g g' beta beta' mean mean' var var' : (⟨2, ![1, K]⟩ : Shape).Idx → EReal)
    (i : (⟨2, ![M, K]⟩ : Shape).Idx) (y : (⟨2, ![R, K]⟩ : Shape).Idx)
    (ha : ∀ k : Fin K, a' (ix2 (y 0 : Fin R) k) = a (ix2 (i 0 : Fin M) k)) (hj : (y 1 : Fin K) = (i 1 : Fin K))
    (hw1 : w1' = w1) (hb1 : b1' = b1) (hw2 : w2' = w2) (hb2 : b2' = b2) (hg : g' = g) (hbeta : beta' = beta)
    (hmean : mean' = mean) (hvar : var' = var) :
    blockLayer a' w1' b1' w2' b2' g' beta' mean' var' y = blockLayer a w1 b1 w2 b2 g beta mean var i := by
  subst hw1 hb1 hw2 hb2 hg hbeta hmean hvar
  unfold blockLayer
  rw [hj, funext ha]

/-! ## A block of rows through the matrix unit -/

section Block

variable {R : Nat} (d : DotDims ⟨2, ![R, K]⟩ ⟨2, ![K, K]⟩ ⟨2, ![R, K]⟩) (hd : RowsCols d)
  (cB : (⟨2, ![1, K]⟩ : Shape).ShapeCasts ⟨2, ![1, K]⟩) (bB : (⟨2, ![1, K]⟩ : Shape).Broadcasts ⟨2, ![R, K]⟩)

/-- The normalisation of a block, read at `(p, k)`, from what the block holds there. -/
theorem norm_apply (h : FVec Ideal ⟨2, ![R, K]⟩ .f32) (g beta mean var : FVec Ideal ⟨2, ![1, K]⟩ .f32)
    (p : Fin R) (k : Fin K) (H : Fin K → EReal) (hh : h (ix2 p k) = H k) :
    addf (mulf (subf h (broadcastTo ⟨2, ![R, K]⟩ (shapeCast ⟨2, ![1, K]⟩ mean cB) bB))
        (broadcastTo ⟨2, ![R, K]⟩ (mulf (shapeCast ⟨2, ![1, K]⟩ g cB)
          (rsqrt (addf (shapeCast ⟨2, ![1, K]⟩ var cB) (broadcast ⟨2, ![1, K]⟩ (Scalar.ofBits (F := Ideal) .f32 0x3727C5AC#32))))) bB))
      (broadcastTo ⟨2, ![R, K]⟩ (shapeCast ⟨2, ![1, K]⟩ beta cB) bB) (ix2 p k)
      = norm H (fun j => g (ix2 (0 : Fin 1) j)) (fun j => beta (ix2 (0 : Fin 1) j)) (fun j => mean (ix2 (0 : Fin 1) j))
          (fun j => var (ix2 (0 : Fin 1) j)) k := by
  refine (addf_apply _ _ _).trans (congrArg₂ (· + ·) ?_ (RowLayers.bias_apply beta cB bB p k))
  refine (mulf_apply _ _ _).trans (congrArg₂ (· * ·) ?_ ?_)
  · exact (subf_apply _ _ _).trans (congrArg₂ (· - ·) hh (RowLayers.bias_apply mean cB bB p k))
  · refine (broadcastTo_1b_ab_apply _ bB p k).trans ?_
    rw [shapeCast_self, shapeCast_self]
    rfl

include hd

/-- A dense step of a block, read at `(p, j)`, from the block's row `p` and the weight's column `j`. -/
theorem dense_apply {φ₁ φ₂ : FTy} (a : FVec Ideal ⟨2, ![R, K]⟩ φ₁) (w : FVec Ideal ⟨2, ![K, K]⟩ φ₂)
    (b : FVec Ideal ⟨2, ![1, K]⟩ .f32) (p : Fin R) (j : Fin K) (row : Fin K → EReal) (W : Fin K → Fin K → EReal)
    (ha : ∀ k, a (ix2 p k) = row k) (hw : ∀ k, w (ix2 k j) = W k j) :
    maximumf (addf (matmul d none a w (constant (F := Ideal) ⟨2, ![R, K]⟩ .f32 0x00000000#32))
        (broadcastTo ⟨2, ![R, K]⟩ (shapeCast ⟨2, ![1, K]⟩ b cB) bB))
      (broadcast ⟨2, ![R, K]⟩ (Scalar.ofBits (F := Ideal) .f32 0x00000000#32)) (ix2 p j)
      = dense row W (fun j => b (ix2 (0 : Fin 1) j)) j := by
  refine (maximumf_apply _ _ _).trans (congrArg (fun x => max x zero) ?_)
  refine (addf_apply _ _ _).trans (congrArg₂ (· + ·) ?_ (RowLayers.bias_apply b cB bB p j))
  refine (matmul_zero_apply hd none a w (ix2 p j)).trans ?_
  exact Finset.sum_congr rfl fun k _ => congrArg₂ (· * ·) (ha k) (hw k)

variable (cA : (⟨2, ![R, K]⟩ : Shape).ShapeCasts ⟨2, ![R, K]⟩) (cW : (⟨2, ![K, K]⟩ : Shape).ShapeCasts ⟨2, ![K, K]⟩)
  (lt : FTy.bf16.bits < FTy.f32.bits)

/-- THE BLOCK: a block of `R` rows run through the layer by the matrix unit, read at `(p, j)`, is the layer of the
    block's row `p` at `j`. -/
theorem block_apply (a : FVec Ideal ⟨2, ![R, K]⟩ .f32) (w1 : FVec Ideal ⟨2, ![K, K]⟩ .f32) (b1 g var mean beta : FVec Ideal ⟨2, ![1, K]⟩ .f32)
    (w2 : FVec Ideal ⟨2, ![K, K]⟩ .f32) (b2 : FVec Ideal ⟨2, ![1, K]⟩ .f32) (p : Fin R) (j : Fin K) :
    maximumf (addf (matmul d none
        (truncf .bf16 (addf (mulf (subf
            (maximumf (addf (matmul d none (truncf .bf16 (shapeCast ⟨2, ![R, K]⟩ a cA) lt) (truncf .bf16 (shapeCast ⟨2, ![K, K]⟩ w1 cW) lt)
                  (constant (F := Ideal) ⟨2, ![R, K]⟩ .f32 0x00000000#32))
                (broadcastTo ⟨2, ![R, K]⟩ (shapeCast ⟨2, ![1, K]⟩ b1 cB) bB))
              (broadcast ⟨2, ![R, K]⟩ (Scalar.ofBits (F := Ideal) .f32 0x00000000#32)))
            (broadcastTo ⟨2, ![R, K]⟩ (shapeCast ⟨2, ![1, K]⟩ mean cB) bB))
          (broadcastTo ⟨2, ![R, K]⟩ (mulf (shapeCast ⟨2, ![1, K]⟩ g cB)
            (rsqrt (addf (shapeCast ⟨2, ![1, K]⟩ var cB) (broadcast ⟨2, ![1, K]⟩ (Scalar.ofBits (F := Ideal) .f32 0x3727C5AC#32))))) bB))
          (broadcastTo ⟨2, ![R, K]⟩ (shapeCast ⟨2, ![1, K]⟩ beta cB) bB)) lt)
        (truncf .bf16 (shapeCast ⟨2, ![K, K]⟩ w2 cW) lt) (constant (F := Ideal) ⟨2, ![R, K]⟩ .f32 0x00000000#32))
      (broadcastTo ⟨2, ![R, K]⟩ (shapeCast ⟨2, ![1, K]⟩ b2 cB) bB))
      (broadcast ⟨2, ![R, K]⟩ (Scalar.ofBits (F := Ideal) .f32 0x00000000#32)) (ix2 p j)
      = rowLayer (fun k => a (ix2 p k)) (fun k j => w1 (ix2 k j)) (fun j => b1 (ix2 (0 : Fin 1) j))
          (fun k j => w2 (ix2 k j)) (fun j => b2 (ix2 (0 : Fin 1) j)) (fun j => g (ix2 (0 : Fin 1) j))
          (fun j => beta (ix2 (0 : Fin 1) j)) (fun j => mean (ix2 (0 : Fin 1) j)) (fun j => var (ix2 (0 : Fin 1) j)) j := by
  refine dense_apply d hd cB bB _ _ b2 p j _ _ (fun k => ?_) (fun k => ?_)
  · refine (truncf_apply _ lt _).trans ?_
    refine norm_apply cB bB _ g beta mean var p k _ ?_
    refine dense_apply d hd cB bB _ _ b1 p k _ _ (fun l => ?_) (fun l => ?_)
    · exact (truncf_apply _ lt _).trans (by rw [shapeCast_self])
    · exact (truncf_apply _ lt _).trans (by rw [shapeCast_self])
  · exact (truncf_apply _ lt _).trans (by rw [shapeCast_self])

/-- THE BLOCK WITH ITS SKIP CONNECTION: the same, plus what a second block of `R` rows holds at `(p, j)`. -/
theorem block_res_apply (a : FVec Ideal ⟨2, ![R, K]⟩ .f32) (w1 : FVec Ideal ⟨2, ![K, K]⟩ .f32) (b1 g var mean beta : FVec Ideal ⟨2, ![1, K]⟩ .f32)
    (w2 : FVec Ideal ⟨2, ![K, K]⟩ .f32) (b2 : FVec Ideal ⟨2, ![1, K]⟩ .f32) (res : FVec Ideal ⟨2, ![R, K]⟩ .f32) (p : Fin R) (j : Fin K) :
    addf (maximumf (addf (matmul d none
        (truncf .bf16 (addf (mulf (subf
            (maximumf (addf (matmul d none (truncf .bf16 (shapeCast ⟨2, ![R, K]⟩ a cA) lt) (truncf .bf16 (shapeCast ⟨2, ![K, K]⟩ w1 cW) lt)
                  (constant (F := Ideal) ⟨2, ![R, K]⟩ .f32 0x00000000#32))
                (broadcastTo ⟨2, ![R, K]⟩ (shapeCast ⟨2, ![1, K]⟩ b1 cB) bB))
              (broadcast ⟨2, ![R, K]⟩ (Scalar.ofBits (F := Ideal) .f32 0x00000000#32)))
            (broadcastTo ⟨2, ![R, K]⟩ (shapeCast ⟨2, ![1, K]⟩ mean cB) bB))
          (broadcastTo ⟨2, ![R, K]⟩ (mulf (shapeCast ⟨2, ![1, K]⟩ g cB)
            (rsqrt (addf (shapeCast ⟨2, ![1, K]⟩ var cB) (broadcast ⟨2, ![1, K]⟩ (Scalar.ofBits (F := Ideal) .f32 0x3727C5AC#32))))) bB))
          (broadcastTo ⟨2, ![R, K]⟩ (shapeCast ⟨2, ![1, K]⟩ beta cB) bB)) lt)
        (truncf .bf16 (shapeCast ⟨2, ![K, K]⟩ w2 cW) lt) (constant (F := Ideal) ⟨2, ![R, K]⟩ .f32 0x00000000#32))
      (broadcastTo ⟨2, ![R, K]⟩ (shapeCast ⟨2, ![1, K]⟩ b2 cB) bB))
      (broadcast ⟨2, ![R, K]⟩ (Scalar.ofBits (F := Ideal) .f32 0x00000000#32))) res (ix2 p j)
      = rowLayer (fun k => a (ix2 p k)) (fun k j => w1 (ix2 k j)) (fun j => b1 (ix2 (0 : Fin 1) j))
          (fun k j => w2 (ix2 k j)) (fun j => b2 (ix2 (0 : Fin 1) j)) (fun j => g (ix2 (0 : Fin 1) j))
          (fun j => beta (ix2 (0 : Fin 1) j)) (fun j => mean (ix2 (0 : Fin 1) j)) (fun j => var (ix2 (0 : Fin 1) j)) j + res (ix2 p j) :=
  (addf_apply _ _ _).trans (congrArg (· + res (ix2 p j)) (block_apply d hd cB bB cA cW lt a w1 b1 g var mean beta w2 b2 p j))

/-- The same when the second block first passes through a cast to its own shape (which changes nothing). -/
theorem block_res_cast_apply (a : FVec Ideal ⟨2, ![R, K]⟩ .f32) (w1 : FVec Ideal ⟨2, ![K, K]⟩ .f32) (b1 g var mean beta : FVec Ideal ⟨2, ![1, K]⟩ .f32)
    (w2 : FVec Ideal ⟨2, ![K, K]⟩ .f32) (b2 : FVec Ideal ⟨2, ![1, K]⟩ .f32) (res : FVec Ideal ⟨2, ![R, K]⟩ .f32) (p : Fin R) (j : Fin K) :
    addf (maximumf (addf (matmul d none
        (truncf .bf16 (addf (mulf (subf
            (maximumf (addf (matmul d none (truncf .bf16 (shapeCast ⟨2, ![R, K]⟩ a cA) lt) (truncf .bf16 (shapeCast ⟨2, ![K, K]⟩ w1 cW) lt)
                  (constant (F := Ideal) ⟨2, ![R, K]⟩ .f32 0x00000000#32))
                (broadcastTo ⟨2, ![R, K]⟩ (shapeCast ⟨2, ![1, K]⟩ b1 cB) bB))
              (broadcast ⟨2, ![R, K]⟩ (Scalar.ofBits (F := Ideal) .f32 0x00000000#32)))
            (broadcastTo ⟨2, ![R, K]⟩ (shapeCast ⟨2, ![1, K]⟩ mean cB) bB))
          (broadcastTo ⟨2, ![R, K]⟩ (mulf (shapeCast ⟨2, ![1, K]⟩ g cB)
            (rsqrt (addf (shapeCast ⟨2, ![1, K]⟩ var cB) (broadcast ⟨2, ![1, K]⟩ (Scalar.ofBits (F := Ideal) .f32 0x3727C5AC#32))))) bB))
          (broadcastTo ⟨2, ![R, K]⟩ (shapeCast ⟨2, ![1, K]⟩ beta cB) bB)) lt)
        (truncf .bf16 (shapeCast ⟨2, ![K, K]⟩ w2 cW) lt) (constant (F := Ideal) ⟨2, ![R, K]⟩ .f32 0x00000000#32))
      (broadcastTo ⟨2, ![R, K]⟩ (shapeCast ⟨2, ![1, K]⟩ b2 cB) bB))
      (broadcast ⟨2, ![R, K]⟩ (Scalar.ofBits (F := Ideal) .f32 0x00000000#32))) (shapeCast ⟨2, ![R, K]⟩ res cA) (ix2 p j)
      = rowLayer (fun k => a (ix2 p k)) (fun k j => w1 (ix2 k j)) (fun j => b1 (ix2 (0 : Fin 1) j))
          (fun k j => w2 (ix2 k j)) (fun j => b2 (ix2 (0 : Fin 1) j)) (fun j => g (ix2 (0 : Fin 1) j))
          (fun j => beta (ix2 (0 : Fin 1) j)) (fun j => mean (ix2 (0 : Fin 1) j)) (fun j => var (ix2 (0 : Fin 1) j)) j + res (ix2 p j) :=
  (block_res_apply d hd cB bB cA cW lt a w1 b1 g var mean beta w2 b2 (shapeCast ⟨2, ![R, K]⟩ res cA) p j).trans (by rw [shapeCast_self])

end Block

/-! ## The same layer as whole-array host operations -/

section Host

variable {M : Nat} (d : DotDims ⟨2, ![M, K]⟩ ⟨2, ![K, K]⟩ ⟨2, ![M, K]⟩) (hd : RowsCols d)
  (r1 : (⟨1, ![K]⟩ : Shape).BroadcastsInDim ⟨2, ![1, K]⟩ ![1]) (r2 : (⟨2, ![1, K]⟩ : Shape).BroadcastsInDim ⟨2, ![M, K]⟩ ![0, 1])
  (z : (⟨0, ![]⟩ : Shape).BroadcastsInDim ⟨2, ![M, K]⟩ ![]) (e : (⟨0, ![]⟩ : Shape).BroadcastsInDim ⟨1, ![K]⟩ ![])

/-- A parameter vector repeated down the rows, in the host's two steps. -/
abbrev rows (v : FVec Ideal ⟨1, ![K]⟩ .f32) : FVec Ideal ⟨2, ![M, K]⟩ .f32 :=
  broadcastInDim ⟨2, ![M, K]⟩ ![0, 1] r2 (broadcastInDim ⟨2, ![1, K]⟩ ![1] r1 v)

/-- The layer as the host computes it on a whole array: `dot_general`, bias, maximum with a zero splat, the
    normalisation with its scale computed on vectors, `dot_general`, bias, maximum with a zero splat. -/
def hostLayer (a : FVec Ideal ⟨2, ![M, K]⟩ .f32) (w1 : FVec Ideal ⟨2, ![K, K]⟩ .f32) (b1 : FVec Ideal ⟨1, ![K]⟩ .f32)
    (w2 : FVec Ideal ⟨2, ![K, K]⟩ .f32) (b2 g beta mean var : FVec Ideal ⟨1, ![K]⟩ .f32) : FVec Ideal ⟨2, ![M, K]⟩ .f32 :=
  maximumf (addf (Host.dotGeneral d none
      (addf (mulf (subf
          (maximumf (addf (Host.dotGeneral d none a w1) (rows r1 r2 b1))
            (broadcastInDim ⟨2, ![M, K]⟩ ![] z (constant (F := Ideal) ⟨0, ![]⟩ .f32 0x00000000#32)))
          (rows r1 r2 mean))
        (rows r1 r2 (mulf g (Host.rsqrt (addf var (broadcastInDim ⟨1, ![K]⟩ ![] e (constant (F := Ideal) ⟨0, ![]⟩ .f32 0x3727C5AC#32)))))))
        (rows r1 r2 beta)) w2) (rows r1 r2 b2))
    (broadcastInDim ⟨2, ![M, K]⟩ ![] z (constant (F := Ideal) ⟨0, ![]⟩ .f32 0x00000000#32))

/-- A scalar constant repeated over any shape reads the constant's value everywhere. -/
theorem splat_apply {s : Shape} (h : (⟨0, ![]⟩ : Shape).BroadcastsInDim s ![]) (b : BitVec 32) (i : s.Idx) :
    broadcastInDim s ![] h (constant (F := Ideal) ⟨0, ![]⟩ .f32 b) i = Ideal.ofBits .f32 b :=
  broadcastInDim_apply _ h _ i ix0 fun a => a.elim0

include hd

/-- A host dense step read at `(p, j)`. -/
theorem hostDense_apply (a : FVec Ideal ⟨2, ![M, K]⟩ .f32) (w : FVec Ideal ⟨2, ![K, K]⟩ .f32) (b : FVec Ideal ⟨1, ![K]⟩ .f32)
    (p : Fin M) (j : Fin K) (row : Fin K → EReal) (ha : ∀ k, a (ix2 p k) = row k) :
    maximumf (addf (Host.dotGeneral d none a w) (rows r1 r2 b))
      (broadcastInDim ⟨2, ![M, K]⟩ ![] z (constant (F := Ideal) ⟨0, ![]⟩ .f32 0x00000000#32)) (ix2 p j)
      = dense row (fun k j => w (ix2 k j)) (fun j => b (ix1 j)) j := by
  refine (maximumf_apply _ _ _).trans (congrArg₂ max ?_ (splat_apply z _ _))
  refine (addf_apply _ _ _).trans (congrArg₂ (· + ·) ?_ (HostColumn.row_apply b r1 r2 p j))
  refine (dotGeneral_apply hd none a w (ix2 p j)).trans ?_
  exact Finset.sum_congr rfl fun k _ => congrArg (· * w (ix2 k j)) (ha k)

/-- THE HOST LAYER read at `(p, j)`: the layer of row `p` of the input. -/
theorem hostLayer_apply (a : FVec Ideal ⟨2, ![M, K]⟩ .f32) (w1 : FVec Ideal ⟨2, ![K, K]⟩ .f32) (b1 : FVec Ideal ⟨1, ![K]⟩ .f32)
    (w2 : FVec Ideal ⟨2, ![K, K]⟩ .f32) (b2 g beta mean var : FVec Ideal ⟨1, ![K]⟩ .f32) (p : Fin M) (j : Fin K) :
    hostLayer d r1 r2 z e a w1 b1 w2 b2 g beta mean var (ix2 p j)
      = rowLayer (fun k => a (ix2 p k)) (fun k j => w1 (ix2 k j)) (fun j => b1 (ix1 j)) (fun k j => w2 (ix2 k j))
          (fun j => b2 (ix1 j)) (fun j => g (ix1 j)) (fun j => beta (ix1 j)) (fun j => mean (ix1 j)) (fun j => var (ix1 j)) j := by
  unfold hostLayer
  refine hostDense_apply d hd r1 r2 z _ w2 b2 p j _ fun k => ?_
  refine (addf_apply _ _ _).trans (congrArg₂ (· + ·) ?_ (HostColumn.row_apply beta r1 r2 p k))
  refine (mulf_apply _ _ _).trans (congrArg₂ (· * ·) ?_ ?_)
  · refine (subf_apply _ _ _).trans (congrArg₂ (· - ·) ?_ (HostColumn.row_apply mean r1 r2 p k))
    exact hostDense_apply d hd r1 r2 z a w1 b1 p k _ fun _ => rfl
  · refine (HostColumn.row_apply _ r1 r2 p k).trans ?_
    refine (mulf_apply _ _ _).trans (congrArg (g (ix1 k) * ·) ?_)
    show Ideal.rsqrt (var (ix1 k) + _) = _
    rw [splat_apply e]

/-- The host's layer of whole arrays IS `blockLayer`, each parameter vector given its unit axis. -/
theorem hostLayer_eq (c1 : (⟨1, ![K]⟩ : Shape).ShapeCasts ⟨2, ![1, K]⟩)
    (a : FVec Ideal ⟨2, ![M, K]⟩ .f32) (w1 : FVec Ideal ⟨2, ![K, K]⟩ .f32) (b1 : FVec Ideal ⟨1, ![K]⟩ .f32)
    (w2 : FVec Ideal ⟨2, ![K, K]⟩ .f32) (b2 g beta mean var : FVec Ideal ⟨1, ![K]⟩ .f32) :
    hostLayer d r1 r2 z e a w1 b1 w2 b2 g beta mean var
      = blockLayer a w1 (shapeCast ⟨2, ![1, K]⟩ b1 c1) w2 (shapeCast ⟨2, ![1, K]⟩ b2 c1) (shapeCast ⟨2, ![1, K]⟩ g c1)
          (shapeCast ⟨2, ![1, K]⟩ beta c1) (shapeCast ⟨2, ![1, K]⟩ mean c1) (shapeCast ⟨2, ![1, K]⟩ var c1) := by
  funext i
  obtain ⟨p, j, rfl⟩ : ∃ (p : Fin M) (j : Fin K), i = ix2 p j := ⟨i 0, i 1, eq_ix2 i⟩
  rw [hostLayer_apply d hd]
  unfold blockLayer
  simp only [shapeCast_a_1a_apply]
  rfl

end Host

end Cert.Gin

end
-- ==== Proof.GinNet.lean ====
/-
  The whole network as one function of its thirteen argument arrays.

  A layer's input is the aggregated array: every node's row plus the sum of the rows of the nodes with an edge into
  it (a gather of the rows at the edges' sources, scattered with addition onto the edges' targets, plus the array
  itself). The aggregation is carried here as ONE function `agg` of the node array and the two rows of the edge
  list and is never opened: both programs apply the very same operations there. The six layers take their
  parameters from slot `i` of the stacked parameter arrays; after layers 1, 3 and 5 the array two layers back is added
  (for layer 1, the input array). The result pools the rows by graph, divides by the graphs' sizes (at least one) and
  applies the last linear map — again one function `head`, the same operations in both programs.
-/
import proofs.«126544_j10213432229997_1_alg».proof.KernelIdeal
import proofs.«126544_j10213432229997_1_alg».proof.Proof.GinRows

noncomputable section

namespace Cert.Gin

open Cert.KernelIdeal Idealize.ShloMosaic Idealize.ShloMosaic.TcCoe Idealize.ShloMosaic.ValueIdx

variable [Cert.KernelIdeal.Facts₀]

open Cert.KernelIdeal.Facts₀

/-- The node array's contents, the edge list's, an edge row's. -/
abbrev Nodes := (⟨S100000x128, .f32⟩ : BufTy).Contents (Elt Ideal)
abbrev Edges := (⟨S2x1600000, .i32⟩ : BufTy).Contents (Elt Ideal)
abbrev EdgeRow := (⟨S1600000, .i32⟩ : BufTy).Contents (Elt Ideal)

/-- The thirteen argument arrays. -/
structure Args where
  x : Nodes
  e : Edges
  batch : (⟨S100000, .i32⟩ : BufTy).Contents (Elt Ideal)
  w1s : (⟨S6x128x128, .f32⟩ : BufTy).Contents (Elt Ideal)
  b1s : (⟨S6x128, .f32⟩ : BufTy).Contents (Elt Ideal)
  w2s : (⟨S6x128x128, .f32⟩ : BufTy).Contents (Elt Ideal)
  b2s : (⟨S6x128, .f32⟩ : BufTy).Contents (Elt Ideal)
  gamma : (⟨S6x128, .f32⟩ : BufTy).Contents (Elt Ideal)
  beta : (⟨S6x128, .f32⟩ : BufTy).Contents (Elt Ideal)
  mean : (⟨S6x128, .f32⟩ : BufTy).Contents (Elt Ideal)
  var : (⟨S6x128, .f32⟩ : BufTy).Contents (Elt Ideal)
  linw : (⟨S128x1, .f32⟩ : BufTy).Contents (Elt Ideal)
  linb : (⟨S1, .f32⟩ : BufTy).Contents (Elt Ideal)

/-- The edges' sources: row 0 of the edge list. -/
def src (e : Edges) : EdgeRow :=
  shapeCast S1600000 (extractStridedSlice S1x1600000 ![0, 0] e slices_S2x1600000_S1x1600000_0_0) shapeCasts_S1x1600000_S1600000

/-- The edges' targets: row 1 of the edge list. -/
def dst (e : Edges) : EdgeRow :=
  shapeCast S1600000 (extractStridedSlice S1x1600000 ![1, 0] e slices_S2x1600000_S1x1600000_1_0) shapeCasts_S1x1600000_S1600000

/-- The aggregation: the rows gathered at the sources (a negative source counted from the end), scattered with
    addition onto the targets from zero, plus the array itself. Never opened. -/
def agg (x : Nodes) (s d : EdgeRow) : Nodes :=
  addf (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))) x

/-- Slot `i` of a stack of six weight matrices. -/
def matAt (i : Nat) (h : S6x128x128.Slices ![i, 0, 0] S1x128x128) (a : (⟨S6x128x128, .f32⟩ : BufTy).Contents (Elt Ideal)) :
    (⟨S128x128, .f32⟩ : BufTy).Contents (Elt Ideal) :=
  shapeCast S128x128 (extractStridedSlice S1x128x128 ![i, 0, 0] a h) shapeCasts_S1x128x128_S128x128

/-- Slot `i` of a stack of six parameter vectors. -/
def vecAt (i : Nat) (h : S6x128.Slices ![i, 0] S1x128) (a : (⟨S6x128, .f32⟩ : BufTy).Contents (Elt Ideal)) :
    (⟨S128, .f32⟩ : BufTy).Contents (Elt Ideal) :=
  shapeCast S128 (extractStridedSlice S1x128 ![i, 0] a h) shapeCasts_S1x128_S128

/-- A parameter vector given its unit axis. -/
def rowOf (v : (⟨S128, .f32⟩ : BufTy).Contents (Elt Ideal)) : (⟨S1x128, .f32⟩ : BufTy).Contents (Elt Ideal) :=
  shapeCast S1x128 v shapeCasts_S128_S1x128

/-- Layer `i` on an aggregated array. -/
def layerAt (i : Nat) (h3 : S6x128x128.Slices ![i, 0, 0] S1x128x128) (h2 : S6x128.Slices ![i, 0] S1x128) (P : Args) (a : Nodes) : Nodes :=
  blockLayer a (matAt i h3 P.w1s) (rowOf (vecAt i h2 P.b1s)) (matAt i h3 P.w2s) (rowOf (vecAt i h2 P.b2s))
    (rowOf (vecAt i h2 P.gamma)) (rowOf (vecAt i h2 P.beta)) (rowOf (vecAt i h2 P.mean)) (rowOf (vecAt i h2 P.var))

/-- Layer `i` on an aggregated array, plus a skip connection's array. -/
def layerResAt (i : Nat) (h3 : S6x128x128.Slices ![i, 0, 0] S1x128x128) (h2 : S6x128.Slices ![i, 0] S1x128) (P : Args) (a res : Nodes) : Nodes :=
  blockLayerRes a (matAt i h3 P.w1s) (rowOf (vecAt i h2 P.b1s)) (matAt i h3 P.w2s) (rowOf (vecAt i h2 P.b2s))
    (rowOf (vecAt i h2 P.gamma)) (rowOf (vecAt i h2 P.beta)) (rowOf (vecAt i h2 P.mean)) (rowOf (vecAt i h2 P.var)) res

/-- The node array after each layer. -/
def x1 (P : Args) : Nodes := layerAt 0 slices_S6x128x128_S1x128x128_0_0_0 slices_S6x128_S1x128_0_0 P (agg P.x (src P.e) (dst P.e))
def x2 (P : Args) : Nodes := layerResAt 1 slices_S6x128x128_S1x128x128_1_0_0 slices_S6x128_S1x128_1_0 P (agg (x1 P) (src P.e) (dst P.e)) P.x
def x3 (P : Args) : Nodes := layerAt 2 slices_S6x128x128_S1x128x128_2_0_0 slices_S6x128_S1x128_2_0 P (agg (x2 P) (src P.e) (dst P.e))
def x4 (P : Args) : Nodes := layerResAt 3 slices_S6x128x128_S1x128x128_3_0_0 slices_S6x128_S1x128_3_0 P (agg (x3 P) (src P.e) (dst P.e)) (x2 P)
def x5 (P : Args) : Nodes := layerAt 4 slices_S6x128x128_S1x128x128_4_0_0 slices_S6x128_S1x128_4_0 P (agg (x4 P) (src P.e) (dst P.e))
def x6 (P : Args) : Nodes := layerResAt 5 slices_S6x128x128_S1x128x128_5_0_0 slices_S6x128_S1x128_5_0 P (agg (x5 P) (src P.e) (dst P.e)) (x4 P)

/-- The head: rows summed by graph, divided by the graphs' sizes kept at least one, the last linear map and its
    bias. Never opened. -/
def head (x : Nodes) (batch : (⟨S100000, .i32⟩ : BufTy).Contents (Elt Ideal)) (linw : (⟨S128x1, .f32⟩ : BufTy).Contents (Elt Ideal))
    (linb : (⟨S1, .f32⟩ : BufTy).Contents (Elt Ideal)) : (⟨S512x1, .f32⟩ : BufTy).Contents (Elt Ideal) :=
  addf (Host.dotGeneral (φ₁ := .f32) (φ₂ := .f32) dot_S512x128_S128x1_S512x1_1_0_0_1_n_n none
      (Host.divf
        (Host.scatterAdd scatter_S512x128_S100000x1_S100000x128_1_0_0_1
          (broadcastInDim S512x128 ![] bcast_S_S512x128 (constant (F := Ideal) S_ .f32 0x00000000#32))
          (broadcastInDim S100000x1 ![0] bcast_S100000_S100000x1_0 batch) x)
        (broadcastInDim S512x128 ![0, 1] bcast_S512x1_S512x128_0_1
          (broadcastInDim S512x1 ![0] bcast_S512_S512x1_0
            (maximumf
              (Host.scatterAdd scatter_S512_S100000x1_S100000_n_0_0_1
                (broadcastInDim S512 ![] bcast_S_S512 (constant (F := Ideal) S_ .f32 0x00000000#32))
                (broadcastInDim S100000x1 ![0] bcast_S100000_S100000x1_0 batch)
                (broadcastInDim S100000 ![] bcast_S_S100000 (constant (F := Ideal) S_ .f32 0x3F800000#32)))
              (broadcastInDim S512 ![] bcast_S_S512 (constant (F := Ideal) S_ .f32 0x3F800000#32))))))
      (linw : FVec Ideal S128x1 .f32))
    (broadcastInDim S512x1 ![0, 1] bcast_S1x1_S512x1_0_1 (broadcastInDim S1x1 ![1] bcast_S1_S1x1_1 linb))

/-- THE RESULT of the network on its arguments. -/
def result (P : Args) : (⟨S512x1, .f32⟩ : BufTy).Contents (Elt Ideal) := head (x6 P) P.batch P.linw P.linb

end Cert.Gin

end
-- ==== Proof.Region0.lean ====
/-
  Region 0 of the kernel's program: the array its grid leaves behind.

  The region walks 20 blocks of 5000 rows. At a point `t` it stages rows `5000·t … 5000·t + 4999` of the aggregated
  array, the two weight matrices and the six parameter rows whole, runs the layer on the block and writes the block
  back to the same rows of its output. Since the layer acts on each row by itself, the 20 blocks written back are
  the 20 blocks of ONE array: the layer applied to the whole aggregated array. The blocks tile the rows (row `r`
  is in block `r / 5000`), so that array is what the output holds after the region.

  Everything is stated at the region's entry contents `V`, whatever they are.
-/
import proofs.«126544_j10213432229997_1_alg».proof.Proof.Gen.KernelIdeal.Frame
import proofs.«126544_j10213432229997_1_alg».proof.Proof.GinRows

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline Cert.Dense Cert.Gin

variable (V : (c : Dev nD) → (b : Ref sig .tc) → Buf (Elt Ideal) ((c : Thread nD τ).loc b))

theorem hz : (![0, 0] : Fin 2 → Nat) = fun _ => 0 := funext fun a => by fin_cases a <;> rfl

/-- The matrix unit's record contracts the block's columns against the weight's rows. -/
theorem rowsCols : RowsCols dot_S5000x128_S128x128_S5000x128_1_0_0_1_n_n :=
  ⟨rfl, rfl, fun _ _ => rfl, fun _ _ => rfl, fun _ _ => rfl, fun _ _ => rfl⟩

/-- The printed index maps, decided once over the 20 points: the row-blocked windows sit at block `t` of the rows,
    every other window at block 0 of its array. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- What the body leaves in its output block is the layer of the staged blocks, entry by entry. -/
theorem out_apply (x0 : Vec Ideal S5000x128 .f32) (x1 : Vec Ideal S128x128 .f32) (x2 : Vec Ideal S1x128 .f32) (x3 : Vec Ideal S128x128 .f32) (x4 x5 x6 x7 x8 : Vec Ideal S1x128 .f32) (y : S5000x128.Idx) :
    out0_9 x0 x1 x2 x3 x4 x5 x6 x7 x8 y = blockLayer x0 x1 x2 x3 x4 x5 x6 x7 x8 y := by
  obtain ⟨p, j, rfl⟩ : ∃ (p : Fin 5000) (j : Fin 128), y = ix2 p j := ⟨y 0, y 1, eq_ix2 y⟩
  unfold out0_9
  rw [View.canon_unit_zero hz]
  simp only [View.ld_unit_zero (S := S5000x128) hz, View.ld_unit_zero (S := S128x128) hz, View.ld_unit_zero (S := S1x128) hz]
  exact block_apply dot_S5000x128_S128x128_S5000x128_1_0_0_1_n_n rowsCols shapeCasts_S1x128_S1x128 broadcasts_S1x128_S5000x128
    shapeCasts_S5000x128_S5000x128 shapeCasts_S128x128_S128x128 bitsLt_bf16_f32 x0 x1 x2 x5 x8 x7 x6 x3 x4 p j

/-- Window 1 stages its whole array at every point. -/
theorem blk_1 (c : Dev nD) (t : Fin cfg0.N) : iblk0 V c 1 t = V c main_v16 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v16 (((cfg0.win 1).blk t).view.emb z) = V c main_v16 z
  refine congrArg (V c main_v16) (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- Window 2 stages its whole array at every point. -/
theorem blk_2 (c : Dev nD) (t : Fin cfg0.N) : iblk0 V c 2 t = V c main_v31 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v31 (((cfg0.win 2).blk t).view.emb z) = V c main_v31 z
  refine congrArg (V c main_v31) (funext fun a => Fin.ext ?_)
  match a with
  | ⟨0, _⟩ => show win0_2.index t (0 : Fin 2) * 1 + 1 * (z 0).val = (z 0).val; omega
  | ⟨1, _⟩ => show win0_2.index t (1 : Fin 2) * 128 + 1 * (z 1).val = (z 1).val; omega

/-- Window 3 stages its whole array at every point. -/
theorem blk_3 (c : Dev nD) (t : Fin cfg0.N) : iblk0 V c 3 t = V c main_v20 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v20 (((cfg0.win 3).blk t).view.emb z) = V c main_v20 z
  refine congrArg (V c main_v20) (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega

/-- Window 4 stages its whole array at every point. -/
theorem blk_4 (c : Dev nD) (t : Fin cfg0.N) : iblk0 V c 4 t = V c main_v32 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v32 (((cfg0.win 4).blk t).view.emb z) = V c main_v32 z
  refine congrArg (V c main_v32) (funext fun a => Fin.ext ?_)
  match a with
  | ⟨0, _⟩ => show win0_4.index t (0 : Fin 2) * 1 + 1 * (z 0).val = (z 0).val; omega
  | ⟨1, _⟩ => show win0_4.index t (1 : Fin 2) * 128 + 1 * (z 1).val = (z 1).val; omega

/-- Window 5 stages its whole array at every point. -/
theorem blk_5 (c : Dev nD) (t : Fin cfg0.N) : iblk0 V c 5 t = V c main_v33 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v33 (((cfg0.win 5).blk t).view.emb z) = V c main_v33 z
  refine congrArg (V c main_v33) (funext fun a => Fin.ext ?_)
  match a with
  | ⟨0, _⟩ => show win0_5.index t (0 : Fin 2) * 1 + 1 * (z 0).val = (z 0).val; omega
  | ⟨1, _⟩ => show win0_5.index t (1 : Fin 2) * 128 + 1 * (z 1).val = (z 1).val; omega

/-- Window 6 stages its whole array at every point. -/
theorem blk_6 (c : Dev nD) (t : Fin cfg0.N) : iblk0 V c 6 t = V c main_v34 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v34 (((cfg0.win 6).blk t).view.emb z) = V c main_v34 z
  refine congrArg (V c main_v34) (funext fun a => Fin.ext ?_)
  match a with
  | ⟨0, _⟩ => show win0_6.index t (0 : Fin 2) * 1 + 1 * (z 0).val = (z 0).val; omega
  | ⟨1, _⟩ => show win0_6.index t (1 : Fin 2) * 128 + 1 * (z 1).val = (z 1).val; omega

/-- Window 7 stages its whole array at every point. -/
theorem blk_7 (c : Dev nD) (t : Fin cfg0.N) : iblk0 V c 7 t = V c main_v35 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v35 (((cfg0.win 7).blk t).view.emb z) = V c main_v35 z
  refine congrArg (V c main_v35) (funext fun a => Fin.ext ?_)
  match a with
  | ⟨0, _⟩ => show win0_7.index t (0 : Fin 2) * 1 + 1 * (z 0).val = (z 0).val; omega
  | ⟨1, _⟩ => show win0_7.index t (1 : Fin 2) * 128 + 1 * (z 1).val = (z 1).val; omega

/-- Window 8 stages its whole array at every point. -/
theorem blk_8 (c : Dev nD) (t : Fin cfg0.N) : iblk0 V c 8 t = V c main_v36 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v36 (((cfg0.win 8).blk t).view.emb z) = V c main_v36 z
  refine congrArg (V c main_v36) (funext fun a => Fin.ext ?_)
  match a with
  | ⟨0, _⟩ => show win0_8.index t (0 : Fin 2) * 1 + 1 * (z 0).val = (z 0).val; omega
  | ⟨1, _⟩ => show win0_8.index t (1 : Fin 2) * 128 + 1 * (z 1).val = (z 1).val; omega

/-- The aggregated array: window 0's block at point `t` holds, at its row `y 0`, what its array holds at the row the output's block
    puts `y` on. -/
theorem row_0 (c : Dev nD) (t : Fin cfg0.N) (y : S5000x128.Idx) (k : Fin 128) :
    iblk0 V c 0 t (ix2 (y 0 : Fin 5000) k) = V c main_v14 (ix2 ((((cfg0.win 9).blk t).view.emb y) 0 : Fin 100000) k) := by
  obtain ⟨e0_0, e0_1, e1_0, e1_1, e2_0, e2_1, e3_0, e3_1, e4_0, e4_1, e5_0, e5_1, e6_0, e6_1, e7_0, e7_1, e8_0, e8_1, e9_0, e9_1⟩ := idx_facts t
  show V c main_v14 (((cfg0.win 0).blk t).view.emb (ix2 (y 0 : Fin 5000) k)) = _
  refine congrArg (V c main_v14) (funext fun a => Fin.ext ?_)
  match a with
  | ⟨0, _⟩ => show win0_0.index t (0 : Fin 2) * 5000 + 1 * (y 0).val = win0_9.index t (0 : Fin 2) * 5000 + 1 * (y 0).val; omega
  | ⟨1, _⟩ => show win0_0.index t (1 : Fin 2) * 128 + 1 * k.val = k.val; omega

/-- The output block's columns are the array's columns. -/
theorem col_out (t : Fin cfg0.N) (y : S5000x128.Idx) :
    ((y 1 : Fin 128)) = ((((cfg0.win 9).blk t).view.emb y) 1 : Fin 128) := by
  obtain ⟨e0_0, e0_1, e1_0, e1_1, e2_0, e2_1, e3_0, e3_1, e4_0, e4_1, e5_0, e5_1, e6_0, e6_1, e7_0, e7_1, e8_0, e8_1, e9_0, e9_1⟩ := idx_facts t
  refine Fin.ext ?_
  show (y 1).val = win0_9.index t (1 : Fin 2) * 128 + 1 * (y 1).val
  omega

/-- WHAT POINT `t` WRITES BACK is block `t` of the layer of the whole arrays. -/
theorem flushed_eq (c : Dev nD) (t : Fin cfg0.N) :
    (dat0 V c).flushed 9 t = ((cfg0.win 9).blk t).view.read (Elt Ideal) (blockLayer (V c main_v14) (V c main_v16) (V c main_v31) (V c main_v20) (V c main_v32) (V c main_v33) (V c main_v34) (V c main_v35) (V c main_v36)) := by
  show (cfg0.win 9).cut (grid0.coords t) ((dat0 V c).after 9 t) = _
  rw [after0_9]
  funext y
  refine (out_apply (iblk0 V c 0 t) (iblk0 V c 1 t) (iblk0 V c 2 t) (iblk0 V c 3 t) (iblk0 V c 4 t) (iblk0 V c 5 t) (iblk0 V c 6 t) (iblk0 V c 7 t) (iblk0 V c 8 t) y).trans ?_
  show _ = blockLayer (V c main_v14) (V c main_v16) (V c main_v31) (V c main_v20) (V c main_v32) (V c main_v33) (V c main_v34) (V c main_v35) (V c main_v36) (((cfg0.win 9).blk t).view.emb y)
  exact blockLayer_congr _ _ _ _ _ _ _ _ _ _ _ _ _ _ _ _ _ _ _ y (row_0 V c t y) (col_out t y)
    (blk_1 V c t) (blk_2 V c t) (blk_3 V c t) (blk_4 V c t) (blk_5 V c t) (blk_6 V c t) (blk_7 V c t) (blk_8 V c t)

/-- An index of the output array is in point `t`'s block iff each coordinate is in the block's range on its axis. -/
theorem mem_blk (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v37).slice (win0_9.rect t)).set ↔ _
  rw [View.set_slice_whole, Rect.mem_set_unit]
  exact Iff.rfl

/-- The blocks tile the rows: row `r` is in the block of point `r / 5000`. -/
theorem cover (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx_facts ⟨(i 0).val / 5000, ht⟩
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e9_0]
    show (i 0).val / 5000 * 5000 ≤ (i 0).val ∧ (i 0).val < (i 0).val / 5000 * 5000 + 5000
    omega
  | ⟨1, _⟩ =>
    show win0_9.index ⟨(i 0).val / 5000, ht⟩ (1 : Fin 2) * 128 ≤ (i 1).val ∧ (i 1).val < win0_9.index ⟨(i 0).val / 5000, ht⟩ (1 : Fin 2) * 128 + 128
    rw [e9_1]
    omega

/-- THE OUTPUT ARRAY after the region: the layer of the arrays the region found. -/
theorem out_eq (c : Dev nD) : (dat0 V c).arrAt 9 cfg0.N = (blockLayer (V c main_v14) (V c main_v16) (V c main_v31) (V c main_v20) (V c main_v32) (V c main_v33) (V c main_v34) (V c main_v35) (V c main_v36)) :=
  (dat0 V c).arrAt_eq_of_cover 9 _ (fun t _ => flushed_eq V c t) cover

end Cert.KernelIdeal.Region0

end
-- ==== Proof.Region1.lean ====
/-
  Region 1 of the kernel's program: the array its grid leaves behind.

  The region walks 20 blocks of 5000 rows. At a point `t` it stages rows `5000·t … 5000·t + 4999` of the aggregated
  array and of the skip connection's array, the two weight matrices and the six parameter rows whole, runs the layer on the block and writes the block
  back to the same rows of its output. Since the layer acts on each row by itself, the 20 blocks written back are
  the 20 blocks of ONE array: the layer applied to the whole aggregated array, plus the skip connection's array. The blocks tile the rows (row `r`
  is in block `r / 5000`), so that array is what the output holds after the region.

  Everything is stated at the region's entry contents `V`, whatever they are.
-/
import proofs.«126544_j10213432229997_1_alg».proof.Proof.Gen.KernelIdeal.Frame
import proofs.«126544_j10213432229997_1_alg».proof.Proof.GinRows

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline Cert.Dense Cert.Gin

variable (V : (c : Dev nD) → (b : Ref sig .tc) → Buf (Elt Ideal) ((c : Thread nD τ).loc b))

theorem hz : (![0, 0] : Fin 2 → Nat) = fun _ => 0 := funext fun a => by fin_cases a <;> rfl

/-- The matrix unit's record contracts the block's columns against the weight's rows. -/
theorem rowsCols : RowsCols dot_S5000x128_S128x128_S5000x128_1_0_0_1_n_n :=
  ⟨rfl, rfl, fun _ _ => rfl, fun _ _ => rfl, fun _ _ => rfl, fun _ _ => rfl⟩

/-- The printed index maps, decided once over the 20 points: the row-blocked windows sit at block `t` of the rows,
    every other window at block 0 of its array. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0
    ∧ win1_10.index t (0 : Fin 2) = t.val
    ∧ win1_10.index t (1 : Fin 2) = 0 :=
  (by decide +kernel : ∀ t : Fin grid1.N, _)

/-- What the body leaves in its output block is the layer of the staged blocks, entry by entry. -/
theorem out_apply (x0 : Vec Ideal S5000x128 .f32) (x1 : Vec Ideal S128x128 .f32) (x2 : Vec Ideal S1x128 .f32) (x3 : Vec Ideal S128x128 .f32) (x4 x5 x6 x7 x8 : Vec Ideal S1x128 .f32) (x9 : Vec Ideal S5000x128 .f32) (y : S5000x128.Idx) :
    out1_10 x0 x1 x2 x3 x4 x5 x6 x7 x8 x9 y = blockLayerRes x0 x1 x2 x3 x4 x5 x6 x7 x8 x9 y := by
  obtain ⟨p, j, rfl⟩ : ∃ (p : Fin 5000) (j : Fin 128), y = ix2 p j := ⟨y 0, y 1, eq_ix2 y⟩
  unfold out1_10
  rw [View.canon_unit_zero hz]
  simp only [View.ld_unit_zero (S := S5000x128) hz, View.ld_unit_zero (S := S128x128) hz, View.ld_unit_zero (S := S1x128) hz]
  exact block_res_apply dot_S5000x128_S128x128_S5000x128_1_0_0_1_n_n rowsCols shapeCasts_S1x128_S1x128 broadcasts_S1x128_S5000x128
    shapeCasts_S5000x128_S5000x128 shapeCasts_S128x128_S128x128 bitsLt_bf16_f32 x0 x1 x2 x5 x8 x7 x6 x3 x4 x9 p j

/-- Window 1 stages its whole array at every point. -/
theorem blk_1 (c : Dev nD) (t : Fin cfg1.N) : iblk1 V c 1 t = V c main_v50 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v50 (((cfg1.win 1).blk t).view.emb z) = V c main_v50 z
  refine congrArg (V c main_v50) (funext fun a => Fin.ext ?_)
  match a with
  | ⟨0, _⟩ => show win1_1.index t (0 : Fin 2) * 128 + 1 * (z 0).val = (z 0).val; omega
  | ⟨1, _⟩ => show win1_1.index t (1 : Fin 2) * 128 + 1 * (z 1).val = (z 1).val; omega

/-- Window 2 stages its whole array at every point. -/
theorem blk_2 (c : Dev nD) (t : Fin cfg1.N) : iblk1 V c 2 t = V c main_v65 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v65 (((cfg1.win 2).blk t).view.emb z) = V c main_v65 z
  refine congrArg (V c main_v65) (funext fun a => Fin.ext ?_)
  match a with
  | ⟨0, _⟩ => show win1_2.index t (0 : Fin 2) * 1 + 1 * (z 0).val = (z 0).val; omega
  | ⟨1, _⟩ => show win1_2.index t (1 : Fin 2) * 128 + 1 * (z 1).val = (z 1).val; omega

/-- Window 3 stages its whole array at every point. -/
theorem blk_3 (c : Dev nD) (t : Fin cfg1.N) : iblk1 V c 3 t = V c main_v54 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v54 (((cfg1.win 3).blk t).view.emb z) = V c main_v54 z
  refine congrArg (V c main_v54) (funext fun a => Fin.ext ?_)
  match a with
  | ⟨0, _⟩ => show win1_3.index t (0 : Fin 2) * 128 + 1 * (z 0).val = (z 0).val; omega
  | ⟨1, _⟩ => show win1_3.index t (1 : Fin 2) * 128 + 1 * (z 1).val = (z 1).val; omega

/-- Window 4 stages its whole array at every point. -/
theorem blk_4 (c : Dev nD) (t : Fin cfg1.N) : iblk1 V c 4 t = V c main_v66 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v66 (((cfg1.win 4).blk t).view.emb z) = V c main_v66 z
  refine congrArg (V c main_v66) (funext fun a => Fin.ext ?_)
  match a with
  | ⟨0, _⟩ => show win1_4.index t (0 : Fin 2) * 1 + 1 * (z 0).val = (z 0).val; omega
  | ⟨1, _⟩ => show win1_4.index t (1 : Fin 2) * 128 + 1 * (z 1).val = (z 1).val; omega

/-- Window 5 stages its whole array at every point. -/
theorem blk_5 (c : Dev nD) (t : Fin cfg1.N) : iblk1 V c 5 t = V c main_v67 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v67 (((cfg1.win 5).blk t).view.emb z) = V c main_v67 z
  refine congrArg (V c main_v67) (funext fun a => Fin.ext ?_)
  match a with
  | ⟨0, _⟩ => show win1_5.index t (0 : Fin 2) * 1 + 1 * (z 0).val = (z 0).val; omega
  | ⟨1, _⟩ => show win1_5.index t (1 : Fin 2) * 128 + 1 * (z 1).val = (z 1).val; omega

/-- Window 6 stages its whole array at every point. -/
theorem blk_6 (c : Dev nD) (t : Fin cfg1.N) : iblk1 V c 6 t = V c main_v68 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v68 (((cfg1.win 6).blk t).view.emb z) = V c main_v68 z
  refine congrArg (V c main_v68) (funext fun a => Fin.ext ?_)
  match a with
  | ⟨0, _⟩ => show win1_6.index t (0 : Fin 2) * 1 + 1 * (z 0).val = (z 0).val; omega
  | ⟨1, _⟩ => show win1_6.index t (1 : Fin 2) * 128 + 1 * (z 1).val = (z 1).val; omega

/-- Window 7 stages its whole array at every point. -/
theorem blk_7 (c : Dev nD) (t : Fin cfg1.N) : iblk1 V c 7 t = V c main_v69 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v69 (((cfg1.win 7).blk t).view.emb z) = V c main_v69 z
  refine congrArg (V c main_v69) (funext fun a => Fin.ext ?_)
  match a with
  | ⟨0, _⟩ => show win1_7.index t (0 : Fin 2) * 1 + 1 * (z 0).val = (z 0).val; omega
  | ⟨1, _⟩ => show win1_7.index t (1 : Fin 2) * 128 + 1 * (z 1).val = (z 1).val; omega

/-- Window 8 stages its whole array at every point. -/
theorem blk_8 (c : Dev nD) (t : Fin cfg1.N) : iblk1 V c 8 t = V c main_v70 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v70 (((cfg1.win 8).blk t).view.emb z) = V c main_v70 z
  refine congrArg (V c main_v70) (funext fun a => Fin.ext ?_)
  match a with
  | ⟨0, _⟩ => show win1_8.index t (0 : Fin 2) * 1 + 1 * (z 0).val = (z 0).val; omega
  | ⟨1, _⟩ => show win1_8.index t (1 : Fin 2) * 128 + 1 * (z 1).val = (z 1).val; omega

/-- The aggregated array: window 0's block at point `t` holds, at its row `y 0`, what its array holds at the row the output's block
    puts `y` on. -/
theorem row_0 (c : Dev nD) (t : Fin cfg1.N) (y : S5000x128.Idx) (k : Fin 128) :
    iblk1 V c 0 t (ix2 (y 0 : Fin 5000) k) = V c main_v48 (ix2 ((((cfg1.win 10).blk t).view.emb y) 0 : Fin 100000) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v48 (((cfg1.win 0).blk t).view.emb (ix2 (y 0 : Fin 5000) k)) = _
  refine congrArg (V c main_v48) (funext fun a => Fin.ext ?_)
  match a with
  | ⟨0, _⟩ => show win1_0.index t (0 : Fin 2) * 5000 + 1 * (y 0).val = win1_10.index t (0 : Fin 2) * 5000 + 1 * (y 0).val; omega
  | ⟨1, _⟩ => show win1_0.index t (1 : Fin 2) * 128 + 1 * k.val = k.val; omega

/-- The skip connection's array: window 9's block at point `t` holds at `y` what its array holds where the output's
    block puts `y`. -/
theorem res_9 (c : Dev nD) (t : Fin cfg1.N) (y : S5000x128.Idx) :
    iblk1 V c 9 t y = V c main_arg0 (((cfg1.win 10).blk t).view.emb y) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_arg0 (((cfg1.win 9).blk t).view.emb y) = _
  refine congrArg (V c main_arg0) (funext fun a => Fin.ext ?_)
  match a with
  | ⟨0, _⟩ => show win1_9.index t (0 : Fin 2) * 5000 + 1 * (y 0).val = win1_10.index t (0 : Fin 2) * 5000 + 1 * (y 0).val; omega
  | ⟨1, _⟩ => show win1_9.index t (1 : Fin 2) * 128 + 1 * (y 1).val = win1_10.index t (1 : Fin 2) * 128 + 1 * (y 1).val; omega

/-- The output block's columns are the array's columns. -/
theorem col_out (t : Fin cfg1.N) (y : S5000x128.Idx) :
    ((y 1 : Fin 128)) = ((((cfg1.win 10).blk t).view.emb y) 1 : Fin 128) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine Fin.ext ?_
  show (y 1).val = win1_10.index t (1 : Fin 2) * 128 + 1 * (y 1).val
  omega

/-- WHAT POINT `t` WRITES BACK is block `t` of the layer of the whole arrays. -/
theorem flushed_eq (c : Dev nD) (t : Fin cfg1.N) :
    (dat1 V c).flushed 10 t = ((cfg1.win 10).blk t).view.read (Elt Ideal) (blockLayerRes (V c main_v48) (V c main_v50) (V c main_v65) (V c main_v54) (V c main_v66) (V c main_v67) (V c main_v68) (V c main_v69) (V c main_v70) (V c main_arg0)) := by
  show (cfg1.win 10).cut (grid1.coords t) ((dat1 V c).after 10 t) = _
  rw [after1_10]
  funext y
  refine (out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) y).trans ?_
  show _ = blockLayerRes (V c main_v48) (V c main_v50) (V c main_v65) (V c main_v54) (V c main_v66) (V c main_v67) (V c main_v68) (V c main_v69) (V c main_v70) (V c main_arg0) (((cfg1.win 10).blk t).view.emb y)
  unfold blockLayerRes
  refine congrArg₂ (· + ·) ?_ (res_9 V c t y)
  exact blockLayer_congr _ _ _ _ _ _ _ _ _ _ _ _ _ _ _ _ _ _ _ y (row_0 V c t y) (col_out t y)
    (blk_1 V c t) (blk_2 V c t) (blk_3 V c t) (blk_4 V c t) (blk_5 V c t) (blk_6 V c t) (blk_7 V c t) (blk_8 V c t)

/-- An index of the output array is in point `t`'s block iff each coordinate is in the block's range on its axis. -/
theorem mem_blk (t : Fin cfg1.N) (i : S100000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v71).slice (win1_10.rect t)).set ↔ _
  rw [View.set_slice_whole, Rect.mem_set_unit]
  exact Iff.rfl

/-- The blocks tile the rows: row `r` is in the block of point `r / 5000`. -/
theorem cover (i : S100000x128.Idx) : ∃ t : Fin cfg1.N, (cfg1.win 10).flush t = true ∧ i ∈ ((cfg1.win 10).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts ⟨(i 0).val / 5000, ht⟩
  refine ⟨⟨(i 0).val / 5000, ht⟩, flush1_10 _, ?_⟩
  rw [mem_blk]
  intro a
  match a with
  | ⟨0, _⟩ =>
    show win1_10.index ⟨(i 0).val / 5000, ht⟩ (0 : Fin 2) * 5000 ≤ (i 0).val ∧ (i 0).val < win1_10.index ⟨(i 0).val / 5000, ht⟩ (0 : Fin 2) * 5000 + 5000
    rw [e10_0]
    show (i 0).val / 5000 * 5000 ≤ (i 0).val ∧ (i 0).val < (i 0).val / 5000 * 5000 + 5000
    omega
  | ⟨1, _⟩ =>
    show win1_10.index ⟨(i 0).val / 5000, ht⟩ (1 : Fin 2) * 128 ≤ (i 1).val ∧ (i 1).val < win1_10.index ⟨(i 0).val / 5000, ht⟩ (1 : Fin 2) * 128 + 128
    rw [e10_1]
    omega

/-- THE OUTPUT ARRAY after the region: the layer of the arrays the region found, plus the skip connection's array. -/
theorem out_eq (c : Dev nD) : (dat1 V c).arrAt 10 cfg1.N = (blockLayerRes (V c main_v48) (V c main_v50) (V c main_v65) (V c main_v54) (V c main_v66) (V c main_v67) (V c main_v68) (V c main_v69) (V c main_v70) (V c main_arg0)) :=
  (dat1 V c).arrAt_eq_of_cover 10 _ (fun t _ => flushed_eq V c t) cover

end Cert.KernelIdeal.Region1

end
-- ==== Proof.Region2.lean ====
/-
  Region 2 of the kernel's program: the array its grid leaves behind.

  The region walks 20 blocks of 5000 rows. At a point `t` it stages rows `5000·t … 5000·t + 4999` of the aggregated
  array, the two weight matrices and the six parameter rows whole, runs the layer on the block and writes the block
  back to the same rows of its output. Since the layer acts on each row by itself, the 20 blocks written back are
  the 20 blocks of ONE array: the layer applied to the whole aggregated array. The blocks tile the rows (row `r`
  is in block `r / 5000`), so that array is what the output holds after the region.

  Everything is stated at the region's entry contents `V`, whatever they are.
-/
import proofs.«126544_j10213432229997_1_alg».proof.Proof.Gen.KernelIdeal.Frame
import proofs.«126544_j10213432229997_1_alg».proof.Proof.GinRows

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline Cert.Dense Cert.Gin

variable (V : (c : Dev nD) → (b : Ref sig .tc) → Buf (Elt Ideal) ((c : Thread nD τ).loc b))

theorem hz : (![0, 0] : Fin 2 → Nat) = fun _ => 0 := funext fun a => by fin_cases a <;> rfl

/-- The matrix unit's record contracts the block's columns against the weight's rows. -/
theorem rowsCols : RowsCols dot_S5000x128_S128x128_S5000x128_1_0_0_1_n_n :=
  ⟨rfl, rfl, fun _ _ => rfl, fun _ _ => rfl, fun _ _ => rfl, fun _ _ => rfl⟩

/-- The printed index maps, decided once over the 20 points: the row-blocked windows sit at block `t` of the rows,
    every other window at block 0 of its array. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-- What the body leaves in its output block is the layer of the staged blocks, entry by entry. -/
theorem out_apply (x0 : Vec Ideal S5000x128 .f32) (x1 : Vec Ideal S128x128 .f32) (x2 : Vec Ideal S1x128 .f32) (x3 : Vec Ideal S128x128 .f32) (x4 x5 x6 x7 x8 : Vec Ideal S1x128 .f32) (y : S5000x128.Idx) :
    out2_9 x0 x1 x2 x3 x4 x5 x6 x7 x8 y = blockLayer x0 x1 x2 x3 x4 x5 x6 x7 x8 y := by
  obtain ⟨p, j, rfl⟩ : ∃ (p : Fin 5000) (j : Fin 128), y = ix2 p j := ⟨y 0, y 1, eq_ix2 y⟩
  unfold out2_9
  rw [View.canon_unit_zero hz]
  simp only [View.ld_unit_zero (S := S5000x128) hz, View.ld_unit_zero (S := S128x128) hz, View.ld_unit_zero (S := S1x128) hz]
  exact block_apply dot_S5000x128_S128x128_S5000x128_1_0_0_1_n_n rowsCols shapeCasts_S1x128_S1x128 broadcasts_S1x128_S5000x128
    shapeCasts_S5000x128_S5000x128 shapeCasts_S128x128_S128x128 bitsLt_bf16_f32 x0 x1 x2 x5 x8 x7 x6 x3 x4 p j

/-- Window 1 stages its whole array at every point. -/
theorem blk_1 (c : Dev nD) (t : Fin cfg2.N) : iblk2 V c 1 t = V c main_v84 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v84 (((cfg2.win 1).blk t).view.emb z) = V c main_v84 z
  refine congrArg (V c main_v84) (funext fun a => Fin.ext ?_)
  match a with
  | ⟨0, _⟩ => show win2_1.index t (0 : Fin 2) * 128 + 1 * (z 0).val = (z 0).val; omega
  | ⟨1, _⟩ => show win2_1.index t (1 : Fin 2) * 128 + 1 * (z 1).val = (z 1).val; omega

/-- Window 2 stages its whole array at every point. -/
theorem blk_2 (c : Dev nD) (t : Fin cfg2.N) : iblk2 V c 2 t = V c main_v99 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v99 (((cfg2.win 2).blk t).view.emb z) = V c main_v99 z
  refine congrArg (V c main_v99) (funext fun a => Fin.ext ?_)
  match a with
  | ⟨0, _⟩ => show win2_2.index t (0 : Fin 2) * 1 + 1 * (z 0).val = (z 0).val; omega
  | ⟨1, _⟩ => show win2_2.index t (1 : Fin 2) * 128 + 1 * (z 1).val = (z 1).val; omega

/-- Window 3 stages its whole array at every point. -/
theorem blk_3 (c : Dev nD) (t : Fin cfg2.N) : iblk2 V c 3 t = V c main_v88 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v88 (((cfg2.win 3).blk t).view.emb z) = V c main_v88 z
  refine congrArg (V c main_v88) (funext fun a => Fin.ext ?_)
  match a with
  | ⟨0, _⟩ => show win2_3.index t (0 : Fin 2) * 128 + 1 * (z 0).val = (z 0).val; omega
  | ⟨1, _⟩ => show win2_3.index t (1 : Fin 2) * 128 + 1 * (z 1).val = (z 1).val; omega

/-- Window 4 stages its whole array at every point. -/
theorem blk_4 (c : Dev nD) (t : Fin cfg2.N) : iblk2 V c 4 t = V c main_v100 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v100 (((cfg2.win 4).blk t).view.emb z) = V c main_v100 z
  refine congrArg (V c main_v100) (funext fun a => Fin.ext ?_)
  match a with
  | ⟨0, _⟩ => show win2_4.index t (0 : Fin 2) * 1 + 1 * (z 0).val = (z 0).val; omega
  | ⟨1, _⟩ => show win2_4.index t (1 : Fin 2) * 128 + 1 * (z 1).val = (z 1).val; omega

/-- Window 5 stages its whole array at every point. -/
theorem blk_5 (c : Dev nD) (t : Fin cfg2.N) : iblk2 V c 5 t = V c main_v101 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v101 (((cfg2.win 5).blk t).view.emb z) = V c main_v101 z
  refine congrArg (V c main_v101) (funext fun a => Fin.ext ?_)
  match a with
  | ⟨0, _⟩ => show win2_5.index t (0 : Fin 2) * 1 + 1 * (z 0).val = (z 0).val; omega
  | ⟨1, _⟩ => show win2_5.index t (1 : Fin 2) * 128 + 1 * (z 1).val = (z 1).val; omega

/-- Window 6 stages its whole array at every point. -/
theorem blk_6 (c : Dev nD) (t : Fin cfg2.N) : iblk2 V c 6 t = V c main_v102 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v102 (((cfg2.win 6).blk t).view.emb z) = V c main_v102 z
  refine congrArg (V c main_v102) (funext fun a => Fin.ext ?_)
  match a with
  | ⟨0, _⟩ => show win2_6.index t (0 : Fin 2) * 1 + 1 * (z 0).val = (z 0).val; omega
  | ⟨1, _⟩ => show win2_6.index t (1 : Fin 2) * 128 + 1 * (z 1).val = (z 1).val; omega

/-- Window 7 stages its whole array at every point. -/
theorem blk_7 (c : Dev nD) (t : Fin cfg2.N) : iblk2 V c 7 t = V c main_v103 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v103 (((cfg2.win 7).blk t).view.emb z) = V c main_v103 z
  refine congrArg (V c main_v103) (funext fun a => Fin.ext ?_)
  match a with
  | ⟨0, _⟩ => show win2_7.index t (0 : Fin 2) * 1 + 1 * (z 0).val = (z 0).val; omega
  | ⟨1, _⟩ => show win2_7.index t (1 : Fin 2) * 128 + 1 * (z 1).val = (z 1).val; omega

/-- Window 8 stages its whole array at every point. -/
theorem blk_8 (c : Dev nD) (t : Fin cfg2.N) : iblk2 V c 8 t = V c main_v104 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v104 (((cfg2.win 8).blk t).view.emb z) = V c main_v104 z
  refine congrArg (V c main_v104) (funext fun a => Fin.ext ?_)
  match a with
  | ⟨0, _⟩ => show win2_8.index t (0 : Fin 2) * 1 + 1 * (z 0).val = (z 0).val; omega
  | ⟨1, _⟩ => show win2_8.index t (1 : Fin 2) * 128 + 1 * (z 1).val = (z 1).val; omega

/-- The aggregated array: window 0's block at point `t` holds, at its row `y 0`, what its array holds at the row the output's block
    puts `y` on. -/
theorem row_0 (c : Dev nD) (t : Fin cfg2.N) (y : S5000x128.Idx) (k : Fin 128) :
    iblk2 V c 0 t (ix2 (y 0 : Fin 5000) k) = V c main_v82 (ix2 ((((cfg2.win 9).blk t).view.emb y) 0 : Fin 100000) k) := by
  obtain ⟨e0_0, e0_1, e1_0, e1_1, e2_0, e2_1, e3_0, e3_1, e4_0, e4_1, e5_0, e5_1, e6_0, e6_1, e7_0, e7_1, e8_0, e8_1, e9_0, e9_1⟩ := idx_facts t
  show V c main_v82 (((cfg2.win 0).blk t).view.emb (ix2 (y 0 : Fin 5000) k)) = _
  refine congrArg (V c main_v82) (funext fun a => Fin.ext ?_)
  match a with
  | ⟨0, _⟩ => show win2_0.index t (0 : Fin 2) * 5000 + 1 * (y 0).val = win2_9.index t (0 : Fin 2) * 5000 + 1 * (y 0).val; omega
  | ⟨1, _⟩ => show win2_0.index t (1 : Fin 2) * 128 + 1 * k.val = k.val; omega

/-- The output block's columns are the array's columns. -/
theorem col_out (t : Fin cfg2.N) (y : S5000x128.Idx) :
    ((y 1 : Fin 128)) = ((((cfg2.win 9).blk t).view.emb y) 1 : Fin 128) := by
  obtain ⟨e0_0, e0_1, e1_0, e1_1, e2_0, e2_1, e3_0, e3_1, e4_0, e4_1, e5_0, e5_1, e6_0, e6_1, e7_0, e7_1, e8_0, e8_1, e9_0, e9_1⟩ := idx_facts t
  refine Fin.ext ?_
  show (y 1).val = win2_9.index t (1 : Fin 2) * 128 + 1 * (y 1).val
  omega

/-- WHAT POINT `t` WRITES BACK is block `t` of the layer of the whole arrays. -/
theorem flushed_eq (c : Dev nD) (t : Fin cfg2.N) :
    (dat2 V c).flushed 9 t = ((cfg2.win 9).blk t).view.read (Elt Ideal) (blockLayer (V c main_v82) (V c main_v84) (V c main_v99) (V c main_v88) (V c main_v100) (V c main_v101) (V c main_v102) (V c main_v103) (V c main_v104)) := by
  show (cfg2.win 9).cut (grid2.coords t) ((dat2 V c).after 9 t) = _
  rw [after2_9]
  funext y
  refine (out_apply (iblk2 V c 0 t) (iblk2 V c 1 t) (iblk2 V c 2 t) (iblk2 V c 3 t) (iblk2 V c 4 t) (iblk2 V c 5 t) (iblk2 V c 6 t) (iblk2 V c 7 t) (iblk2 V c 8 t) y).trans ?_
  show _ = blockLayer (V c main_v82) (V c main_v84) (V c main_v99) (V c main_v88) (V c main_v100) (V c main_v101) (V c main_v102) (V c main_v103) (V c main_v104) (((cfg2.win 9).blk t).view.emb y)
  exact blockLayer_congr _ _ _ _ _ _ _ _ _ _ _ _ _ _ _ _ _ _ _ y (row_0 V c t y) (col_out t y)
    (blk_1 V c t) (blk_2 V c t) (blk_3 V c t) (blk_4 V c t) (blk_5 V c t) (blk_6 V c t) (blk_7 V c t) (blk_8 V c t)

/-- An index of the output array is in point `t`'s block iff each coordinate is in the block's range on its axis. -/
theorem mem_blk (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v105).slice (win2_9.rect t)).set ↔ _
  rw [View.set_slice_whole, Rect.mem_set_unit]
  exact Iff.rfl

/-- The blocks tile the rows: row `r` is in the block of point `r / 5000`. -/
theorem cover (i : S100000x128.Idx) : ∃ t : Fin cfg2.N, (cfg2.win 9).flush t = true ∧ i ∈ ((cfg2.win 9).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx_facts ⟨(i 0).val / 5000, ht⟩
  refine ⟨⟨(i 0).val / 5000, ht⟩, flush2_9 _, ?_⟩
  rw [mem_blk]
  intro a
  match a with
  | ⟨0, _⟩ =>
    show win2_9.index ⟨(i 0).val / 5000, ht⟩ (0 : Fin 2) * 5000 ≤ (i 0).val ∧ (i 0).val < win2_9.index ⟨(i 0).val / 5000, ht⟩ (0 : Fin 2) * 5000 + 5000
    rw [e9_0]
    show (i 0).val / 5000 * 5000 ≤ (i 0).val ∧ (i 0).val < (i 0).val / 5000 * 5000 + 5000
    omega
  | ⟨1, _⟩ =>
    show win2_9.index ⟨(i 0).val / 5000, ht⟩ (1 : Fin 2) * 128 ≤ (i 1).val ∧ (i 1).val < win2_9.index ⟨(i 0).val / 5000, ht⟩ (1 : Fin 2) * 128 + 128
    rw [e9_1]
    omega

/-- THE OUTPUT ARRAY after the region: the layer of the arrays the region found. -/
theorem out_eq (c : Dev nD) : (dat2 V c).arrAt 9 cfg2.N = (blockLayer (V c main_v82) (V c main_v84) (V c main_v99) (V c main_v88) (V c main_v100) (V c main_v101) (V c main_v102) (V c main_v103) (V c main_v104)) :=
  (dat2 V c).arrAt_eq_of_cover 9 _ (fun t _ => flushed_eq V c t) cover

end Cert.KernelIdeal.Region2

end
-- ==== Proof.Region3.lean ====
/-
  Region 3 of the kernel's program: the array its grid leaves behind.

  The region walks 20 blocks of 5000 rows. At a point `t` it stages rows `5000·t … 5000·t + 4999` of the aggregated
  array and of the skip connection's array, the two weight matrices and the six parameter rows whole, runs the layer on the block and writes the block
  back to the same rows of its output. Since the layer acts on each row by itself, the 20 blocks written back are
  the 20 blocks of ONE array: the layer applied to the whole aggregated array, plus the skip connection's array. The blocks tile the rows (row `r`
  is in block `r / 5000`), so that array is what the output holds after the region.

  Everything is stated at the region's entry contents `V`, whatever they are.
-/
import proofs.«126544_j10213432229997_1_alg».proof.Proof.Gen.KernelIdeal.Frame
import proofs.«126544_j10213432229997_1_alg».proof.Proof.GinRows

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem Idealize.ShloMosaic.Pipeline Cert.Dense Cert.Gin

variable (V : (c : Dev nD) → (b : Ref sig .tc) → Buf (Elt Ideal) ((c : Thread nD τ).loc b))

theorem hz : (![0, 0] : Fin 2 → Nat) = fun _ => 0 := funext fun a => by fin_cases a <;> rfl

/-- The matrix unit's record contracts the block's columns against the weight's rows. -/
theorem rowsCols : RowsCols dot_S5000x128_S128x128_S5000x128_1_0_0_1_n_n :=
  ⟨rfl, rfl, fun _ _ => rfl, fun _ _ => rfl, fun _ _ => rfl, fun _ _ => rfl⟩

/-- The printed index maps, decided once over the 20 points: the row-blocked windows sit at block `t` of the rows,
    every other window at block 0 of its array. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = t.val
    ∧ win3_9.index t (1 : Fin 2) = 0
    ∧ win3_10.index t (0 : Fin 2) = t.val
    ∧ win3_10.index t (1 : Fin 2) = 0 :=
  (by decide +kernel : ∀ t : Fin grid3.N, _)

/-- What the body leaves in its output block is the layer of the staged blocks, entry by entry. -/
theorem out_apply (x0 : Vec Ideal S5000x128 .f32) (x1 : Vec Ideal S128x128 .f32) (x2 : Vec Ideal S1x128 .f32) (x3 : Vec Ideal S128x128 .f32) (x4 x5 x6 x7 x8 : Vec Ideal S1x128 .f32) (x9 : Vec Ideal S5000x128 .f32) (y : S5000x128.Idx) :
    out3_10 x0 x1 x2 x3 x4 x5 x6 x7 x8 x9 y = blockLayerRes x0 x1 x2 x3 x4 x5 x6 x7 x8 x9 y := by
  obtain ⟨p, j, rfl⟩ : ∃ (p : Fin 5000) (j : Fin 128), y = ix2 p j := ⟨y 0, y 1, eq_ix2 y⟩
  unfold out3_10
  rw [View.canon_unit_zero hz]
  simp only [View.ld_unit_zero (S := S5000x128) hz, View.ld_unit_zero (S := S128x128) hz, View.ld_unit_zero (S := S1x128) hz]
  exact block_res_cast_apply dot_S5000x128_S128x128_S5000x128_1_0_0_1_n_n rowsCols shapeCasts_S1x128_S1x128 broadcasts_S1x128_S5000x128
    shapeCasts_S5000x128_S5000x128 shapeCasts_S128x128_S128x128 bitsLt_bf16_f32 x0 x1 x2 x5 x8 x7 x6 x3 x4 x9 p j

/-- Window 1 stages its whole array at every point. -/
theorem blk_1 (c : Dev nD) (t : Fin cfg3.N) : iblk3 V c 1 t = V c main_v118 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v118 (((cfg3.win 1).blk t).view.emb z) = V c main_v118 z
  refine congrArg (V c main_v118) (funext fun a => Fin.ext ?_)
  match a with
  | ⟨0, _⟩ => show win3_1.index t (0 : Fin 2) * 128 + 1 * (z 0).val = (z 0).val; omega
  | ⟨1, _⟩ => show win3_1.index t (1 : Fin 2) * 128 + 1 * (z 1).val = (z 1).val; omega

/-- Window 2 stages its whole array at every point. -/
theorem blk_2 (c : Dev nD) (t : Fin cfg3.N) : iblk3 V c 2 t = V c main_v133 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v133 (((cfg3.win 2).blk t).view.emb z) = V c main_v133 z
  refine congrArg (V c main_v133) (funext fun a => Fin.ext ?_)
  match a with
  | ⟨0, _⟩ => show win3_2.index t (0 : Fin 2) * 1 + 1 * (z 0).val = (z 0).val; omega
  | ⟨1, _⟩ => show win3_2.index t (1 : Fin 2) * 128 + 1 * (z 1).val = (z 1).val; omega

/-- Window 3 stages its whole array at every point. -/
theorem blk_3 (c : Dev nD) (t : Fin cfg3.N) : iblk3 V c 3 t = V c main_v122 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v122 (((cfg3.win 3).blk t).view.emb z) = V c main_v122 z
  refine congrArg (V c main_v122) (funext fun a => Fin.ext ?_)
  match a with
  | ⟨0, _⟩ => show win3_3.index t (0 : Fin 2) * 128 + 1 * (z 0).val = (z 0).val; omega
  | ⟨1, _⟩ => show win3_3.index t (1 : Fin 2) * 128 + 1 * (z 1).val = (z 1).val; omega

/-- Window 4 stages its whole array at every point. -/
theorem blk_4 (c : Dev nD) (t : Fin cfg3.N) : iblk3 V c 4 t = V c main_v134 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v134 (((cfg3.win 4).blk t).view.emb z) = V c main_v134 z
  refine congrArg (V c main_v134) (funext fun a => Fin.ext ?_)
  match a with
  | ⟨0, _⟩ => show win3_4.index t (0 : Fin 2) * 1 + 1 * (z 0).val = (z 0).val; omega
  | ⟨1, _⟩ => show win3_4.index t (1 : Fin 2) * 128 + 1 * (z 1).val = (z 1).val; omega

/-- Window 5 stages its whole array at every point. -/
theorem blk_5 (c : Dev nD) (t : Fin cfg3.N) : iblk3 V c 5 t = V c main_v135 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v135 (((cfg3.win 5).blk t).view.emb z) = V c main_v135 z
  refine congrArg (V c main_v135) (funext fun a => Fin.ext ?_)
  match a with
  | ⟨0, _⟩ => show win3_5.index t (0 : Fin 2) * 1 + 1 * (z 0).val = (z 0).val; omega
  | ⟨1, _⟩ => show win3_5.index t (1 : Fin 2) * 128 + 1 * (z 1).val = (z 1).val; omega

/-- Window 6 stages its whole array at every point. -/
theorem blk_6 (c : Dev nD) (t : Fin cfg3.N) : iblk3 V c 6 t = V c main_v136 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v136 (((cfg3.win 6).blk t).view.emb z) = V c main_v136 z
  refine congrArg (V c main_v136) (funext fun a => Fin.ext ?_)
  match a with
  | ⟨0, _⟩ => show win3_6.index t (0 : Fin 2) * 1 + 1 * (z 0).val = (z 0).val; omega
  | ⟨1, _⟩ => show win3_6.index t (1 : Fin 2) * 128 + 1 * (z 1).val = (z 1).val; omega

/-- Window 7 stages its whole array at every point. -/
theorem blk_7 (c : Dev nD) (t : Fin cfg3.N) : iblk3 V c 7 t = V c main_v137 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v137 (((cfg3.win 7).blk t).view.emb z) = V c main_v137 z
  refine congrArg (V c main_v137) (funext fun a => Fin.ext ?_)
  match a with
  | ⟨0, _⟩ => show win3_7.index t (0 : Fin 2) * 1 + 1 * (z 0).val = (z 0).val; omega
  | ⟨1, _⟩ => show win3_7.index t (1 : Fin 2) * 128 + 1 * (z 1).val = (z 1).val; omega

/-- Window 8 stages its whole array at every point. -/
theorem blk_8 (c : Dev nD) (t : Fin cfg3.N) : iblk3 V c 8 t = V c main_v138 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v138 (((cfg3.win 8).blk t).view.emb z) = V c main_v138 z
  refine congrArg (V c main_v138) (funext fun a => Fin.ext ?_)
  match a with
  | ⟨0, _⟩ => show win3_8.index t (0 : Fin 2) * 1 + 1 * (z 0).val = (z 0).val; omega
  | ⟨1, _⟩ => show win3_8.index t (1 : Fin 2) * 128 + 1 * (z 1).val = (z 1).val; omega

/-- The aggregated array: window 0's block at point `t` holds, at its row `y 0`, what its array holds at the row the output's block
    puts `y` on. -/
theorem row_0 (c : Dev nD) (t : Fin cfg3.N) (y : S5000x128.Idx) (k : Fin 128) :
    iblk3 V c 0 t (ix2 (y 0 : Fin 5000) k) = V c main_v116 (ix2 ((((cfg3.win 10).blk t).view.emb y) 0 : Fin 100000) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v116 (((cfg3.win 0).blk t).view.emb (ix2 (y 0 : Fin 5000) k)) = _
  refine congrArg (V c main_v116) (funext fun a => Fin.ext ?_)
  match a with
  | ⟨0, _⟩ => show win3_0.index t (0 : Fin 2) * 5000 + 1 * (y 0).val = win3_10.index t (0 : Fin 2) * 5000 + 1 * (y 0).val; omega
  | ⟨1, _⟩ => show win3_0.index t (1 : Fin 2) * 128 + 1 * k.val = k.val; omega

/-- The skip connection's array: window 9's block at point `t` holds at `y` what its array holds where the output's
    block puts `y`. -/
theorem res_9 (c : Dev nD) (t : Fin cfg3.N) (y : S5000x128.Idx) :
    iblk3 V c 9 t y = V c main_v71 (((cfg3.win 10).blk t).view.emb y) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v71 (((cfg3.win 9).blk t).view.emb y) = _
  refine congrArg (V c main_v71) (funext fun a => Fin.ext ?_)
  match a with
  | ⟨0, _⟩ => show win3_9.index t (0 : Fin 2) * 5000 + 1 * (y 0).val = win3_10.index t (0 : Fin 2) * 5000 + 1 * (y 0).val; omega
  | ⟨1, _⟩ => show win3_9.index t (1 : Fin 2) * 128 + 1 * (y 1).val = win3_10.index t (1 : Fin 2) * 128 + 1 * (y 1).val; omega

/-- The output block's columns are the array's columns. -/
theorem col_out (t : Fin cfg3.N) (y : S5000x128.Idx) :
    ((y 1 : Fin 128)) = ((((cfg3.win 10).blk t).view.emb y) 1 : Fin 128) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine Fin.ext ?_
  show (y 1).val = win3_10.index t (1 : Fin 2) * 128 + 1 * (y 1).val
  omega

/-- WHAT POINT `t` WRITES BACK is block `t` of the layer of the whole arrays. -/
theorem flushed_eq (c : Dev nD) (t : Fin cfg3.N) :
    (dat3 V c).flushed 10 t = ((cfg3.win 10).blk t).view.read (Elt Ideal) (blockLayerRes (V c main_v116) (V c main_v118) (V c main_v133) (V c main_v122) (V c main_v134) (V c main_v135) (V c main_v136) (V c main_v137) (V c main_v138) (V c main_v71)) := by
  show (cfg3.win 10).cut (grid3.coords t) ((dat3 V c).after 10 t) = _
  rw [after3_10]
  funext y
  refine (out_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) y).trans ?_
  show _ = blockLayerRes (V c main_v116) (V c main_v118) (V c main_v133) (V c main_v122) (V c main_v134) (V c main_v135) (V c main_v136) (V c main_v137) (V c main_v138) (V c main_v71) (((cfg3.win 10).blk t).view.emb y)
  unfold blockLayerRes
  refine congrArg₂ (· + ·) ?_ (res_9 V c t y)
  exact blockLayer_congr _ _ _ _ _ _ _ _ _ _ _ _ _ _ _ _ _ _ _ y (row_0 V c t y) (col_out t y)
    (blk_1 V c t) (blk_2 V c t) (blk_3 V c t) (blk_4 V c t) (blk_5 V c t) (blk_6 V c t) (blk_7 V c t) (blk_8 V c t)

/-- An index of the output array is in point `t`'s block iff each coordinate is in the block's range on its axis. -/
theorem mem_blk (t : Fin cfg3.N) (i : S100000x128.Idx) :
    i ∈ ((cfg3.win 10).blk t).view.set ↔ ∀ a : Fin 2, win3_10.index t a * S5000x128.size a ≤ (i a).val ∧ (i a).val < win3_10.index t a * S5000x128.size a + S5000x128.size a := by
  show i ∈ ((View.whole main_v139).slice (win3_10.rect t)).set ↔ _
  rw [View.set_slice_whole, Rect.mem_set_unit]
  exact Iff.rfl

/-- The blocks tile the rows: row `r` is in the block of point `r / 5000`. -/
theorem cover (i : S100000x128.Idx) : ∃ t : Fin cfg3.N, (cfg3.win 10).flush t = true ∧ i ∈ ((cfg3.win 10).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts ⟨(i 0).val / 5000, ht⟩
  refine ⟨⟨(i 0).val / 5000, ht⟩, flush3_10 _, ?_⟩
  rw [mem_blk]
  intro a
  match a with
  | ⟨0, _⟩ =>
    show win3_10.index ⟨(i 0).val / 5000, ht⟩ (0 : Fin 2) * 5000 ≤ (i 0).val ∧ (i 0).val < win3_10.index ⟨(i 0).val / 5000, ht⟩ (0 : Fin 2) * 5000 + 5000
    rw [e10_0]
    show (i 0).val / 5000 * 5000 ≤ (i 0).val ∧ (i 0).val < (i 0).val / 5000 * 5000 + 5000
    omega
  | ⟨1, _⟩ =>
    show win3_10.index ⟨(i 0).val / 5000, ht⟩ (1 : Fin 2) * 128 ≤ (i 1).val ∧ (i 1).val < win3_10.index ⟨(i 0).val / 5000, ht⟩ (1 : Fin 2) * 128 + 128
    rw [e10_1]
    omega

/-- THE OUTPUT ARRAY after the region: the layer of the arrays the region found, plus the skip connection's array. -/
theorem out_eq (c : Dev nD) : (dat3 V c).arrAt 10 cfg3.N = (blockLayerRes (V c main_v116) (V c main_v118) (V c main_v133) (V c main_v122) (V c main_v134) (V c main_v135) (V c main_v136) (V c main_v137) (V c main_v138) (V c main_v71)) :=
  (dat3 V c).arrAt_eq_of_cover 10 _ (fun t _ => flushed_eq V c t) cover

end Cert.KernelIdeal.Region3

end
-- ==== Proof.Region4.lean ====
/-
  Region 4 of the kernel's program: the array its grid leaves behind.

  The region walks 20 blocks of 5000 rows. At a point `t` it stages rows `5000·t … 5000·t + 4999` of the aggregated
  array, the two weight matrices and the six parameter rows whole, runs the layer on the block and writes the block
  back to the same rows of its output. Since the layer acts on each row by itself, the 20 blocks written back are
  the 20 blocks of ONE array: the layer applied to the whole aggregated array. The blocks tile the rows (row `r`
  is in block `r / 5000`), so that array is what the output holds after the region.

  Everything is stated at the region's entry contents `V`, whatever they are.
-/
import proofs.«126544_j10213432229997_1_alg».proof.Proof.Gen.KernelIdeal.Frame
import proofs.«126544_j10213432229997_1_alg».proof.Proof.GinRows

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem Idealize.ShloMosaic.Pipeline Cert.Dense Cert.Gin

variable (V : (c : Dev nD) → (b : Ref sig .tc) → Buf (Elt Ideal) ((c : Thread nD τ).loc b))

theorem hz : (![0, 0] : Fin 2 → Nat) = fun _ => 0 := funext fun a => by fin_cases a <;> rfl

/-- The matrix unit's record contracts the block's columns against the weight's rows. -/
theorem rowsCols : RowsCols dot_S5000x128_S128x128_S5000x128_1_0_0_1_n_n :=
  ⟨rfl, rfl, fun _ _ => rfl, fun _ _ => rfl, fun _ _ => rfl, fun _ _ => rfl⟩

/-- The printed index maps, decided once over the 20 points: the row-blocked windows sit at block `t` of the rows,
    every other window at block 0 of its array. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = t.val
    ∧ win4_9.index t (1 : Fin 2) = 0 :=
  (by decide +kernel : ∀ t : Fin grid4.N, _)

/-- What the body leaves in its output block is the layer of the staged blocks, entry by entry. -/
theorem out_apply (x0 : Vec Ideal S5000x128 .f32) (x1 : Vec Ideal S128x128 .f32) (x2 : Vec Ideal S1x128 .f32) (x3 : Vec Ideal S128x128 .f32) (x4 x5 x6 x7 x8 : Vec Ideal S1x128 .f32) (y : S5000x128.Idx) :
    out4_9 x0 x1 x2 x3 x4 x5 x6 x7 x8 y = blockLayer x0 x1 x2 x3 x4 x5 x6 x7 x8 y := by
  obtain ⟨p, j, rfl⟩ : ∃ (p : Fin 5000) (j : Fin 128), y = ix2 p j := ⟨y 0, y 1, eq_ix2 y⟩
  unfold out4_9
  rw [View.canon_unit_zero hz]
  simp only [View.ld_unit_zero (S := S5000x128) hz, View.ld_unit_zero (S := S128x128) hz, View.ld_unit_zero (S := S1x128) hz]
  exact block_apply dot_S5000x128_S128x128_S5000x128_1_0_0_1_n_n rowsCols shapeCasts_S1x128_S1x128 broadcasts_S1x128_S5000x128
    shapeCasts_S5000x128_S5000x128 shapeCasts_S128x128_S128x128 bitsLt_bf16_f32 x0 x1 x2 x5 x8 x7 x6 x3 x4 p j

/-- Window 1 stages its whole array at every point. -/
theorem blk_1 (c : Dev nD) (t : Fin cfg4.N) : iblk4 V c 1 t = V c main_v152 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v152 (((cfg4.win 1).blk t).view.emb z) = V c main_v152 z
  refine congrArg (V c main_v152) (funext fun a => Fin.ext ?_)
  match a with
  | ⟨0, _⟩ => show win4_1.index t (0 : Fin 2) * 128 + 1 * (z 0).val = (z 0).val; omega
  | ⟨1, _⟩ => show win4_1.index t (1 : Fin 2) * 128 + 1 * (z 1).val = (z 1).val; omega

/-- Window 2 stages its whole array at every point. -/
theorem blk_2 (c : Dev nD) (t : Fin cfg4.N) : iblk4 V c 2 t = V c main_v167 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v167 (((cfg4.win 2).blk t).view.emb z) = V c main_v167 z
  refine congrArg (V c main_v167) (funext fun a => Fin.ext ?_)
  match a with
  | ⟨0, _⟩ => show win4_2.index t (0 : Fin 2) * 1 + 1 * (z 0).val = (z 0).val; omega
  | ⟨1, _⟩ => show win4_2.index t (1 : Fin 2) * 128 + 1 * (z 1).val = (z 1).val; omega

/-- Window 3 stages its whole array at every point. -/
theorem blk_3 (c : Dev nD) (t : Fin cfg4.N) : iblk4 V c 3 t = V c main_v156 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v156 (((cfg4.win 3).blk t).view.emb z) = V c main_v156 z
  refine congrArg (V c main_v156) (funext fun a => Fin.ext ?_)
  match a with
  | ⟨0, _⟩ => show win4_3.index t (0 : Fin 2) * 128 + 1 * (z 0).val = (z 0).val; omega
  | ⟨1, _⟩ => show win4_3.index t (1 : Fin 2) * 128 + 1 * (z 1).val = (z 1).val; omega

/-- Window 4 stages its whole array at every point. -/
theorem blk_4 (c : Dev nD) (t : Fin cfg4.N) : iblk4 V c 4 t = V c main_v168 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v168 (((cfg4.win 4).blk t).view.emb z) = V c main_v168 z
  refine congrArg (V c main_v168) (funext fun a => Fin.ext ?_)
  match a with
  | ⟨0, _⟩ => show win4_4.index t (0 : Fin 2) * 1 + 1 * (z 0).val = (z 0).val; omega
  | ⟨1, _⟩ => show win4_4.index t (1 : Fin 2) * 128 + 1 * (z 1).val = (z 1).val; omega

/-- Window 5 stages its whole array at every point. -/
theorem blk_5 (c : Dev nD) (t : Fin cfg4.N) : iblk4 V c 5 t = V c main_v169 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v169 (((cfg4.win 5).blk t).view.emb z) = V c main_v169 z
  refine congrArg (V c main_v169) (funext fun a => Fin.ext ?_)
  match a with
  | ⟨0, _⟩ => show win4_5.index t (0 : Fin 2) * 1 + 1 * (z 0).val = (z 0).val; omega
  | ⟨1, _⟩ => show win4_5.index t (1 : Fin 2) * 128 + 1 * (z 1).val = (z 1).val; omega

/-- Window 6 stages its whole array at every point. -/
theorem blk_6 (c : Dev nD) (t : Fin cfg4.N) : iblk4 V c 6 t = V c main_v170 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v170 (((cfg4.win 6).blk t).view.emb z) = V c main_v170 z
  refine congrArg (V c main_v170) (funext fun a => Fin.ext ?_)
  match a with
  | ⟨0, _⟩ => show win4_6.index t (0 : Fin 2) * 1 + 1 * (z 0).val = (z 0).val; omega
  | ⟨1, _⟩ => show win4_6.index t (1 : Fin 2) * 128 + 1 * (z 1).val = (z 1).val; omega

/-- Window 7 stages its whole array at every point. -/
theorem blk_7 (c : Dev nD) (t : Fin cfg4.N) : iblk4 V c 7 t = V c main_v171 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v171 (((cfg4.win 7).blk t).view.emb z) = V c main_v171 z
  refine congrArg (V c main_v171) (funext fun a => Fin.ext ?_)
  match a with
  | ⟨0, _⟩ => show win4_7.index t (0 : Fin 2) * 1 + 1 * (z 0).val = (z 0).val; omega
  | ⟨1, _⟩ => show win4_7.index t (1 : Fin 2) * 128 + 1 * (z 1).val = (z 1).val; omega

/-- Window 8 stages its whole array at every point. -/
theorem blk_8 (c : Dev nD) (t : Fin cfg4.N) : iblk4 V c 8 t = V c main_v172 := by
  obtain ⟨e0_0, e0_1, e1_0, e1_1, e2_0, e2_1, e3_0, e3_1, e4_0, e4_1, e5_0, e5_1, e6_0, e6_1, e7_0, e7_1, e8_0, e8_1, e9_0, e9_1⟩ := idx_facts t
  funext z
  show V c main_v172 (((cfg4.win 8).blk t).view.emb z) = V c main_v172 z
  refine congrArg (V c main_v172) (funext fun a => Fin.ext ?_)
  match a with
  | ⟨0, _⟩ => show win4_8.index t (0 : Fin 2) * 1 + 1 * (z 0).val = (z 0).val; omega
  | ⟨1, _⟩ => show win4_8.index t (1 : Fin 2) * 128 + 1 * (z 1).val = (z 1).val; omega

/-- The aggregated array: window 0's block at point `t` holds, at its row `y 0`, what its array holds at the row the output's block
    puts `y` on. -/
theorem row_0 (c : Dev nD) (t : Fin cfg4.N) (y : S5000x128.Idx) (k : Fin 128) :
    iblk4 V c 0 t (ix2 (y 0 : Fin 5000) k) = V c main_v150 (ix2 ((((cfg4.win 9).blk t).view.emb y) 0 : Fin 100000) k) := by
  obtain ⟨e0_0, e0_1, e1_0, e1_1, e2_0, e2_1, e3_0, e3_1, e4_0, e4_1, e5_0, e5_1, e6_0, e6_1, e7_0, e7_1, e8_0, e8_1, e9_0, e9_1⟩ := idx_facts t
  show V c main_v150 (((cfg4.win 0).blk t).view.emb (ix2 (y 0 : Fin 5000) k)) = _
  refine congrArg (V c main_v150) (funext fun a => Fin.ext ?_)
  match a with
  | ⟨0, _⟩ => show win4_0.index t (0 : Fin 2) * 5000 + 1 * (y 0).val = win4_9.index t (0 : Fin 2) * 5000 + 1 * (y 0).val; omega
  | ⟨1, _⟩ => show win4_0.index t (1 : Fin 2) * 128 + 1 * k.val = k.val; omega

/-- The output block's columns are the array's columns. -/
theorem col_out (t : Fin cfg4.N) (y : S5000x128.Idx) :
    ((y 1 : Fin 128)) = ((((cfg4.win 9).blk t).view.emb y) 1 : Fin 128) := by
  obtain ⟨e0_0, e0_1, e1_0, e1_1, e2_0, e2_1, e3_0, e3_1, e4_0, e4_1, e5_0, e5_1, e6_0, e6_1, e7_0, e7_1, e8_0, e8_1, e9_0, e9_1⟩ := idx_facts t
  refine Fin.ext ?_
  show (y 1).val = win4_9.index t (1 : Fin 2) * 128 + 1 * (y 1).val
  omega

/-- WHAT POINT `t` WRITES BACK is block `t` of the layer of the whole arrays. -/
theorem flushed_eq (c : Dev nD) (t : Fin cfg4.N) :
    (dat4 V c).flushed 9 t = ((cfg4.win 9).blk t).view.read (Elt Ideal) (blockLayer (V c main_v150) (V c main_v152) (V c main_v167) (V c main_v156) (V c main_v168) (V c main_v169) (V c main_v170) (V c main_v171) (V c main_v172)) := by
  show (cfg4.win 9).cut (grid4.coords t) ((dat4 V c).after 9 t) = _
  rw [after4_9]
  funext y
  refine (out_apply (iblk4 V c 0 t) (iblk4 V c 1 t) (iblk4 V c 2 t) (iblk4 V c 3 t) (iblk4 V c 4 t) (iblk4 V c 5 t) (iblk4 V c 6 t) (iblk4 V c 7 t) (iblk4 V c 8 t) y).trans ?_
  show _ = blockLayer (V c main_v150) (V c main_v152) (V c main_v167) (V c main_v156) (V c main_v168) (V c main_v169) (V c main_v170) (V c main_v171) (V c main_v172) (((cfg4.win 9).blk t).view.emb y)
  exact blockLayer_congr _ _ _ _ _ _ _ _ _ _ _ _ _ _ _ _ _ _ _ y (row_0 V c t y) (col_out t y)
    (blk_1 V c t) (blk_2 V c t) (blk_3 V c t) (blk_4 V c t) (blk_5 V c t) (blk_6 V c t) (blk_7 V c t) (blk_8 V c t)

/-- An index of the output array is in point `t`'s block iff each coordinate is in the block's range on its axis. -/
theorem mem_blk (t : Fin cfg4.N) (i : S100000x128.Idx) :
    i ∈ ((cfg4.win 9).blk t).view.set ↔ ∀ a : Fin 2, win4_9.index t a * S5000x128.size a ≤ (i a).val ∧ (i a).val < win4_9.index t a * S5000x128.size a + S5000x128.size a := by
  show i ∈ ((View.whole main_v173).slice (win4_9.rect t)).set ↔ _
  rw [View.set_slice_whole, Rect.mem_set_unit]
  exact Iff.rfl

/-- The blocks tile the rows: row `r` is in the block of point `r / 5000`. -/
theorem cover (i : S100000x128.Idx) : ∃ t : Fin cfg4.N, (cfg4.win 9).flush t = true ∧ i ∈ ((cfg4.win 9).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨e0_0, e0_1, e1_0, e1_1, e2_0, e2_1, e3_0, e3_1, e4_0, e4_1, e5_0, e5_1, e6_0, e6_1, e7_0, e7_1, e8_0, e8_1, e9_0, e9_1⟩ := idx_facts ⟨(i 0).val / 5000, ht⟩
  refine ⟨⟨(i 0).val / 5000, ht⟩, flush4_9 _, ?_⟩
  rw [mem_blk]
  intro a
  match a with
  | ⟨0, _⟩ =>
    show win4_9.index ⟨(i 0).val / 5000, ht⟩ (0 : Fin 2) * 5000 ≤ (i 0).val ∧ (i 0).val < win4_9.index ⟨(i 0).val / 5000, ht⟩ (0 : Fin 2) * 5000 + 5000
    rw [e9_0]
    show (i 0).val / 5000 * 5000 ≤ (i 0).val ∧ (i 0).val < (i 0).val / 5000 * 5000 + 5000
    omega
  | ⟨1, _⟩ =>
    show win4_9.index ⟨(i 0).val / 5000, ht⟩ (1 : Fin 2) * 128 ≤ (i 1).val ∧ (i 1).val < win4_9.index ⟨(i 0).val / 5000, ht⟩ (1 : Fin 2) * 128 + 128
    rw [e9_1]
    omega

/-- THE OUTPUT ARRAY after the region: the layer of the arrays the region found. -/
theorem out_eq (c : Dev nD) : (dat4 V c).arrAt 9 cfg4.N = (blockLayer (V c main_v150) (V c main_v152) (V c main_v167) (V c main_v156) (V c main_v168) (V c main_v169) (V c main_v170) (V c main_v171) (V c main_v172)) :=
  (dat4 V c).arrAt_eq_of_cover 9 _ (fun t _ => flushed_eq V c t) cover

end Cert.KernelIdeal.Region4

end
-- ==== Proof.Region5.lean ====
/-
  Region 5 of the kernel's program: the array its grid leaves behind.

  The region walks 20 blocks of 5000 rows. At a point `t` it stages rows `5000·t … 5000·t + 4999` of the aggregated
  array and of the skip connection's array, the two weight matrices and the six parameter rows whole, runs the layer on the block and writes the block
  back to the same rows of its output. Since the layer acts on each row by itself, the 20 blocks written back are
  the 20 blocks of ONE array: the layer applied to the whole aggregated array, plus the skip connection's array. The blocks tile the rows (row `r`
  is in block `r / 5000`), so that array is what the output holds after the region.

  Everything is stated at the region's entry contents `V`, whatever they are.
-/
import proofs.«126544_j10213432229997_1_alg».proof.Proof.Gen.KernelIdeal.Frame
import proofs.«126544_j10213432229997_1_alg».proof.Proof.GinRows

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem Idealize.ShloMosaic.Pipeline Cert.Dense Cert.Gin

variable (V : (c : Dev nD) → (b : Ref sig .tc) → Buf (Elt Ideal) ((c : Thread nD τ).loc b))

theorem hz : (![0, 0] : Fin 2 → Nat) = fun _ => 0 := funext fun a => by fin_cases a <;> rfl

/-- The matrix unit's record contracts the block's columns against the weight's rows. -/
theorem rowsCols : RowsCols dot_S5000x128_S128x128_S5000x128_1_0_0_1_n_n :=
  ⟨rfl, rfl, fun _ _ => rfl, fun _ _ => rfl, fun _ _ => rfl, fun _ _ => rfl⟩

/-- The printed index maps, decided once over the 20 points: the row-blocked windows sit at block `t` of the rows,
    every other window at block 0 of its array. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 2) = t.val
    ∧ win5_9.index t (1 : Fin 2) = 0
    ∧ win5_10.index t (0 : Fin 2) = t.val
    ∧ win5_10.index t (1 : Fin 2) = 0 :=
  (by decide +kernel : ∀ t : Fin grid5.N, _)

/-- What the body leaves in its output block is the layer of the staged blocks, entry by entry. -/
theorem out_apply (x0 : Vec Ideal S5000x128 .f32) (x1 : Vec Ideal S128x128 .f32) (x2 : Vec Ideal S1x128 .f32) (x3 : Vec Ideal S128x128 .f32) (x4 x5 x6 x7 x8 : Vec Ideal S1x128 .f32) (x9 : Vec Ideal S5000x128 .f32) (y : S5000x128.Idx) :
    out5_10 x0 x1 x2 x3 x4 x5 x6 x7 x8 x9 y = blockLayerRes x0 x1 x2 x3 x4 x5 x6 x7 x8 x9 y := by
  obtain ⟨p, j, rfl⟩ : ∃ (p : Fin 5000) (j : Fin 128), y = ix2 p j := ⟨y 0, y 1, eq_ix2 y⟩
  unfold out5_10
  rw [View.canon_unit_zero hz]
  simp only [View.ld_unit_zero (S := S5000x128) hz, View.ld_unit_zero (S := S128x128) hz, View.ld_unit_zero (S := S1x128) hz]
  exact block_res_cast_apply dot_S5000x128_S128x128_S5000x128_1_0_0_1_n_n rowsCols shapeCasts_S1x128_S1x128 broadcasts_S1x128_S5000x128
    shapeCasts_S5000x128_S5000x128 shapeCasts_S128x128_S128x128 bitsLt_bf16_f32 x0 x1 x2 x5 x8 x7 x6 x3 x4 x9 p j

/-- Window 1 stages its whole array at every point. -/
theorem blk_1 (c : Dev nD) (t : Fin cfg5.N) : iblk5 V c 1 t = V c main_v186 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v186 (((cfg5.win 1).blk t).view.emb z) = V c main_v186 z
  refine congrArg (V c main_v186) (funext fun a => Fin.ext ?_)
  match a with
  | ⟨0, _⟩ => show win5_1.index t (0 : Fin 2) * 128 + 1 * (z 0).val = (z 0).val; omega
  | ⟨1, _⟩ => show win5_1.index t (1 : Fin 2) * 128 + 1 * (z 1).val = (z 1).val; omega

/-- Window 2 stages its whole array at every point. -/
theorem blk_2 (c : Dev nD) (t : Fin cfg5.N) : iblk5 V c 2 t = V c main_v201 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v201 (((cfg5.win 2).blk t).view.emb z) = V c main_v201 z
  refine congrArg (V c main_v201) (funext fun a => Fin.ext ?_)
  match a with
  | ⟨0, _⟩ => show win5_2.index t (0 : Fin 2) * 1 + 1 * (z 0).val = (z 0).val; omega
  | ⟨1, _⟩ => show win5_2.index t (1 : Fin 2) * 128 + 1 * (z 1).val = (z 1).val; omega

/-- Window 3 stages its whole array at every point. -/
theorem blk_3 (c : Dev nD) (t : Fin cfg5.N) : iblk5 V c 3 t = V c main_v190 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v190 (((cfg5.win 3).blk t).view.emb z) = V c main_v190 z
  refine congrArg (V c main_v190) (funext fun a => Fin.ext ?_)
  match a with
  | ⟨0, _⟩ => show win5_3.index t (0 : Fin 2) * 128 + 1 * (z 0).val = (z 0).val; omega
  | ⟨1, _⟩ => show win5_3.index t (1 : Fin 2) * 128 + 1 * (z 1).val = (z 1).val; omega

/-- Window 4 stages its whole array at every point. -/
theorem blk_4 (c : Dev nD) (t : Fin cfg5.N) : iblk5 V c 4 t = V c main_v202 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v202 (((cfg5.win 4).blk t).view.emb z) = V c main_v202 z
  refine congrArg (V c main_v202) (funext fun a => Fin.ext ?_)
  match a with
  | ⟨0, _⟩ => show win5_4.index t (0 : Fin 2) * 1 + 1 * (z 0).val = (z 0).val; omega
  | ⟨1, _⟩ => show win5_4.index t (1 : Fin 2) * 128 + 1 * (z 1).val = (z 1).val; omega

/-- Window 5 stages its whole array at every point. -/
theorem blk_5 (c : Dev nD) (t : Fin cfg5.N) : iblk5 V c 5 t = V c main_v203 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v203 (((cfg5.win 5).blk t).view.emb z) = V c main_v203 z
  refine congrArg (V c main_v203) (funext fun a => Fin.ext ?_)
  match a with
  | ⟨0, _⟩ => show win5_5.index t (0 : Fin 2) * 1 + 1 * (z 0).val = (z 0).val; omega
  | ⟨1, _⟩ => show win5_5.index t (1 : Fin 2) * 128 + 1 * (z 1).val = (z 1).val; omega

/-- Window 6 stages its whole array at every point. -/
theorem blk_6 (c : Dev nD) (t : Fin cfg5.N) : iblk5 V c 6 t = V c main_v204 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v204 (((cfg5.win 6).blk t).view.emb z) = V c main_v204 z
  refine congrArg (V c main_v204) (funext fun a => Fin.ext ?_)
  match a with
  | ⟨0, _⟩ => show win5_6.index t (0 : Fin 2) * 1 + 1 * (z 0).val = (z 0).val; omega
  | ⟨1, _⟩ => show win5_6.index t (1 : Fin 2) * 128 + 1 * (z 1).val = (z 1).val; omega

/-- Window 7 stages its whole array at every point. -/
theorem blk_7 (c : Dev nD) (t : Fin cfg5.N) : iblk5 V c 7 t = V c main_v205 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v205 (((cfg5.win 7).blk t).view.emb z) = V c main_v205 z
  refine congrArg (V c main_v205) (funext fun a => Fin.ext ?_)
  match a with
  | ⟨0, _⟩ => show win5_7.index t (0 : Fin 2) * 1 + 1 * (z 0).val = (z 0).val; omega
  | ⟨1, _⟩ => show win5_7.index t (1 : Fin 2) * 128 + 1 * (z 1).val = (z 1).val; omega

/-- Window 8 stages its whole array at every point. -/
theorem blk_8 (c : Dev nD) (t : Fin cfg5.N) : iblk5 V c 8 t = V c main_v206 := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext z
  show V c main_v206 (((cfg5.win 8).blk t).view.emb z) = V c main_v206 z
  refine congrArg (V c main_v206) (funext fun a => Fin.ext ?_)
  match a with
  | ⟨0, _⟩ => show win5_8.index t (0 : Fin 2) * 1 + 1 * (z 0).val = (z 0).val; omega
  | ⟨1, _⟩ => show win5_8.index t (1 : Fin 2) * 128 + 1 * (z 1).val = (z 1).val; omega

/-- The aggregated array: window 0's block at point `t` holds, at its row `y 0`, what its array holds at the row the output's block
    puts `y` on. -/
theorem row_0 (c : Dev nD) (t : Fin cfg5.N) (y : S5000x128.Idx) (k : Fin 128) :
    iblk5 V c 0 t (ix2 (y 0 : Fin 5000) k) = V c main_v184 (ix2 ((((cfg5.win 10).blk t).view.emb y) 0 : Fin 100000) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v184 (((cfg5.win 0).blk t).view.emb (ix2 (y 0 : Fin 5000) k)) = _
  refine congrArg (V c main_v184) (funext fun a => Fin.ext ?_)
  match a with
  | ⟨0, _⟩ => show win5_0.index t (0 : Fin 2) * 5000 + 1 * (y 0).val = win5_10.index t (0 : Fin 2) * 5000 + 1 * (y 0).val; omega
  | ⟨1, _⟩ => show win5_0.index t (1 : Fin 2) * 128 + 1 * k.val = k.val; omega

/-- The skip connection's array: window 9's block at point `t` holds at `y` what its array holds where the output's
    block puts `y`. -/
theorem res_9 (c : Dev nD) (t : Fin cfg5.N) (y : S5000x128.Idx) :
    iblk5 V c 9 t y = V c main_v139 (((cfg5.win 10).blk t).view.emb y) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V c main_v139 (((cfg5.win 9).blk t).view.emb y) = _
  refine congrArg (V c main_v139) (funext fun a => Fin.ext ?_)
  match a with
  | ⟨0, _⟩ => show win5_9.index t (0 : Fin 2) * 5000 + 1 * (y 0).val = win5_10.index t (0 : Fin 2) * 5000 + 1 * (y 0).val; omega
  | ⟨1, _⟩ => show win5_9.index t (1 : Fin 2) * 128 + 1 * (y 1).val = win5_10.index t (1 : Fin 2) * 128 + 1 * (y 1).val; omega

/-- The output block's columns are the array's columns. -/
theorem col_out (t : Fin cfg5.N) (y : S5000x128.Idx) :
    ((y 1 : Fin 128)) = ((((cfg5.win 10).blk t).view.emb y) 1 : Fin 128) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine Fin.ext ?_
  show (y 1).val = win5_10.index t (1 : Fin 2) * 128 + 1 * (y 1).val
  omega

/-- WHAT POINT `t` WRITES BACK is block `t` of the layer of the whole arrays. -/
theorem flushed_eq (c : Dev nD) (t : Fin cfg5.N) :
    (dat5 V c).flushed 10 t = ((cfg5.win 10).blk t).view.read (Elt Ideal) (blockLayerRes (V c main_v184) (V c main_v186) (V c main_v201) (V c main_v190) (V c main_v202) (V c main_v203) (V c main_v204) (V c main_v205) (V c main_v206) (V c main_v139)) := by
  show (cfg5.win 10).cut (grid5.coords t) ((dat5 V c).after 10 t) = _
  rw [after5_10]
  funext y
  refine (out_apply (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) y).trans ?_
  show _ = blockLayerRes (V c main_v184) (V c main_v186) (V c main_v201) (V c main_v190) (V c main_v202) (V c main_v203) (V c main_v204) (V c main_v205) (V c main_v206) (V c main_v139) (((cfg5.win 10).blk t).view.emb y)
  unfold blockLayerRes
  refine congrArg₂ (· + ·) ?_ (res_9 V c t y)
  exact blockLayer_congr _ _ _ _ _ _ _ _ _ _ _ _ _ _ _ _ _ _ _ y (row_0 V c t y) (col_out t y)
    (blk_1 V c t) (blk_2 V c t) (blk_3 V c t) (blk_4 V c t) (blk_5 V c t) (blk_6 V c t) (blk_7 V c t) (blk_8 V c t)

/-- An index of the output array is in point `t`'s block iff each coordinate is in the block's range on its axis. -/
theorem mem_blk (t : Fin cfg5.N) (i : S100000x128.Idx) :
    i ∈ ((cfg5.win 10).blk t).view.set ↔ ∀ a : Fin 2, win5_10.index t a * S5000x128.size a ≤ (i a).val ∧ (i a).val < win5_10.index t a * S5000x128.size a + S5000x128.size a := by
  show i ∈ ((View.whole main_v207).slice (win5_10.rect t)).set ↔ _
  rw [View.set_slice_whole, Rect.mem_set_unit]
  exact Iff.rfl

/-- The blocks tile the rows: row `r` is in the block of point `r / 5000`. -/
theorem cover (i : S100000x128.Idx) : ∃ t : Fin cfg5.N, (cfg5.win 10).flush t = true ∧ i ∈ ((cfg5.win 10).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts ⟨(i 0).val / 5000, ht⟩
  refine ⟨⟨(i 0).val / 5000, ht⟩, flush5_10 _, ?_⟩
  rw [mem_blk]
  intro a
  match a with
  | ⟨0, _⟩ =>
    show win5_10.index ⟨(i 0).val / 5000, ht⟩ (0 : Fin 2) * 5000 ≤ (i 0).val ∧ (i 0).val < win5_10.index ⟨(i 0).val / 5000, ht⟩ (0 : Fin 2) * 5000 + 5000
    rw [e10_0]
    show (i 0).val / 5000 * 5000 ≤ (i 0).val ∧ (i 0).val < (i 0).val / 5000 * 5000 + 5000
    omega
  | ⟨1, _⟩ =>
    show win5_10.index ⟨(i 0).val / 5000, ht⟩ (1 : Fin 2) * 128 ≤ (i 1).val ∧ (i 1).val < win5_10.index ⟨(i 0).val / 5000, ht⟩ (1 : Fin 2) * 128 + 128
    rw [e10_1]
    omega

/-- THE OUTPUT ARRAY after the region: the layer of the arrays the region found, plus the skip connection's array. -/
theorem out_eq (c : Dev nD) : (dat5 V c).arrAt 10 cfg5.N = (blockLayerRes (V c main_v184) (V c main_v186) (V c main_v201) (V c main_v190) (V c main_v202) (V c main_v203) (V c main_v204) (V c main_v205) (V c main_v206) (V c main_v139)) :=
  (dat5 V c).arrAt_eq_of_cover 10 _ (fun t _ => flushed_eq V c t) cover

end Cert.KernelIdeal.Region5

end
-- ==== Proof.KStretch0.lean ====
/-
  Stretch 0 of the kernel program's host operations, read from any starting contents `W`.

  The stretch prepares region 0's operands: it aggregates the node array along the edges, slices slot 0 out of
  each stacked parameter array and gives the six parameter vectors their unit axis. Each operand is read here as
  the network's function of the same name applied to what `W` holds; and the buffers the stretch does not write
  hold after it what they held before.
-/
import proofs.«126544_j10213432229997_1_alg».proof.Proof.Gen.KernelIdeal.Launch
import proofs.«126544_j10213432229997_1_alg».proof.Proof.GinNet

set_option maxRecDepth 16384

noncomputable section

namespace Cert.KernelIdeal.Stretch0

open Cert.KernelIdeal Cert.KernelIdeal.Gen Idealize.ShloMosaic Idealize.ShloMosaic.TcCoe Idealize.ShloMosaic.StableHlo
open Idealize.SL.Sem Cert.Gin

variable (W : Valuation τ sig (Elt Ideal))

set_option maxHeartbeats 8000000 in
/-- Operand 0 of region 0: the aggregated array. -/
theorem in0 : after (hostOps0 (F := Ideal)) W (Proc.devRef .tc main_v14) = agg (W (Proc.devRef .tc main_arg0)) (src (W (Proc.devRef .tc main_arg1))) (dst (W (Proc.devRef .tc main_arg1))) := by
  after_results_simp <;> rfl

set_option maxHeartbeats 8000000 in
/-- Operand 1 of region 0: the first weight matrix. -/
theorem in1 : after (hostOps0 (F := Ideal)) W (Proc.devRef .tc main_v16) = matAt 0 slices_S6x128x128_S1x128x128_0_0_0 (W (Proc.devRef .tc main_arg3)) := by
  after_results_simp <;> rfl

set_option maxHeartbeats 8000000 in
/-- Operand 2 of region 0: the first bias row. -/
theorem in2 : after (hostOps0 (F := Ideal)) W (Proc.devRef .tc main_v31) = rowOf (vecAt 0 slices_S6x128_S1x128_0_0 (W (Proc.devRef .tc main_arg4))) := by
  after_results_simp <;> rfl

set_option maxHeartbeats 8000000 in
/-- Operand 3 of region 0: the second weight matrix. -/
theorem in3 : after (hostOps0 (F := Ideal)) W (Proc.devRef .tc main_v20) = matAt 0 slices_S6x128x128_S1x128x128_0_0_0 (W (Proc.devRef .tc main_arg5)) := by
  after_results_simp <;> rfl

set_option maxHeartbeats 8000000 in
/-- Operand 4 of region 0: the second bias row. -/
theorem in4 : after (hostOps0 (F := Ideal)) W (Proc.devRef .tc main_v32) = rowOf (vecAt 0 slices_S6x128_S1x128_0_0 (W (Proc.devRef .tc main_arg6))) := by
  after_results_simp <;> rfl

set_option maxHeartbeats 8000000 in
/-- Operand 5 of region 0: the scale row. -/
theorem in5 : after (hostOps0 (F := Ideal)) W (Proc.devRef .tc main_v33) = rowOf (vecAt 0 slices_S6x128_S1x128_0_0 (W (Proc.devRef .tc main_arg7))) := by
  after_results_simp <;> rfl

set_option maxHeartbeats 8000000 in
/-- Operand 6 of region 0: the shift row. -/
theorem in6 : after (hostOps0 (F := Ideal)) W (Proc.devRef .tc main_v34) = rowOf (vecAt 0 slices_S6x128_S1x128_0_0 (W (Proc.devRef .tc main_arg8))) := by
  after_results_simp <;> rfl

set_option maxHeartbeats 8000000 in
/-- Operand 7 of region 0: the mean row. -/
theorem in7 : after (hostOps0 (F := Ideal)) W (Proc.devRef .tc main_v35) = rowOf (vecAt 0 slices_S6x128_S1x128_0_0 (W (Proc.devRef .tc main_arg9))) := by
  after_results_simp <;> rfl

set_option maxHeartbeats 8000000 in
/-- Operand 8 of region 0: the variance row. -/
theorem in8 : after (hostOps0 (F := Ideal)) W (Proc.devRef .tc main_v36) = rowOf (vecAt 0 slices_S6x128_S1x128_0_0 (W (Proc.devRef .tc main_arg10))) := by
  after_results_simp <;> rfl

set_option maxHeartbeats 8000000 in
/-- The edges' sources, sliced once here. -/
theorem src_eq : after (hostOps0 (F := Ideal)) W (Proc.devRef .tc main_v1) = src (W (Proc.devRef .tc main_arg1)) := by
  after_results_simp <;> rfl

set_option maxHeartbeats 8000000 in
/-- The edges' targets, sliced once here. -/
theorem dst_eq : after (hostOps0 (F := Ideal)) W (Proc.devRef .tc main_v3) = dst (W (Proc.devRef .tc main_arg1)) := by
  after_results_simp <;> rfl

set_option maxHeartbeats 8000000 in
theorem keep_arg0 : after (hostOps0 (F := Ideal)) W (Proc.devRef .tc main_arg0) = W (Proc.devRef .tc main_arg0) := by
  after_results_simp <;> rfl

set_option maxHeartbeats 8000000 in
theorem keep_arg2 : after (hostOps0 (F := Ideal)) W (Proc.devRef .tc main_arg2) = W (Proc.devRef .tc main_arg2) := by
  after_results_simp <;> rfl

set_option maxHeartbeats 8000000 in
theorem keep_arg3 : after (hostOps0 (F := Ideal)) W (Proc.devRef .tc main_arg3) = W (Proc.devRef .tc main_arg3) := by
  after_results_simp <;> rfl

set_option maxHeartbeats 8000000 in
theorem keep_arg4 : after (hostOps0 (F := Ideal)) W (Proc.devRef .tc main_arg4) = W (Proc.devRef .tc main_arg4) := by
  after_results_simp <;> rfl

set_option maxHeartbeats 8000000 in
theorem keep_arg5 : after (hostOps0 (F := Ideal)) W (Proc.devRef .tc main_arg5) = W (Proc.devRef .tc main_arg5) := by
  after_results_simp <;> rfl

set_option maxHeartbeats 8000000 in
theorem keep_arg6 : after (hostOps0 (F := Ideal)) W (Proc.devRef .tc main_arg6) = W (Proc.devRef .tc main_arg6) := by
  after_results_simp <;> rfl

set_option maxHeartbeats 8000000 in
theorem keep_arg7 : after (hostOps0 (F := Ideal)) W (Proc.devRef .tc main_arg7) = W (Proc.devRef .tc main_arg7) := by
  after_results_simp <;> rfl

set_option maxHeartbeats 8000000 in
theorem keep_arg8 : after (hostOps0 (F := Ideal)) W (Proc.devRef .tc main_arg8) = W (Proc.devRef .tc main_arg8) := by
  after_results_simp <;> rfl

set_option maxHeartbeats 8000000 in
theorem keep_arg9 : after (hostOps0 (F := Ideal)) W (Proc.devRef .tc main_arg9) = W (Proc.devRef .tc main_arg9) := by
  after_results_simp <;> rfl

set_option maxHeartbeats 8000000 in
theorem keep_arg10 : after (hostOps0 (F := Ideal)) W (Proc.devRef .tc main_arg10) = W (Proc.devRef .tc main_arg10) := by
  after_results_simp <;> rfl

set_option maxHeartbeats 8000000 in
theorem keep_arg11 : after (hostOps0 (F := Ideal)) W (Proc.devRef .tc main_arg11) = W (Proc.devRef .tc main_arg11) := by
  after_results_simp <;> rfl

set_option maxHeartbeats 8000000 in
theorem keep_arg12 : after (hostOps0 (F := Ideal)) W (Proc.devRef .tc main_arg12) = W (Proc.devRef .tc main_arg12) := by
  after_results_simp <;> rfl

end Cert.KernelIdeal.Stretch0

end
-- ==== Proof.KStretch1.lean ====
/-
  Stretch 1 of the kernel program's host operations, read from any starting contents `W`.

  The stretch prepares region 1's operands: it aggregates the node array along the edges, slices slot 1 out of
  each stacked parameter array and gives the six parameter vectors their unit axis. Each operand is read here as
  the network's function of the same name applied to what `W` holds; and the buffers the stretch does not write
  hold after it what they held before.
-/
import proofs.«126544_j10213432229997_1_alg».proof.Proof.Gen.KernelIdeal.Launch
import proofs.«126544_j10213432229997_1_alg».proof.Proof.GinNet

set_option maxRecDepth 16384

noncomputable section

namespace Cert.KernelIdeal.Stretch1

open Cert.KernelIdeal Cert.KernelIdeal.Gen Idealize.ShloMosaic Idealize.ShloMosaic.TcCoe Idealize.ShloMosaic.StableHlo
open Idealize.SL.Sem Cert.Gin

variable (W : Valuation τ sig (Elt Ideal))

set_option maxHeartbeats 8000000 in
/-- Operand 0 of region 1: the aggregated array. -/
theorem in0 : after (hostOps1 (F := Ideal)) W (Proc.devRef .tc main_v48) = agg (W (Proc.devRef .tc main_v37)) (W (Proc.devRef .tc main_v1)) (W (Proc.devRef .tc main_v3)) := by
  after_results_simp <;> rfl

set_option maxHeartbeats 8000000 in
/-- Operand 1 of region 1: the first weight matrix. -/
theorem in1 : after (hostOps1 (F := Ideal)) W (Proc.devRef .tc main_v50) = matAt 1 slices_S6x128x128_S1x128x128_1_0_0 (W (Proc.devRef .tc main_arg3)) := by
  after_results_simp <;> rfl

set_option maxHeartbeats 8000000 in
/-- Operand 2 of region 1: the first bias row. -/
theorem in2 : after (hostOps1 (F := Ideal)) W (Proc.devRef .tc main_v65) = rowOf (vecAt 1 slices_S6x128_S1x128_1_0 (W (Proc.devRef .tc main_arg4))) := by
  after_results_simp <;> rfl

set_option maxHeartbeats 8000000 in
/-- Operand 3 of region 1: the second weight matrix. -/
theorem in3 : after (hostOps1 (F := Ideal)) W (Proc.devRef .tc main_v54) = matAt 1 slices_S6x128x128_S1x128x128_1_0_0 (W (Proc.devRef .tc main_arg5)) := by
  after_results_simp <;> rfl

set_option maxHeartbeats 8000000 in
/-- Operand 4 of region 1: the second bias row. -/
theorem in4 : after (hostOps1 (F := Ideal)) W (Proc.devRef .tc main_v66) = rowOf (vecAt 1 slices_S6x128_S1x128_1_0 (W (Proc.devRef .tc main_arg6))) := by
  after_results_simp <;> rfl

set_option maxHeartbeats 8000000 in
/-- Operand 5 of region 1: the scale row. -/
theorem in5 : after (hostOps1 (F := Ideal)) W (Proc.devRef .tc main_v67) = rowOf (vecAt 1 slices_S6x128_S1x128_1_0 (W (Proc.devRef .tc main_arg7))) := by
  after_results_simp <;> rfl

set_option maxHeartbeats 8000000 in
/-- Operand 6 of region 1: the shift row. -/
theorem in6 : after (hostOps1 (F := Ideal)) W (Proc.devRef .tc main_v68) = rowOf (vecAt 1 slices_S6x128_S1x128_1_0 (W (Proc.devRef .tc main_arg8))) := by
  after_results_simp <;> rfl

set_option maxHeartbeats 8000000 in
/-- Operand 7 of region 1: the mean row. -/
theorem in7 : after (hostOps1 (F := Ideal)) W (Proc.devRef .tc main_v69) = rowOf (vecAt 1 slices_S6x128_S1x128_1_0 (W (Proc.devRef .tc main_arg9))) := by
  after_results_simp <;> rfl

set_option maxHeartbeats 8000000 in
/-- Operand 8 of region 1: the variance row. -/
theorem in8 : after (hostOps1 (F := Ideal)) W (Proc.devRef .tc main_v70) = rowOf (vecAt 1 slices_S6x128_S1x128_1_0 (W (Proc.devRef .tc main_arg10))) := by
  after_results_simp <;> rfl

set_option maxHeartbeats 8000000 in
theorem keep_v1 : after (hostOps1 (F := Ideal)) W (Proc.devRef .tc main_v1) = W (Proc.devRef .tc main_v1) := by
  after_results_simp <;> rfl

set_option maxHeartbeats 8000000 in
theorem keep_v3 : after (hostOps1 (F := Ideal)) W (Proc.devRef .tc main_v3) = W (Proc.devRef .tc main_v3) := by
  after_results_simp <;> rfl

set_option maxHeartbeats 8000000 in
theorem keep_arg0 : after (hostOps1 (F := Ideal)) W (Proc.devRef .tc main_arg0) = W (Proc.devRef .tc main_arg0) := by
  after_results_simp <;> rfl

set_option maxHeartbeats 8000000 in
theorem keep_arg2 : after (hostOps1 (F := Ideal)) W (Proc.devRef .tc main_arg2) = W (Proc.devRef .tc main_arg2) := by
  after_results_simp <;> rfl

set_option maxHeartbeats 8000000 in
theorem keep_arg3 : after (hostOps1 (F := Ideal)) W (Proc.devRef .tc main_arg3) = W (Proc.devRef .tc main_arg3) := by
  after_results_simp <;> rfl

set_option maxHeartbeats 8000000 in
theorem keep_arg4 : after (hostOps1 (F := Ideal)) W (Proc.devRef .tc main_arg4) = W (Proc.devRef .tc main_arg4) := by
  after_results_simp <;> rfl

set_option maxHeartbeats 8000000 in
theorem keep_arg5 : after (hostOps1 (F := Ideal)) W (Proc.devRef .tc main_arg5) = W (Proc.devRef .tc main_arg5) := by
  after_results_simp <;> rfl

set_option maxHeartbeats 8000000 in
theorem keep_arg6 : after (hostOps1 (F := Ideal)) W (Proc.devRef .tc main_arg6) = W (Proc.devRef .tc main_arg6) := by
  after_results_simp <;> rfl

set_option maxHeartbeats 8000000 in
theorem keep_arg7 : after (hostOps1 (F := Ideal)) W (Proc.devRef .tc main_arg7) = W (Proc.devRef .tc main_arg7) := by
  after_results_simp <;> rfl

set_option maxHeartbeats 8000000 in
theorem keep_arg8 : after (hostOps1 (F := Ideal)) W (Proc.devRef .tc main_arg8) = W (Proc.devRef .tc main_arg8) := by
  after_results_simp <;> rfl

set_option maxHeartbeats 8000000 in
theorem keep_arg9 : after (hostOps1 (F := Ideal)) W (Proc.devRef .tc main_arg9) = W (Proc.devRef .tc main_arg9) := by
  after_results_simp <;> rfl

set_option maxHeartbeats 8000000 in
theorem keep_arg10 : after (hostOps1 (F := Ideal)) W (Proc.devRef .tc main_arg10) = W (Proc.devRef .tc main_arg10) := by
  after_results_simp <;> rfl

set_option maxHeartbeats 8000000 in
theorem keep_arg11 : after (hostOps1 (F := Ideal)) W (Proc.devRef .tc main_arg11) = W (Proc.devRef .tc main_arg11) := by
  after_results_simp <;> rfl

set_option maxHeartbeats 8000000 in
theorem keep_arg12 : after (hostOps1 (F := Ideal)) W (Proc.devRef .tc main_arg12) = W (Proc.devRef .tc main_arg12) := by
  after_results_simp <;> rfl

end Cert.KernelIdeal.Stretch1

end
-- ==== Proof.KStretch2.lean ====
/-
  Stretch 2 of the kernel program's host operations, read from any starting contents `W`.

  The stretch prepares region 2's operands: it aggregates the node array along the edges, slices slot 2 out of
  each stacked parameter array and gives the six parameter vectors their unit axis. Each operand is read here as
  the network's function of the same name applied to what `W` holds; and the buffers the stretch does not write
  hold after it what they held before.
-/
import proofs.«126544_j10213432229997_1_alg».proof.Proof.Gen.KernelIdeal.Launch
import proofs.«126544_j10213432229997_1_alg».proof.Proof.GinNet

set_option maxRecDepth 16384

noncomputable section

namespace Cert.KernelIdeal.Stretch2

open Cert.KernelIdeal Cert.KernelIdeal.Gen Idealize.ShloMosaic Idealize.ShloMosaic.TcCoe Idealize.ShloMosaic.StableHlo
open Idealize.SL.Sem Cert.Gin

variable (W : Valuation τ sig (Elt Ideal))

set_option maxHeartbeats 8000000 in
/-- Operand 0 of region 2: the aggregated array. -/
theorem in0 : after (hostOps2 (F := Ideal)) W (Proc.devRef .tc main_v82) = agg (W (Proc.devRef .tc main_v71)) (W (Proc.devRef .tc main_v1)) (W (Proc.devRef .tc main_v3)) := by
  after_results_simp <;> rfl

set_option maxHeartbeats 8000000 in
/-- Operand 1 of region 2: the first weight matrix. -/
theorem in1 : after (hostOps2 (F := Ideal)) W (Proc.devRef .tc main_v84) = matAt 2 slices_S6x128x128_S1x128x128_2_0_0 (W (Proc.devRef .tc main_arg3)) := by
  after_results_simp <;> rfl

set_option maxHeartbeats 8000000 in
/-- Operand 2 of region 2: the first bias row. -/
theorem in2 : after (hostOps2 (F := Ideal)) W (Proc.devRef .tc main_v99) = rowOf (vecAt 2 slices_S6x128_S1x128_2_0 (W (Proc.devRef .tc main_arg4))) := by
  after_results_simp <;> rfl

set_option maxHeartbeats 8000000 in
/-- Operand 3 of region 2: the second weight matrix. -/
theorem in3 : after (hostOps2 (F := Ideal)) W (Proc.devRef .tc main_v88) = matAt 2 slices_S6x128x128_S1x128x128_2_0_0 (W (Proc.devRef .tc main_arg5)) := by
  after_results_simp <;> rfl

set_option maxHeartbeats 8000000 in
/-- Operand 4 of region 2: the second bias row. -/
theorem in4 : after (hostOps2 (F := Ideal)) W (Proc.devRef .tc main_v100) = rowOf (vecAt 2 slices_S6x128_S1x128_2_0 (W (Proc.devRef .tc main_arg6))) := by
  after_results_simp <;> rfl

set_option maxHeartbeats 8000000 in
/-- Operand 5 of region 2: the scale row. -/
theorem in5 : after (hostOps2 (F := Ideal)) W (Proc.devRef .tc main_v101) = rowOf (vecAt 2 slices_S6x128_S1x128_2_0 (W (Proc.devRef .tc main_arg7))) := by
  after_results_simp <;> rfl

set_option maxHeartbeats 8000000 in
/-- Operand 6 of region 2: the shift row. -/
theorem in6 : after (hostOps2 (F := Ideal)) W (Proc.devRef .tc main_v102) = rowOf (vecAt 2 slices_S6x128_S1x128_2_0 (W (Proc.devRef .tc main_arg8))) := by
  after_results_simp <;> rfl

set_option maxHeartbeats 8000000 in
/-- Operand 7 of region 2: the mean row. -/
theorem in7 : after (hostOps2 (F := Ideal)) W (Proc.devRef .tc main_v103) = rowOf (vecAt 2 slices_S6x128_S1x128_2_0 (W (Proc.devRef .tc main_arg9))) := by
  after_results_simp <;> rfl

set_option maxHeartbeats 8000000 in
/-- Operand 8 of region 2: the variance row. -/
theorem in8 : after (hostOps2 (F := Ideal)) W (Proc.devRef .tc main_v104) = rowOf (vecAt 2 slices_S6x128_S1x128_2_0 (W (Proc.devRef .tc main_arg10))) := by
  after_results_simp <;> rfl

set_option maxHeartbeats 8000000 in
theorem keep_v1 : after (hostOps2 (F := Ideal)) W (Proc.devRef .tc main_v1) = W (Proc.devRef .tc main_v1) := by
  after_results_simp <;> rfl

set_option maxHeartbeats 8000000 in
theorem keep_v3 : after (hostOps2 (F := Ideal)) W (Proc.devRef .tc main_v3) = W (Proc.devRef .tc main_v3) := by
  after_results_simp <;> rfl

set_option maxHeartbeats 8000000 in
theorem keep_arg2 : after (hostOps2 (F := Ideal)) W (Proc.devRef .tc main_arg2) = W (Proc.devRef .tc main_arg2) := by
  after_results_simp <;> rfl

set_option maxHeartbeats 8000000 in
theorem keep_arg3 : after (hostOps2 (F := Ideal)) W (Proc.devRef .tc main_arg3) = W (Proc.devRef .tc main_arg3) := by
  after_results_simp <;> rfl

set_option maxHeartbeats 8000000 in
theorem keep_arg4 : after (hostOps2 (F := Ideal)) W (Proc.devRef .tc main_arg4) = W (Proc.devRef .tc main_arg4) := by
  after_results_simp <;> rfl

set_option maxHeartbeats 8000000 in
theorem keep_arg5 : after (hostOps2 (F := Ideal)) W (Proc.devRef .tc main_arg5) = W (Proc.devRef .tc main_arg5) := by
  after_results_simp <;> rfl

set_option maxHeartbeats 8000000 in
theorem keep_arg6 : after (hostOps2 (F := Ideal)) W (Proc.devRef .tc main_arg6) = W (Proc.devRef .tc main_arg6) := by
  after_results_simp <;> rfl

set_option maxHeartbeats 8000000 in
theorem keep_arg7 : after (hostOps2 (F := Ideal)) W (Proc.devRef .tc main_arg7) = W (Proc.devRef .tc main_arg7) := by
  after_results_simp <;> rfl

set_option maxHeartbeats 8000000 in
theorem keep_arg8 : after (hostOps2 (F := Ideal)) W (Proc.devRef .tc main_arg8) = W (Proc.devRef .tc main_arg8) := by
  after_results_simp <;> rfl

set_option maxHeartbeats 8000000 in
theorem keep_arg9 : after (hostOps2 (F := Ideal)) W (Proc.devRef .tc main_arg9) = W (Proc.devRef .tc main_arg9) := by
  after_results_simp <;> rfl

set_option maxHeartbeats 8000000 in
theorem keep_arg10 : after (hostOps2 (F := Ideal)) W (Proc.devRef .tc main_arg10) = W (Proc.devRef .tc main_arg10) := by
  after_results_simp <;> rfl

set_option maxHeartbeats 8000000 in
theorem keep_arg11 : after (hostOps2 (F := Ideal)) W (Proc.devRef .tc main_arg11) = W (Proc.devRef .tc main_arg11) := by
  after_results_simp <;> rfl

set_option maxHeartbeats 8000000 in
theorem keep_arg12 : after (hostOps2 (F := Ideal)) W (Proc.devRef .tc main_arg12) = W (Proc.devRef .tc main_arg12) := by
  after_results_simp <;> rfl

set_option maxHeartbeats 8000000 in
theorem keep_v71 : after (hostOps2 (F := Ideal)) W (Proc.devRef .tc main_v71) = W (Proc.devRef .tc main_v71) := by
  after_results_simp <;> rfl

end Cert.KernelIdeal.Stretch2

end
-- ==== Proof.KStretch3.lean ====
/-
  Stretch 3 of the kernel program's host operations, read from any starting contents `W`.

  The stretch prepares region 3's operands: it aggregates the node array along the edges, slices slot 3 out of
  each stacked parameter array and gives the six parameter vectors their unit axis. Each operand is read here as
  the network's function of the same name applied to what `W` holds; and the buffers the stretch does not write
  hold after it what they held before.
-/
import proofs.«126544_j10213432229997_1_alg».proof.Proof.Gen.KernelIdeal.Launch
import proofs.«126544_j10213432229997_1_alg».proof.Proof.GinNet

set_option maxRecDepth 16384

noncomputable section

namespace Cert.KernelIdeal.Stretch3

open Cert.KernelIdeal Cert.KernelIdeal.Gen Idealize.ShloMosaic Idealize.ShloMosaic.TcCoe Idealize.ShloMosaic.StableHlo
open Idealize.SL.Sem Cert.Gin

variable (W : Valuation τ sig (Elt Ideal))

set_option maxHeartbeats 8000000 in
/-- Operand 0 of region 3: the aggregated array. -/
theorem in0 : after (hostOps3 (F := Ideal)) W (Proc.devRef .tc main_v116) = agg (W (Proc.devRef .tc main_v105)) (W (Proc.devRef .tc main_v1)) (W (Proc.devRef .tc main_v3)) := by
  after_results_simp <;> rfl

set_option maxHeartbeats 8000000 in
/-- Operand 1 of region 3: the first weight matrix. -/
theorem in1 : after (hostOps3 (F := Ideal)) W (Proc.devRef .tc main_v118) = matAt 3 slices_S6x128x128_S1x128x128_3_0_0 (W (Proc.devRef .tc main_arg3)) := by
  after_results_simp <;> rfl

set_option maxHeartbeats 8000000 in
/-- Operand 2 of region 3: the first bias row. -/
theorem in2 : after (hostOps3 (F := Ideal)) W (Proc.devRef .tc main_v133) = rowOf (vecAt 3 slices_S6x128_S1x128_3_0 (W (Proc.devRef .tc main_arg4))) := by
  after_results_simp <;> rfl

set_option maxHeartbeats 8000000 in
/-- Operand 3 of region 3: the second weight matrix. -/
theorem in3 : after (hostOps3 (F := Ideal)) W (Proc.devRef .tc main_v122) = matAt 3 slices_S6x128x128_S1x128x128_3_0_0 (W (Proc.devRef .tc main_arg5)) := by
  after_results_simp <;> rfl

set_option maxHeartbeats 8000000 in
/-- Operand 4 of region 3: the second bias row. -/
theorem in4 : after (hostOps3 (F := Ideal)) W (Proc.devRef .tc main_v134) = rowOf (vecAt 3 slices_S6x128_S1x128_3_0 (W (Proc.devRef .tc main_arg6))) := by
  after_results_simp <;> rfl

set_option maxHeartbeats 8000000 in
/-- Operand 5 of region 3: the scale row. -/
theorem in5 : after (hostOps3 (F := Ideal)) W (Proc.devRef .tc main_v135) = rowOf (vecAt 3 slices_S6x128_S1x128_3_0 (W (Proc.devRef .tc main_arg7))) := by
  after_results_simp <;> rfl

set_option maxHeartbeats 8000000 in
/-- Operand 6 of region 3: the shift row. -/
theorem in6 : after (hostOps3 (F := Ideal)) W (Proc.devRef .tc main_v136) = rowOf (vecAt 3 slices_S6x128_S1x128_3_0 (W (Proc.devRef .tc main_arg8))) := by
  after_results_simp <;> rfl

set_option maxHeartbeats 8000000 in
/-- Operand 7 of region 3: the mean row. -/
theorem in7 : after (hostOps3 (F := Ideal)) W (Proc.devRef .tc main_v137) = rowOf (vecAt 3 slices_S6x128_S1x128_3_0 (W (Proc.devRef .tc main_arg9))) := by
  after_results_simp <;> rfl

set_option maxHeartbeats 8000000 in
/-- Operand 8 of region 3: the variance row. -/
theorem in8 : after (hostOps3 (F := Ideal)) W (Proc.devRef .tc main_v138) = rowOf (vecAt 3 slices_S6x128_S1x128_3_0 (W (Proc.devRef .tc main_arg10))) := by
  after_results_simp <;> rfl

set_option maxHeartbeats 8000000 in
theorem keep_v1 : after (hostOps3 (F := Ideal)) W (Proc.devRef .tc main_v1) = W (Proc.devRef .tc main_v1) := by
  after_results_simp <;> rfl

set_option maxHeartbeats 8000000 in
theorem keep_v3 : after (hostOps3 (F := Ideal)) W (Proc.devRef .tc main_v3) = W (Proc.devRef .tc main_v3) := by
  after_results_simp <;> rfl

set_option maxHeartbeats 8000000 in
theorem keep_arg2 : after (hostOps3 (F := Ideal)) W (Proc.devRef .tc main_arg2) = W (Proc.devRef .tc main_arg2) := by
  after_results_simp <;> rfl

set_option maxHeartbeats 8000000 in
theorem keep_arg3 : after (hostOps3 (F := Ideal)) W (Proc.devRef .tc main_arg3) = W (Proc.devRef .tc main_arg3) := by
  after_results_simp <;> rfl

set_option maxHeartbeats 8000000 in
theorem keep_arg4 : after (hostOps3 (F := Ideal)) W (Proc.devRef .tc main_arg4) = W (Proc.devRef .tc main_arg4) := by
  after_results_simp <;> rfl

set_option maxHeartbeats 8000000 in
theorem keep_arg5 : after (hostOps3 (F := Ideal)) W (Proc.devRef .tc main_arg5) = W (Proc.devRef .tc main_arg5) := by
  after_results_simp <;> rfl

set_option maxHeartbeats 8000000 in
theorem keep_arg6 : after (hostOps3 (F := Ideal)) W (Proc.devRef .tc main_arg6) = W (Proc.devRef .tc main_arg6) := by
  after_results_simp <;> rfl

set_option maxHeartbeats 8000000 in
theorem keep_arg7 : after (hostOps3 (F := Ideal)) W (Proc.devRef .tc main_arg7) = W (Proc.devRef .tc main_arg7) := by
  after_results_simp <;> rfl

set_option maxHeartbeats 8000000 in
theorem keep_arg8 : after (hostOps3 (F := Ideal)) W (Proc.devRef .tc main_arg8) = W (Proc.devRef .tc main_arg8) := by
  after_results_simp <;> rfl

set_option maxHeartbeats 8000000 in
theorem keep_arg9 : after (hostOps3 (F := Ideal)) W (Proc.devRef .tc main_arg9) = W (Proc.devRef .tc main_arg9) := by
  after_results_simp <;> rfl

set_option maxHeartbeats 8000000 in
theorem keep_arg10 : after (hostOps3 (F := Ideal)) W (Proc.devRef .tc main_arg10) = W (Proc.devRef .tc main_arg10) := by
  after_results_simp <;> rfl

set_option maxHeartbeats 8000000 in
theorem keep_arg11 : after (hostOps3 (F := Ideal)) W (Proc.devRef .tc main_arg11) = W (Proc.devRef .tc main_arg11) := by
  after_results_simp <;> rfl

set_option maxHeartbeats 8000000 in
theorem keep_arg12 : after (hostOps3 (F := Ideal)) W (Proc.devRef .tc main_arg12) = W (Proc.devRef .tc main_arg12) := by
  after_results_simp <;> rfl

set_option maxHeartbeats 8000000 in
theorem keep_v71 : after (hostOps3 (F := Ideal)) W (Proc.devRef .tc main_v71) = W (Proc.devRef .tc main_v71) := by
  after_results_simp <;> rfl

end Cert.KernelIdeal.Stretch3

end
-- ==== Proof.KStretch4.lean ====
/-
  Stretch 4 of the kernel program's host operations, read from any starting contents `W`.

  The stretch prepares region 4's operands: it aggregates the node array along the edges, slices slot 4 out of
  each stacked parameter array and gives the six parameter vectors their unit axis. Each operand is read here as
  the network's function of the same name applied to what `W` holds; and the buffers the stretch does not write
  hold after it what they held before.
-/
import proofs.«126544_j10213432229997_1_alg».proof.Proof.Gen.KernelIdeal.Launch
import proofs.«126544_j10213432229997_1_alg».proof.Proof.GinNet

set_option maxRecDepth 16384

noncomputable section

namespace Cert.KernelIdeal.Stretch4

open Cert.KernelIdeal Cert.KernelIdeal.Gen Idealize.ShloMosaic Idealize.ShloMosaic.TcCoe Idealize.ShloMosaic.StableHlo
open Idealize.SL.Sem Cert.Gin

variable (W : Valuation τ sig (Elt Ideal))

set_option maxHeartbeats 8000000 in
/-- Operand 0 of region 4: the aggregated array. -/
theorem in0 : after (hostOps4 (F := Ideal)) W (Proc.devRef .tc main_v150) = agg (W (Proc.devRef .tc main_v139)) (W (Proc.devRef .tc main_v1)) (W (Proc.devRef .tc main_v3)) := by
  after_results_simp <;> rfl

set_option maxHeartbeats 8000000 in
/-- Operand 1 of region 4: the first weight matrix. -/
theorem in1 : after (hostOps4 (F := Ideal)) W (Proc.devRef .tc main_v152) = matAt 4 slices_S6x128x128_S1x128x128_4_0_0 (W (Proc.devRef .tc main_arg3)) := by
  after_results_simp <;> rfl

set_option maxHeartbeats 8000000 in
/-- Operand 2 of region 4: the first bias row. -/
theorem in2 : after (hostOps4 (F := Ideal)) W (Proc.devRef .tc main_v167) = rowOf (vecAt 4 slices_S6x128_S1x128_4_0 (W (Proc.devRef .tc main_arg4))) := by
  after_results_simp <;> rfl

set_option maxHeartbeats 8000000 in
/-- Operand 3 of region 4: the second weight matrix. -/
theorem in3 : after (hostOps4 (F := Ideal)) W (Proc.devRef .tc main_v156) = matAt 4 slices_S6x128x128_S1x128x128_4_0_0 (W (Proc.devRef .tc main_arg5)) := by
  after_results_simp <;> rfl

set_option maxHeartbeats 8000000 in
/-- Operand 4 of region 4: the second bias row. -/
theorem in4 : after (hostOps4 (F := Ideal)) W (Proc.devRef .tc main_v168) = rowOf (vecAt 4 slices_S6x128_S1x128_4_0 (W (Proc.devRef .tc main_arg6))) := by
  after_results_simp <;> rfl

set_option maxHeartbeats 8000000 in
/-- Operand 5 of region 4: the scale row. -/
theorem in5 : after (hostOps4 (F := Ideal)) W (Proc.devRef .tc main_v169) = rowOf (vecAt 4 slices_S6x128_S1x128_4_0 (W (Proc.devRef .tc main_arg7))) := by
  after_results_simp <;> rfl

set_option maxHeartbeats 8000000 in
/-- Operand 6 of region 4: the shift row. -/
theorem in6 : after (hostOps4 (F := Ideal)) W (Proc.devRef .tc main_v170) = rowOf (vecAt 4 slices_S6x128_S1x128_4_0 (W (Proc.devRef .tc main_arg8))) := by
  after_results_simp <;> rfl

set_option maxHeartbeats 8000000 in
/-- Operand 7 of region 4: the mean row. -/
theorem in7 : after (hostOps4 (F := Ideal)) W (Proc.devRef .tc main_v171) = rowOf (vecAt 4 slices_S6x128_S1x128_4_0 (W (Proc.devRef .tc main_arg9))) := by
  after_results_simp <;> rfl

set_option maxHeartbeats 8000000 in
/-- Operand 8 of region 4: the variance row. -/
theorem in8 : after (hostOps4 (F := Ideal)) W (Proc.devRef .tc main_v172) = rowOf (vecAt 4 slices_S6x128_S1x128_4_0 (W (Proc.devRef .tc main_arg10))) := by
  after_results_simp <;> rfl

set_option maxHeartbeats 8000000 in
theorem keep_v1 : after (hostOps4 (F := Ideal)) W (Proc.devRef .tc main_v1) = W (Proc.devRef .tc main_v1) := by
  after_results_simp <;> rfl

set_option maxHeartbeats 8000000 in
theorem keep_v3 : after (hostOps4 (F := Ideal)) W (Proc.devRef .tc main_v3) = W (Proc.devRef .tc main_v3) := by
  after_results_simp <;> rfl

set_option maxHeartbeats 8000000 in
theorem keep_arg2 : after (hostOps4 (F := Ideal)) W (Proc.devRef .tc main_arg2) = W (Proc.devRef .tc main_arg2) := by
  after_results_simp <;> rfl

set_option maxHeartbeats 8000000 in
theorem keep_arg3 : after (hostOps4 (F := Ideal)) W (Proc.devRef .tc main_arg3) = W (Proc.devRef .tc main_arg3) := by
  after_results_simp <;> rfl

set_option maxHeartbeats 8000000 in
theorem keep_arg4 : after (hostOps4 (F := Ideal)) W (Proc.devRef .tc main_arg4) = W (Proc.devRef .tc main_arg4) := by
  after_results_simp <;> rfl

set_option maxHeartbeats 8000000 in
theorem keep_arg5 : after (hostOps4 (F := Ideal)) W (Proc.devRef .tc main_arg5) = W (Proc.devRef .tc main_arg5) := by
  after_results_simp <;> rfl

set_option maxHeartbeats 8000000 in
theorem keep_arg6 : after (hostOps4 (F := Ideal)) W (Proc.devRef .tc main_arg6) = W (Proc.devRef .tc main_arg6) := by
  after_results_simp <;> rfl

set_option maxHeartbeats 8000000 in
theorem keep_arg7 : after (hostOps4 (F := Ideal)) W (Proc.devRef .tc main_arg7) = W (Proc.devRef .tc main_arg7) := by
  after_results_simp <;> rfl

set_option maxHeartbeats 8000000 in
theorem keep_arg8 : after (hostOps4 (F := Ideal)) W (Proc.devRef .tc main_arg8) = W (Proc.devRef .tc main_arg8) := by
  after_results_simp <;> rfl

set_option maxHeartbeats 8000000 in
theorem keep_arg9 : after (hostOps4 (F := Ideal)) W (Proc.devRef .tc main_arg9) = W (Proc.devRef .tc main_arg9) := by
  after_results_simp <;> rfl

set_option maxHeartbeats 8000000 in
theorem keep_arg10 : after (hostOps4 (F := Ideal)) W (Proc.devRef .tc main_arg10) = W (Proc.devRef .tc main_arg10) := by
  after_results_simp <;> rfl

set_option maxHeartbeats 8000000 in
theorem keep_arg11 : after (hostOps4 (F := Ideal)) W (Proc.devRef .tc main_arg11) = W (Proc.devRef .tc main_arg11) := by
  after_results_simp <;> rfl

set_option maxHeartbeats 8000000 in
theorem keep_arg12 : after (hostOps4 (F := Ideal)) W (Proc.devRef .tc main_arg12) = W (Proc.devRef .tc main_arg12) := by
  after_results_simp <;> rfl

set_option maxHeartbeats 8000000 in
theorem keep_v139 : after (hostOps4 (F := Ideal)) W (Proc.devRef .tc main_v139) = W (Proc.devRef .tc main_v139) := by
  after_results_simp <;> rfl

end Cert.KernelIdeal.Stretch4

end
-- ==== Proof.KStretch5.lean ====
/-
  Stretch 5 of the kernel program's host operations, read from any starting contents `W`.

  The stretch prepares region 5's operands: it aggregates the node array along the edges, slices slot 5 out of
  each stacked parameter array and gives the six parameter vectors their unit axis. Each operand is read here as
  the network's function of the same name applied to what `W` holds; and the buffers the stretch does not write
  hold after it what they held before.
-/
import proofs.«126544_j10213432229997_1_alg».proof.Proof.Gen.KernelIdeal.Launch
import proofs.«126544_j10213432229997_1_alg».proof.Proof.GinNet

set_option maxRecDepth 16384

noncomputable section

namespace Cert.KernelIdeal.Stretch5

open Cert.KernelIdeal Cert.KernelIdeal.Gen Idealize.ShloMosaic Idealize.ShloMosaic.TcCoe Idealize.ShloMosaic.StableHlo
open Idealize.SL.Sem Cert.Gin

variable (W : Valuation τ sig (Elt Ideal))

set_option maxHeartbeats 8000000 in
/-- Operand 0 of region 5: the aggregated array. -/
theorem in0 : after (hostOps5 (F := Ideal)) W (Proc.devRef .tc main_v184) = agg (W (Proc.devRef .tc main_v173)) (W (Proc.devRef .tc main_v1)) (W (Proc.devRef .tc main_v3)) := by
  after_results_simp <;> rfl

set_option maxHeartbeats 8000000 in
/-- Operand 1 of region 5: the first weight matrix. -/
theorem in1 : after (hostOps5 (F := Ideal)) W (Proc.devRef .tc main_v186) = matAt 5 slices_S6x128x128_S1x128x128_5_0_0 (W (Proc.devRef .tc main_arg3)) := by
  after_results_simp <;> rfl

set_option maxHeartbeats 8000000 in
/-- Operand 2 of region 5: the first bias row. -/
theorem in2 : after (hostOps5 (F := Ideal)) W (Proc.devRef .tc main_v201) = rowOf (vecAt 5 slices_S6x128_S1x128_5_0 (W (Proc.devRef .tc main_arg4))) := by
  after_results_simp <;> rfl

set_option maxHeartbeats 8000000 in
/-- Operand 3 of region 5: the second weight matrix. -/
theorem in3 : after (hostOps5 (F := Ideal)) W (Proc.devRef .tc main_v190) = matAt 5 slices_S6x128x128_S1x128x128_5_0_0 (W (Proc.devRef .tc main_arg5)) := by
  after_results_simp <;> rfl

set_option maxHeartbeats 8000000 in
/-- Operand 4 of region 5: the second bias row. -/
theorem in4 : after (hostOps5 (F := Ideal)) W (Proc.devRef .tc main_v202) = rowOf (vecAt 5 slices_S6x128_S1x128_5_0 (W (Proc.devRef .tc main_arg6))) := by
  after_results_simp <;> rfl

set_option maxHeartbeats 8000000 in
/-- Operand 5 of region 5: the scale row. -/
theorem in5 : after (hostOps5 (F := Ideal)) W (Proc.devRef .tc main_v203) = rowOf (vecAt 5 slices_S6x128_S1x128_5_0 (W (Proc.devRef .tc main_arg7))) := by
  after_results_simp <;> rfl

set_option maxHeartbeats 8000000 in
/-- Operand 6 of region 5: the shift row. -/
theorem in6 : after (hostOps5 (F := Ideal)) W (Proc.devRef .tc main_v204) = rowOf (vecAt 5 slices_S6x128_S1x128_5_0 (W (Proc.devRef .tc main_arg8))) := by
  after_results_simp <;> rfl

set_option maxHeartbeats 8000000 in
/-- Operand 7 of region 5: the mean row. -/
theorem in7 : after (hostOps5 (F := Ideal)) W (Proc.devRef .tc main_v205) = rowOf (vecAt 5 slices_S6x128_S1x128_5_0 (W (Proc.devRef .tc main_arg9))) := by
  after_results_simp <;> rfl

set_option maxHeartbeats 8000000 in
/-- Operand 8 of region 5: the variance row. -/
theorem in8 : after (hostOps5 (F := Ideal)) W (Proc.devRef .tc main_v206) = rowOf (vecAt 5 slices_S6x128_S1x128_5_0 (W (Proc.devRef .tc main_arg10))) := by
  after_results_simp <;> rfl

set_option maxHeartbeats 8000000 in
theorem keep_v1 : after (hostOps5 (F := Ideal)) W (Proc.devRef .tc main_v1) = W (Proc.devRef .tc main_v1) := by
  after_results_simp <;> rfl

set_option maxHeartbeats 8000000 in
theorem keep_v3 : after (hostOps5 (F := Ideal)) W (Proc.devRef .tc main_v3) = W (Proc.devRef .tc main_v3) := by
  after_results_simp <;> rfl

set_option maxHeartbeats 8000000 in
theorem keep_arg2 : after (hostOps5 (F := Ideal)) W (Proc.devRef .tc main_arg2) = W (Proc.devRef .tc main_arg2) := by
  after_results_simp <;> rfl

set_option maxHeartbeats 8000000 in
theorem keep_arg3 : after (hostOps5 (F := Ideal)) W (Proc.devRef .tc main_arg3) = W (Proc.devRef .tc main_arg3) := by
  after_results_simp <;> rfl

set_option maxHeartbeats 8000000 in
theorem keep_arg4 : after (hostOps5 (F := Ideal)) W (Proc.devRef .tc main_arg4) = W (Proc.devRef .tc main_arg4) := by
  after_results_simp <;> rfl

set_option maxHeartbeats 8000000 in
theorem keep_arg5 : after (hostOps5 (F := Ideal)) W (Proc.devRef .tc main_arg5) = W (Proc.devRef .tc main_arg5) := by
  after_results_simp <;> rfl

set_option maxHeartbeats 8000000 in
theorem keep_arg6 : after (hostOps5 (F := Ideal)) W (Proc.devRef .tc main_arg6) = W (Proc.devRef .tc main_arg6) := by
  after_results_simp <;> rfl

set_option maxHeartbeats 8000000 in
theorem keep_arg7 : after (hostOps5 (F := Ideal)) W (Proc.devRef .tc main_arg7) = W (Proc.devRef .tc main_arg7) := by
  after_results_simp <;> rfl

set_option maxHeartbeats 8000000 in
theorem keep_arg8 : after (hostOps5 (F := Ideal)) W (Proc.devRef .tc main_arg8) = W (Proc.devRef .tc main_arg8) := by
  after_results_simp <;> rfl

set_option maxHeartbeats 8000000 in
theorem keep_arg9 : after (hostOps5 (F := Ideal)) W (Proc.devRef .tc main_arg9) = W (Proc.devRef .tc main_arg9) := by
  after_results_simp <;> rfl

set_option maxHeartbeats 8000000 in
theorem keep_arg10 : after (hostOps5 (F := Ideal)) W (Proc.devRef .tc main_arg10) = W (Proc.devRef .tc main_arg10) := by
  after_results_simp <;> rfl

set_option maxHeartbeats 8000000 in
theorem keep_arg11 : after (hostOps5 (F := Ideal)) W (Proc.devRef .tc main_arg11) = W (Proc.devRef .tc main_arg11) := by
  after_results_simp <;> rfl

set_option maxHeartbeats 8000000 in
theorem keep_arg12 : after (hostOps5 (F := Ideal)) W (Proc.devRef .tc main_arg12) = W (Proc.devRef .tc main_arg12) := by
  after_results_simp <;> rfl

set_option maxHeartbeats 8000000 in
theorem keep_v139 : after (hostOps5 (F := Ideal)) W (Proc.devRef .tc main_v139) = W (Proc.devRef .tc main_v139) := by
  after_results_simp <;> rfl

end Cert.KernelIdeal.Stretch5

end
-- ==== Proof.KStretch6.lean ====
/-
  Stretch 6 of the kernel program's host operations, read from any starting contents `W`.

  The last stretch is the head: the rows pooled by graph, divided by the graphs' sizes, and the last linear map.
  It is read here as the network's `head` of what `W` holds.
-/
import proofs.«126544_j10213432229997_1_alg».proof.Proof.Gen.KernelIdeal.Launch
import proofs.«126544_j10213432229997_1_alg».proof.Proof.GinNet

set_option maxRecDepth 16384

noncomputable section

namespace Cert.KernelIdeal.Stretch6

open Cert.KernelIdeal Cert.KernelIdeal.Gen Idealize.ShloMosaic Idealize.ShloMosaic.TcCoe Idealize.ShloMosaic.StableHlo
open Idealize.SL.Sem Cert.Gin

variable (W : Valuation τ sig (Elt Ideal))

set_option maxHeartbeats 8000000 in
/-- The result buffer after the head's operations. -/
theorem head_eq : after (hostOps6 (F := Ideal)) W (Proc.devRef .tc main_v223)
    = head (W (Proc.devRef .tc main_v207)) (W (Proc.devRef .tc main_arg2)) (W (Proc.devRef .tc main_arg11)) (W (Proc.devRef .tc main_arg12)) := by
  after_results_simp <;> rfl

end Cert.KernelIdeal.Stretch6

end
-- ==== Proof.KernelValue.lean ====
/-
  The value the kernel's program computes: the network of the launch contents of its arguments.

  The program's run is a fold over thirteen segments. Each stretch of host operations slices the layer's parameters
  out of the stacked arrays, gives the six vectors their unit axis and aggregates the node array along the edges
  (the stretches' own modules); each region then leaves in its output the layer of what the stretch prepared (the
  regions' own modules). Composed one segment at a time, from contents named at each boundary: the node array after
  layer `k` is `x_k` of the arguments, the two rows of the edge list and the parameter arrays stay what they were (no
  segment writes them), and the last stretch is the head. Nothing is computed: every step identifies what a
  segment applies with the function of the same name in the network's definition.
-/
import proofs.«126544_j10213432229997_1_alg».proof.Proof.Gen.KernelIdeal.Frame
import proofs.«126544_j10213432229997_1_alg».proof.Proof.GinNet
import proofs.«126544_j10213432229997_1_alg».proof.Proof.Region0
import proofs.«126544_j10213432229997_1_alg».proof.Proof.Region1
import proofs.«126544_j10213432229997_1_alg».proof.Proof.Region2
import proofs.«126544_j10213432229997_1_alg».proof.Proof.Region3
import proofs.«126544_j10213432229997_1_alg».proof.Proof.Region4
import proofs.«126544_j10213432229997_1_alg».proof.Proof.Region5
import proofs.«126544_j10213432229997_1_alg».proof.Proof.KStretch0
import proofs.«126544_j10213432229997_1_alg».proof.Proof.KStretch1
import proofs.«126544_j10213432229997_1_alg».proof.Proof.KStretch2
import proofs.«126544_j10213432229997_1_alg».proof.Proof.KStretch3
import proofs.«126544_j10213432229997_1_alg».proof.Proof.KStretch4
import proofs.«126544_j10213432229997_1_alg».proof.Proof.KStretch5
import proofs.«126544_j10213432229997_1_alg».proof.Proof.KStretch6

set_option maxRecDepth 16384

noncomputable section

namespace Cert.KernelIdeal.NetValue

open Cert.KernelIdeal Cert.KernelIdeal.Gen Idealize.ShloMosaic Idealize.ShloMosaic.TcCoe Idealize.ShloMosaic.StableHlo
open Idealize.SL.Sem Cert.Gin

variable (m : (ℓ : Loc nD τ sig) → Buf (Elt Ideal) ℓ) (ρ : Dev nD → PrngReg)

/-- The argument arrays as launched, on core `c`. -/
def argsOf (c : Dev nD) : Args where
  x := m ((c : Thread nD τ).loc main_arg0)
  e := m ((c : Thread nD τ).loc main_arg1)
  batch := m ((c : Thread nD τ).loc main_arg2)
  w1s := m ((c : Thread nD τ).loc main_arg3)
  b1s := m ((c : Thread nD τ).loc main_arg4)
  w2s := m ((c : Thread nD τ).loc main_arg5)
  b2s := m ((c : Thread nD τ).loc main_arg6)
  gamma := m ((c : Thread nD τ).loc main_arg7)
  beta := m ((c : Thread nD τ).loc main_arg8)
  mean := m ((c : Thread nD τ).loc main_arg9)
  var := m ((c : Thread nD τ).loc main_arg10)
  linw := m ((c : Thread nD τ).loc main_arg11)
  linb := m ((c : Thread nD τ).loc main_arg12)

/-- What every boundary after region 0 keeps: the two rows of the edge list (sliced once, by the first stretch) and
    the arrays the later segments read. -/
def Carried (W : Valuation τ sig (Elt Ideal)) (P : Args) : Prop :=
  W (Proc.devRef .tc main_v1) = src P.e
    ∧ W (Proc.devRef .tc main_v3) = dst P.e
    ∧ W (Proc.devRef .tc main_arg2) = P.batch
    ∧ W (Proc.devRef .tc main_arg3) = P.w1s
    ∧ W (Proc.devRef .tc main_arg4) = P.b1s
    ∧ W (Proc.devRef .tc main_arg5) = P.w2s
    ∧ W (Proc.devRef .tc main_arg6) = P.b2s
    ∧ W (Proc.devRef .tc main_arg7) = P.gamma
    ∧ W (Proc.devRef .tc main_arg8) = P.beta
    ∧ W (Proc.devRef .tc main_arg9) = P.mean
    ∧ W (Proc.devRef .tc main_arg10) = P.var
    ∧ W (Proc.devRef .tc main_arg11) = P.linw
    ∧ W (Proc.devRef .tc main_arg12) = P.linb

/-! ## Region 0 -/

set_option maxHeartbeats 4000000 in
/-- The node array after layer 0: what region 0 leaves in its output. -/
theorem out0 (c : Dev nD) : W2 m ρ c (Proc.devRef .tc main_v37) = x1 (argsOf m c) := by
  refine (W2_arr m ρ c 9).trans ((Region0.out_eq (V1 m ρ) c).trans ?_)
  rw [show V1 m ρ c main_v14 = _ from Stretch0.in0 (W0 m ρ c),
    show V1 m ρ c main_v16 = _ from Stretch0.in1 (W0 m ρ c),
    show V1 m ρ c main_v31 = _ from Stretch0.in2 (W0 m ρ c),
    show V1 m ρ c main_v20 = _ from Stretch0.in3 (W0 m ρ c),
    show V1 m ρ c main_v32 = _ from Stretch0.in4 (W0 m ρ c),
    show V1 m ρ c main_v33 = _ from Stretch0.in5 (W0 m ρ c),
    show V1 m ρ c main_v34 = _ from Stretch0.in6 (W0 m ρ c),
    show V1 m ρ c main_v35 = _ from Stretch0.in7 (W0 m ρ c),
    show V1 m ρ c main_v36 = _ from Stretch0.in8 (W0 m ρ c)]
  rfl

/-- After region 0 the edge rows are the slices the first stretch made, and the arrays are as launched. -/
theorem carried2 (c : Dev nD) : Carried (W2 m ρ c) (argsOf m c) :=
  ⟨(W2_of_ne m ρ c main_v1 (by decide)).trans (Stretch0.src_eq (W0 m ρ c)),
    (W2_of_ne m ρ c main_v3 (by decide)).trans (Stretch0.dst_eq (W0 m ρ c)),
    (W2_of_ne m ρ c main_arg2 (by decide)).trans (Stretch0.keep_arg2 (W0 m ρ c)),
    (W2_of_ne m ρ c main_arg3 (by decide)).trans (Stretch0.keep_arg3 (W0 m ρ c)),
    (W2_of_ne m ρ c main_arg4 (by decide)).trans (Stretch0.keep_arg4 (W0 m ρ c)),
    (W2_of_ne m ρ c main_arg5 (by decide)).trans (Stretch0.keep_arg5 (W0 m ρ c)),
    (W2_of_ne m ρ c main_arg6 (by decide)).trans (Stretch0.keep_arg6 (W0 m ρ c)),
    (W2_of_ne m ρ c main_arg7 (by decide)).trans (Stretch0.keep_arg7 (W0 m ρ c)),
    (W2_of_ne m ρ c main_arg8 (by decide)).trans (Stretch0.keep_arg8 (W0 m ρ c)),
    (W2_of_ne m ρ c main_arg9 (by decide)).trans (Stretch0.keep_arg9 (W0 m ρ c)),
    (W2_of_ne m ρ c main_arg10 (by decide)).trans (Stretch0.keep_arg10 (W0 m ρ c)),
    (W2_of_ne m ρ c main_arg11 (by decide)).trans (Stretch0.keep_arg11 (W0 m ρ c)),
    (W2_of_ne m ρ c main_arg12 (by decide)).trans (Stretch0.keep_arg12 (W0 m ρ c))⟩

/-- The input array is still what it was when region 1 reads it as its skip connection. -/
theorem w2_arg0 (c : Dev nD) : W2 m ρ c (Proc.devRef .tc main_arg0) = (argsOf m c).x :=
  (W2_of_ne m ρ c main_arg0 (by decide)).trans (Stretch0.keep_arg0 (W0 m ρ c))

/-! ## Region 1 -/

set_option maxHeartbeats 4000000 in
/-- The node array after layer 1: what region 1 leaves in its output. -/
theorem out1 (c : Dev nD) : W4 m ρ c (Proc.devRef .tc main_v71) = x2 (argsOf m c) := by
  obtain ⟨h_v1, h_v3, h_arg2, h_arg3, h_arg4, h_arg5, h_arg6, h_arg7, h_arg8, h_arg9, h_arg10, h_arg11, h_arg12⟩ := carried2 m ρ c
  refine (W4_arr m ρ c 10).trans ((Region1.out_eq (V3 m ρ) c).trans ?_)
  rw [show V3 m ρ c main_v48 = _ from Stretch1.in0 (W2 m ρ c),
    show V3 m ρ c main_v50 = _ from Stretch1.in1 (W2 m ρ c),
    show V3 m ρ c main_v65 = _ from Stretch1.in2 (W2 m ρ c),
    show V3 m ρ c main_v54 = _ from Stretch1.in3 (W2 m ρ c),
    show V3 m ρ c main_v66 = _ from Stretch1.in4 (W2 m ρ c),
    show V3 m ρ c main_v67 = _ from Stretch1.in5 (W2 m ρ c),
    show V3 m ρ c main_v68 = _ from Stretch1.in6 (W2 m ρ c),
    show V3 m ρ c main_v69 = _ from Stretch1.in7 (W2 m ρ c),
    show V3 m ρ c main_v70 = _ from Stretch1.in8 (W2 m ρ c),
    show V3 m ρ c main_arg0 = _ from Stretch1.keep_arg0 (W2 m ρ c)]
  rw [out0 m ρ c, h_v1, h_v3, h_arg3, h_arg4, h_arg5, h_arg6, h_arg7, h_arg8, h_arg9, h_arg10, w2_arg0 m ρ c]
  rfl

/-- The edge rows and the arrays are after region 1 what they were before stretch 1: neither writes them. -/
theorem carried4 (c : Dev nD) : Carried (W4 m ρ c) (argsOf m c) := by
  obtain ⟨h_v1, h_v3, h_arg2, h_arg3, h_arg4, h_arg5, h_arg6, h_arg7, h_arg8, h_arg9, h_arg10, h_arg11, h_arg12⟩ := carried2 m ρ c
  exact ⟨((W4_of_ne m ρ c main_v1 (by decide)).trans (Stretch1.keep_v1 (W2 m ρ c))).trans h_v1,
    ((W4_of_ne m ρ c main_v3 (by decide)).trans (Stretch1.keep_v3 (W2 m ρ c))).trans h_v3,
    ((W4_of_ne m ρ c main_arg2 (by decide)).trans (Stretch1.keep_arg2 (W2 m ρ c))).trans h_arg2,
    ((W4_of_ne m ρ c main_arg3 (by decide)).trans (Stretch1.keep_arg3 (W2 m ρ c))).trans h_arg3,
    ((W4_of_ne m ρ c main_arg4 (by decide)).trans (Stretch1.keep_arg4 (W2 m ρ c))).trans h_arg4,
    ((W4_of_ne m ρ c main_arg5 (by decide)).trans (Stretch1.keep_arg5 (W2 m ρ c))).trans h_arg5,
    ((W4_of_ne m ρ c main_arg6 (by decide)).trans (Stretch1.keep_arg6 (W2 m ρ c))).trans h_arg6,
    ((W4_of_ne m ρ c main_arg7 (by decide)).trans (Stretch1.keep_arg7 (W2 m ρ c))).trans h_arg7,
    ((W4_of_ne m ρ c main_arg8 (by decide)).trans (Stretch1.keep_arg8 (W2 m ρ c))).trans h_arg8,
    ((W4_of_ne m ρ c main_arg9 (by decide)).trans (Stretch1.keep_arg9 (W2 m ρ c))).trans h_arg9,
    ((W4_of_ne m ρ c main_arg10 (by decide)).trans (Stretch1.keep_arg10 (W2 m ρ c))).trans h_arg10,
    ((W4_of_ne m ρ c main_arg11 (by decide)).trans (Stretch1.keep_arg11 (W2 m ρ c))).trans h_arg11,
    ((W4_of_ne m ρ c main_arg12 (by decide)).trans (Stretch1.keep_arg12 (W2 m ρ c))).trans h_arg12⟩

/-! ## Region 2 -/

set_option maxHeartbeats 4000000 in
/-- The node array after layer 2: what region 2 leaves in its output. -/
theorem out2 (c : Dev nD) : W6 m ρ c (Proc.devRef .tc main_v105) = x3 (argsOf m c) := by
  obtain ⟨h_v1, h_v3, h_arg2, h_arg3, h_arg4, h_arg5, h_arg6, h_arg7, h_arg8, h_arg9, h_arg10, h_arg11, h_arg12⟩ := carried4 m ρ c
  refine (W6_arr m ρ c 9).trans ((Region2.out_eq (V5 m ρ) c).trans ?_)
  rw [show V5 m ρ c main_v82 = _ from Stretch2.in0 (W4 m ρ c),
    show V5 m ρ c main_v84 = _ from Stretch2.in1 (W4 m ρ c),
    show V5 m ρ c main_v99 = _ from Stretch2.in2 (W4 m ρ c),
    show V5 m ρ c main_v88 = _ from Stretch2.in3 (W4 m ρ c),
    show V5 m ρ c main_v100 = _ from Stretch2.in4 (W4 m ρ c),
    show V5 m ρ c main_v101 = _ from Stretch2.in5 (W4 m ρ c),
    show V5 m ρ c main_v102 = _ from Stretch2.in6 (W4 m ρ c),
    show V5 m ρ c main_v103 = _ from Stretch2.in7 (W4 m ρ c),
    show V5 m ρ c main_v104 = _ from Stretch2.in8 (W4 m ρ c)]
  rw [out1 m ρ c, h_v1, h_v3, h_arg3, h_arg4, h_arg5, h_arg6, h_arg7, h_arg8, h_arg9, h_arg10]
  rfl

/-- The edge rows and the arrays are after region 2 what they were before stretch 2: neither writes them. -/
theorem carried6 (c : Dev nD) : Carried (W6 m ρ c) (argsOf m c) := by
  obtain ⟨h_v1, h_v3, h_arg2, h_arg3, h_arg4, h_arg5, h_arg6, h_arg7, h_arg8, h_arg9, h_arg10, h_arg11, h_arg12⟩ := carried4 m ρ c
  exact ⟨((W6_of_ne m ρ c main_v1 (by decide)).trans (Stretch2.keep_v1 (W4 m ρ c))).trans h_v1,
    ((W6_of_ne m ρ c main_v3 (by decide)).trans (Stretch2.keep_v3 (W4 m ρ c))).trans h_v3,
    ((W6_of_ne m ρ c main_arg2 (by decide)).trans (Stretch2.keep_arg2 (W4 m ρ c))).trans h_arg2,
    ((W6_of_ne m ρ c main_arg3 (by decide)).trans (Stretch2.keep_arg3 (W4 m ρ c))).trans h_arg3,
    ((W6_of_ne m ρ c main_arg4 (by decide)).trans (Stretch2.keep_arg4 (W4 m ρ c))).trans h_arg4,
    ((W6_of_ne m ρ c main_arg5 (by decide)).trans (Stretch2.keep_arg5 (W4 m ρ c))).trans h_arg5,
    ((W6_of_ne m ρ c main_arg6 (by decide)).trans (Stretch2.keep_arg6 (W4 m ρ c))).trans h_arg6,
    ((W6_of_ne m ρ c main_arg7 (by decide)).trans (Stretch2.keep_arg7 (W4 m ρ c))).trans h_arg7,
    ((W6_of_ne m ρ c main_arg8 (by decide)).trans (Stretch2.keep_arg8 (W4 m ρ c))).trans h_arg8,
    ((W6_of_ne m ρ c main_arg9 (by decide)).trans (Stretch2.keep_arg9 (W4 m ρ c))).trans h_arg9,
    ((W6_of_ne m ρ c main_arg10 (by decide)).trans (Stretch2.keep_arg10 (W4 m ρ c))).trans h_arg10,
    ((W6_of_ne m ρ c main_arg11 (by decide)).trans (Stretch2.keep_arg11 (W4 m ρ c))).trans h_arg11,
    ((W6_of_ne m ρ c main_arg12 (by decide)).trans (Stretch2.keep_arg12 (W4 m ρ c))).trans h_arg12⟩

/-- Layer 1's array is still in its buffer when region 3 reads it as its skip connection. -/
theorem res3 (c : Dev nD) : W6 m ρ c (Proc.devRef .tc main_v71) = x2 (argsOf m c) :=
  ((W6_of_ne m ρ c main_v71 (by decide)).trans (Stretch2.keep_v71 (W4 m ρ c))).trans (out1 m ρ c)

/-! ## Region 3 -/

set_option maxHeartbeats 4000000 in
/-- The node array after layer 3: what region 3 leaves in its output. -/
theorem out3 (c : Dev nD) : W8 m ρ c (Proc.devRef .tc main_v139) = x4 (argsOf m c) := by
  obtain ⟨h_v1, h_v3, h_arg2, h_arg3, h_arg4, h_arg5, h_arg6, h_arg7, h_arg8, h_arg9, h_arg10, h_arg11, h_arg12⟩ := carried6 m ρ c
  refine (W8_arr m ρ c 10).trans ((Region3.out_eq (V7 m ρ) c).trans ?_)
  rw [show V7 m ρ c main_v116 = _ from Stretch3.in0 (W6 m ρ c),
    show V7 m ρ c main_v118 = _ from Stretch3.in1 (W6 m ρ c),
    show V7 m ρ c main_v133 = _ from Stretch3.in2 (W6 m ρ c),
    show V7 m ρ c main_v122 = _ from Stretch3.in3 (W6 m ρ c),
    show V7 m ρ c main_v134 = _ from Stretch3.in4 (W6 m ρ c),
    show V7 m ρ c main_v135 = _ from Stretch3.in5 (W6 m ρ c),
    show V7 m ρ c main_v136 = _ from Stretch3.in6 (W6 m ρ c),
    show V7 m ρ c main_v137 = _ from Stretch3.in7 (W6 m ρ c),
    show V7 m ρ c main_v138 = _ from Stretch3.in8 (W6 m ρ c),
    show V7 m ρ c main_v71 = _ from Stretch3.keep_v71 (W6 m ρ c)]
  rw [out2 m ρ c, h_v1, h_v3, h_arg3, h_arg4, h_arg5, h_arg6, h_arg7, h_arg8, h_arg9, h_arg10, res3 m ρ c]
  rfl

/-- The edge rows and the arrays are after region 3 what they were before stretch 3: neither writes them. -/
theorem carried8 (c : Dev nD) : Carried (W8 m ρ c) (argsOf m c) := by
  obtain ⟨h_v1, h_v3, h_arg2, h_arg3, h_arg4, h_arg5, h_arg6, h_arg7, h_arg8, h_arg9, h_arg10, h_arg11, h_arg12⟩ := carried6 m ρ c
  exact ⟨((W8_of_ne m ρ c main_v1 (by decide)).trans (Stretch3.keep_v1 (W6 m ρ c))).trans h_v1,
    ((W8_of_ne m ρ c main_v3 (by decide)).trans (Stretch3.keep_v3 (W6 m ρ c))).trans h_v3,
    ((W8_of_ne m ρ c main_arg2 (by decide)).trans (Stretch3.keep_arg2 (W6 m ρ c))).trans h_arg2,
    ((W8_of_ne m ρ c main_arg3 (by decide)).trans (Stretch3.keep_arg3 (W6 m ρ c))).trans h_arg3,
    ((W8_of_ne m ρ c main_arg4 (by decide)).trans (Stretch3.keep_arg4 (W6 m ρ c))).trans h_arg4,
    ((W8_of_ne m ρ c main_arg5 (by decide)).trans (Stretch3.keep_arg5 (W6 m ρ c))).trans h_arg5,
    ((W8_of_ne m ρ c main_arg6 (by decide)).trans (Stretch3.keep_arg6 (W6 m ρ c))).trans h_arg6,
    ((W8_of_ne m ρ c main_arg7 (by decide)).trans (Stretch3.keep_arg7 (W6 m ρ c))).trans h_arg7,
    ((W8_of_ne m ρ c main_arg8 (by decide)).trans (Stretch3.keep_arg8 (W6 m ρ c))).trans h_arg8,
    ((W8_of_ne m ρ c main_arg9 (by decide)).trans (Stretch3.keep_arg9 (W6 m ρ c))).trans h_arg9,
    ((W8_of_ne m ρ c main_arg10 (by decide)).trans (Stretch3.keep_arg10 (W6 m ρ c))).trans h_arg10,
    ((W8_of_ne m ρ c main_arg11 (by decide)).trans (Stretch3.keep_arg11 (W6 m ρ c))).trans h_arg11,
    ((W8_of_ne m ρ c main_arg12 (by decide)).trans (Stretch3.keep_arg12 (W6 m ρ c))).trans h_arg12⟩

/-! ## Region 4 -/

set_option maxHeartbeats 4000000 in
/-- The node array after layer 4: what region 4 leaves in its output. -/
theorem out4 (c : Dev nD) : W10 m ρ c (Proc.devRef .tc main_v173) = x5 (argsOf m c) := by
  obtain ⟨h_v1, h_v3, h_arg2, h_arg3, h_arg4, h_arg5, h_arg6, h_arg7, h_arg8, h_arg9, h_arg10, h_arg11, h_arg12⟩ := carried8 m ρ c
  refine (W10_arr m ρ c 9).trans ((Region4.out_eq (V9 m ρ) c).trans ?_)
  rw [show V9 m ρ c main_v150 = _ from Stretch4.in0 (W8 m ρ c),
    show V9 m ρ c main_v152 = _ from Stretch4.in1 (W8 m ρ c),
    show V9 m ρ c main_v167 = _ from Stretch4.in2 (W8 m ρ c),
    show V9 m ρ c main_v156 = _ from Stretch4.in3 (W8 m ρ c),
    show V9 m ρ c main_v168 = _ from Stretch4.in4 (W8 m ρ c),
    show V9 m ρ c main_v169 = _ from Stretch4.in5 (W8 m ρ c),
    show V9 m ρ c main_v170 = _ from Stretch4.in6 (W8 m ρ c),
    show V9 m ρ c main_v171 = _ from Stretch4.in7 (W8 m ρ c),
    show V9 m ρ c main_v172 = _ from Stretch4.in8 (W8 m ρ c)]
  rw [out3 m ρ c, h_v1, h_v3, h_arg3, h_arg4, h_arg5, h_arg6, h_arg7, h_arg8, h_arg9, h_arg10]
  rfl

/-- The edge rows and the arrays are after region 4 what they were before stretch 4: neither writes them. -/
theorem carried10 (c : Dev nD) : Carried (W10 m ρ c) (argsOf m c) := by
  obtain ⟨h_v1, h_v3, h_arg2, h_arg3, h_arg4, h_arg5, h_arg6, h_arg7, h_arg8, h_arg9, h_arg10, h_arg11, h_arg12⟩ := carried8 m ρ c
  exact ⟨((W10_of_ne m ρ c main_v1 (by decide)).trans (Stretch4.keep_v1 (W8 m ρ c))).trans h_v1,
    ((W10_of_ne m ρ c main_v3 (by decide)).trans (Stretch4.keep_v3 (W8 m ρ c))).trans h_v3,
    ((W10_of_ne m ρ c main_arg2 (by decide)).trans (Stretch4.keep_arg2 (W8 m ρ c))).trans h_arg2,
    ((W10_of_ne m ρ c main_arg3 (by decide)).trans (Stretch4.keep_arg3 (W8 m ρ c))).trans h_arg3,
    ((W10_of_ne m ρ c main_arg4 (by decide)).trans (Stretch4.keep_arg4 (W8 m ρ c))).trans h_arg4,
    ((W10_of_ne m ρ c main_arg5 (by decide)).trans (Stretch4.keep_arg5 (W8 m ρ c))).trans h_arg5,
    ((W10_of_ne m ρ c main_arg6 (by decide)).trans (Stretch4.keep_arg6 (W8 m ρ c))).trans h_arg6,
    ((W10_of_ne m ρ c main_arg7 (by decide)).trans (Stretch4.keep_arg7 (W8 m ρ c))).trans h_arg7,
    ((W10_of_ne m ρ c main_arg8 (by decide)).trans (Stretch4.keep_arg8 (W8 m ρ c))).trans h_arg8,
    ((W10_of_ne m ρ c main_arg9 (by decide)).trans (Stretch4.keep_arg9 (W8 m ρ c))).trans h_arg9,
    ((W10_of_ne m ρ c main_arg10 (by decide)).trans (Stretch4.keep_arg10 (W8 m ρ c))).trans h_arg10,
    ((W10_of_ne m ρ c main_arg11 (by decide)).trans (Stretch4.keep_arg11 (W8 m ρ c))).trans h_arg11,
    ((W10_of_ne m ρ c main_arg12 (by decide)).trans (Stretch4.keep_arg12 (W8 m ρ c))).trans h_arg12⟩

/-- Layer 3's array is still in its buffer when region 5 reads it as its skip connection. -/
theorem res5 (c : Dev nD) : W10 m ρ c (Proc.devRef .tc main_v139) = x4 (argsOf m c) :=
  ((W10_of_ne m ρ c main_v139 (by decide)).trans (Stretch4.keep_v139 (W8 m ρ c))).trans (out3 m ρ c)

/-! ## Region 5 -/

set_option maxHeartbeats 4000000 in
/-- The node array after layer 5: what region 5 leaves in its output. -/
theorem out5 (c : Dev nD) : W12 m ρ c (Proc.devRef .tc main_v207) = x6 (argsOf m c) := by
  obtain ⟨h_v1, h_v3, h_arg2, h_arg3, h_arg4, h_arg5, h_arg6, h_arg7, h_arg8, h_arg9, h_arg10, h_arg11, h_arg12⟩ := carried10 m ρ c
  refine (W12_arr m ρ c 10).trans ((Region5.out_eq (V11 m ρ) c).trans ?_)
  rw [show V11 m ρ c main_v184 = _ from Stretch5.in0 (W10 m ρ c),
    show V11 m ρ c main_v186 = _ from Stretch5.in1 (W10 m ρ c),
    show V11 m ρ c main_v201 = _ from Stretch5.in2 (W10 m ρ c),
    show V11 m ρ c main_v190 = _ from Stretch5.in3 (W10 m ρ c),
    show V11 m ρ c main_v202 = _ from Stretch5.in4 (W10 m ρ c),
    show V11 m ρ c main_v203 = _ from Stretch5.in5 (W10 m ρ c),
    show V11 m ρ c main_v204 = _ from Stretch5.in6 (W10 m ρ c),
    show V11 m ρ c main_v205 = _ from Stretch5.in7 (W10 m ρ c),
    show V11 m ρ c main_v206 = _ from Stretch5.in8 (W10 m ρ c),
    show V11 m ρ c main_v139 = _ from Stretch5.keep_v139 (W10 m ρ c)]
  rw [out4 m ρ c, h_v1, h_v3, h_arg3, h_arg4, h_arg5, h_arg6, h_arg7, h_arg8, h_arg9, h_arg10, res5 m ρ c]
  rfl

/-- The edge rows and the arrays are after region 5 what they were before stretch 5: neither writes them. -/
theorem carried12 (c : Dev nD) : Carried (W12 m ρ c) (argsOf m c) := by
  obtain ⟨h_v1, h_v3, h_arg2, h_arg3, h_arg4, h_arg5, h_arg6, h_arg7, h_arg8, h_arg9, h_arg10, h_arg11, h_arg12⟩ := carried10 m ρ c
  exact ⟨((W12_of_ne m ρ c main_v1 (by decide)).trans (Stretch5.keep_v1 (W10 m ρ c))).trans h_v1,
    ((W12_of_ne m ρ c main_v3 (by decide)).trans (Stretch5.keep_v3 (W10 m ρ c))).trans h_v3,
    ((W12_of_ne m ρ c main_arg2 (by decide)).trans (Stretch5.keep_arg2 (W10 m ρ c))).trans h_arg2,
    ((W12_of_ne m ρ c main_arg3 (by decide)).trans (Stretch5.keep_arg3 (W10 m ρ c))).trans h_arg3,
    ((W12_of_ne m ρ c main_arg4 (by decide)).trans (Stretch5.keep_arg4 (W10 m ρ c))).trans h_arg4,
    ((W12_of_ne m ρ c main_arg5 (by decide)).trans (Stretch5.keep_arg5 (W10 m ρ c))).trans h_arg5,
    ((W12_of_ne m ρ c main_arg6 (by decide)).trans (Stretch5.keep_arg6 (W10 m ρ c))).trans h_arg6,
    ((W12_of_ne m ρ c main_arg7 (by decide)).trans (Stretch5.keep_arg7 (W10 m ρ c))).trans h_arg7,
    ((W12_of_ne m ρ c main_arg8 (by decide)).trans (Stretch5.keep_arg8 (W10 m ρ c))).trans h_arg8,
    ((W12_of_ne m ρ c main_arg9 (by decide)).trans (Stretch5.keep_arg9 (W10 m ρ c))).trans h_arg9,
    ((W12_of_ne m ρ c main_arg10 (by decide)).trans (Stretch5.keep_arg10 (W10 m ρ c))).trans h_arg10,
    ((W12_of_ne m ρ c main_arg11 (by decide)).trans (Stretch5.keep_arg11 (W10 m ρ c))).trans h_arg11,
    ((W12_of_ne m ρ c main_arg12 (by decide)).trans (Stretch5.keep_arg12 (W10 m ρ c))).trans h_arg12⟩

/-! ## The head -/

set_option maxHeartbeats 4000000 in
/-- THE KERNEL'S VALUE: what the fold leaves in the result buffer is the network of the arguments as launched. -/
theorem result_eq (c : Dev nD) : W13 m ρ c (Proc.devRef .tc main_v223) = result (argsOf m c) := by
  obtain ⟨h_v1, h_v3, h_arg2, h_arg3, h_arg4, h_arg5, h_arg6, h_arg7, h_arg8, h_arg9, h_arg10, h_arg11, h_arg12⟩ := carried12 m ρ c
  refine (Stretch6.head_eq (W12 m ρ c)).trans ?_
  rw [out5 m ρ c, h_arg2, h_arg11, h_arg12]
  rfl

end Cert.KernelIdeal.NetValue

end
-- ==== Proof.RefLayer.lean ====
/-
  A layer as the reference's host operations compute it is the network's layer.

  The reference applies a layer to the whole node array at once: `dot_general` with the first weight matrix, the bias
  repeated down the rows, the maximum with a zero splat, the normalisation with its scale computed on vectors and
  repeated down the rows, `dot_general` with the second weight matrix, bias, maximum. The row-by-row module reads
  that at an entry as the layer of the entry's row, which is the network's layer on the parameters of slot `k`.
-/
import proofs.«126544_j10213432229997_1_alg».proof.Proof.Gen.ReferenceIdeal
import proofs.«126544_j10213432229997_1_alg».proof.Proof.Gen.KernelIdeal
import proofs.«126544_j10213432229997_1_alg».proof.Proof.GinNet

noncomputable section

namespace Cert.ReferenceIdeal.Layer

open Cert.ReferenceIdeal Cert.ReferenceIdeal.Gen Idealize.ShloMosaic Idealize.ShloMosaic.TcCoe Cert.Gin Cert.Dense

/-- The reference's `dot_general` record contracts the rows' columns against the weight's rows. -/
theorem rowsColsR : RowsCols dot_S100000x128_S128x128_S100000x128_1_0_0_1_n_n :=
  ⟨rfl, rfl, fun _ _ => rfl, fun _ _ => rfl, fun _ _ => rfl, fun _ _ => rfl⟩

/-- A layer as the reference's operations compute it, on the parameters of slot `k`, is the network's layer `k`. -/
theorem hostLayer_layerAt (k : Nat) (h3 : Cert.KernelIdeal.S6x128x128.Slices ![k, 0, 0] Cert.KernelIdeal.S1x128x128)
    (h2 : Cert.KernelIdeal.S6x128.Slices ![k, 0] Cert.KernelIdeal.S1x128) (P : Args) (a : Nodes) :
    hostLayer dot_S100000x128_S128x128_S100000x128_1_0_0_1_n_n bcast_S128_S1x128_1 bcast_S1x128_S100000x128_0_1
        bcast_S_S100000x128 bcast_S_S128 a (matAt k h3 P.w1s) (vecAt k h2 P.b1s) (matAt k h3 P.w2s) (vecAt k h2 P.b2s)
        (vecAt k h2 P.gamma) (vecAt k h2 P.beta) (vecAt k h2 P.mean) (vecAt k h2 P.var)
      = layerAt k h3 h2 P a :=
  hostLayer_eq _ rowsColsR _ _ _ _ Cert.KernelIdeal.Gen.shapeCasts_S128_S1x128 a _ _ _ _ _ _ _ _

/-- The same followed by the addition of the skip connection's array. -/
theorem hostLayer_layerResAt (k : Nat) (h3 : Cert.KernelIdeal.S6x128x128.Slices ![k, 0, 0] Cert.KernelIdeal.S1x128x128)
    (h2 : Cert.KernelIdeal.S6x128.Slices ![k, 0] Cert.KernelIdeal.S1x128) (P : Args) (a res : Nodes) :
    addf (hostLayer dot_S100000x128_S128x128_S100000x128_1_0_0_1_n_n bcast_S128_S1x128_1 bcast_S1x128_S100000x128_0_1
        bcast_S_S100000x128 bcast_S_S128 a (matAt k h3 P.w1s) (vecAt k h2 P.b1s) (matAt k h3 P.w2s) (vecAt k h2 P.b2s)
        (vecAt k h2 P.gamma) (vecAt k h2 P.beta) (vecAt k h2 P.mean) (vecAt k h2 P.var)) res
      = layerResAt k h3 h2 P a res := by
  rw [hostLayer_layerAt]
  rfl

end Cert.ReferenceIdeal.Layer

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.LibRefTransport.lean ====
/-
  Reading or writing a buffer through a typed reference whose value type is the buffer's own type is the identity.

  The operations of an outlined function (`func.call`) reach their operands through typed references, a transport along the
  equation "the buffer's type is the value's type". Where a value passes between such an operation and a plain one, one
  transport is left over after the written-then-read pairs cancel. For a literal buffer the two types are the same type, so
  that transport is the identity: `ofBuf_self`, `toBuf_self`. General in the reference signature and the element values.
-/
import Idealize.ShloMosaic.Lib.StableHlo.Run

namespace Cert.HostLine

open Idealize.ShloMosaic Idealize.ShloMosaic.StableHlo

variable {sig : RefSig} {Val : EltTy → Type}

/-- Reading a buffer's contents through a typed reference of the buffer's own type is the identity. -/
theorem ofBuf_self (r : Ref sig .tc) (h1 : r.ty = r.ty) (h2 : r.space ≠ .host) (h3 : r.isScoped = false)
    (v : r.ty.Contents Val) : (TRef.of (T := r.ty) r h1 h2 h3).ofBuf v = v := rfl

/-- Writing a value into a buffer through a typed reference of the buffer's own type is the identity. -/
theorem toBuf_self (r : Ref sig .tc) (h1 : r.ty = r.ty) (h2 : r.space ≠ .host) (h3 : r.isScoped = false)
    (v : r.ty.Contents Val) : (TRef.of (T := r.ty) r h1 h2 h3).toBuf v = v := rfl

end Cert.HostLine
-- ==== Proof.RStretch0.lean ====
/-
  Stretch 0 of the reference's line of host operations, read from any starting contents `U`.

  The stretch is layer 0: the aggregation of the node array along the edges, slot 0 of each stacked parameter
  array, and the layer's operations on whole arrays. Given what `U` holds in the buffers it reads, what it leaves
  in its last buffer is the network's layer 0 of the aggregated array; and the buffers it does not write hold
  after it what they held before.
-/
import proofs.«126544_j10213432229997_1_alg».proof.Proof.RefRun
import proofs.«126544_j10213432229997_1_alg».proof.Proof.RefLayer
import proofs.«126544_j10213432229997_1_alg».proof.Proof.LibHostStretches
import proofs.«126544_j10213432229997_1_alg».proof.Proof.LibRefTransport

set_option maxRecDepth 16384

noncomputable section

namespace Cert.ReferenceIdeal.Stretch0

open Cert.ReferenceIdeal Cert.ReferenceIdeal.Gen Cert.ReferenceIdeal.ValueP Idealize.ShloMosaic Idealize.ShloMosaic.TcCoe
open Idealize.ShloMosaic.StableHlo Idealize.SL.Sem Cert.Gin Cert.ReferenceIdeal.Layer

variable (U : Valuation τ sig (Elt Ideal))

set_option maxHeartbeats 16000000 in
/-- THE STRETCH'S ARRAY: the network's layer 0 of the aggregated array. -/
theorem out (P : Args)
    (hx : U (Proc.devRef .tc main_arg0) = P.x)
    (he : U (Proc.devRef .tc main_arg1) = P.e)
    (a3 : U (Proc.devRef .tc main_arg3) = P.w1s)
    (a4 : U (Proc.devRef .tc main_arg4) = P.b1s)
    (a5 : U (Proc.devRef .tc main_arg5) = P.w2s)
    (a6 : U (Proc.devRef .tc main_arg6) = P.b2s)
    (a7 : U (Proc.devRef .tc main_arg7) = P.gamma)
    (a8 : U (Proc.devRef .tc main_arg8) = P.beta)
    (a9 : U (Proc.devRef .tc main_arg9) = P.mean)
    (a10 : U (Proc.devRef .tc main_arg10) = P.var) :
    after (ops0 (F := Ideal)) U (Proc.devRef .tc main_v53) = layerAt 0 Cert.KernelIdeal.Gen.slices_S6x128x128_S1x128x128_0_0_0 Cert.KernelIdeal.Gen.slices_S6x128_S1x128_0_0 P (agg P.x (src P.e) (dst P.e)) := by
  after_results_simp
  simp only [Cert.HostLine.ofBuf_toBuf]
  erw [Cert.HostLine.toBuf_self main_v53, Cert.HostLine.ofBuf_self main_v52, Cert.HostLine.toBuf_self main_v35, Cert.HostLine.ofBuf_self main_v34]
  rw [hx, he, a3, a4, a5, a6, a7, a8, a9, a10]
  exact hostLayer_layerAt 0 _ _ P _

set_option maxHeartbeats 16000000 in
/-- The edges' sources, sliced once here. -/
theorem src_eq : after (ops0 (F := Ideal)) U (Proc.devRef .tc main_v1) = src (U (Proc.devRef .tc main_arg1)) := by
  after_results_simp <;> rfl

set_option maxHeartbeats 16000000 in
/-- The edges' targets, sliced once here. -/
theorem dst_eq : after (ops0 (F := Ideal)) U (Proc.devRef .tc main_v3) = dst (U (Proc.devRef .tc main_arg1)) := by
  after_results_simp <;> rfl

set_option maxHeartbeats 16000000 in
theorem keep_arg0 : after (ops0 (F := Ideal)) U (Proc.devRef .tc main_arg0) = U (Proc.devRef .tc main_arg0) := by
  after_results_simp <;> rfl

set_option maxHeartbeats 16000000 in
theorem keep_arg1 : after (ops0 (F := Ideal)) U (Proc.devRef .tc main_arg1) = U (Proc.devRef .tc main_arg1) := by
  after_results_simp <;> rfl

set_option maxHeartbeats 16000000 in
theorem keep_arg2 : after (ops0 (F := Ideal)) U (Proc.devRef .tc main_arg2) = U (Proc.devRef .tc main_arg2) := by
  after_results_simp <;> rfl

set_option maxHeartbeats 16000000 in
theorem keep_arg3 : after (ops0 (F := Ideal)) U (Proc.devRef .tc main_arg3) = U (Proc.devRef .tc main_arg3) := by
  after_results_simp <;> rfl

set_option maxHeartbeats 16000000 in
theorem keep_arg4 : after (ops0 (F := Ideal)) U (Proc.devRef .tc main_arg4) = U (Proc.devRef .tc main_arg4) := by
  after_results_simp <;> rfl

set_option maxHeartbeats 16000000 in
theorem keep_arg5 : after (ops0 (F := Ideal)) U (Proc.devRef .tc main_arg5) = U (Proc.devRef .tc main_arg5) := by
  after_results_simp <;> rfl

set_option maxHeartbeats 16000000 in
theorem keep_arg6 : after (ops0 (F := Ideal)) U (Proc.devRef .tc main_arg6) = U (Proc.devRef .tc main_arg6) := by
  after_results_simp <;> rfl

set_option maxHeartbeats 16000000 in
theorem keep_arg7 : after (ops0 (F := Ideal)) U (Proc.devRef .tc main_arg7) = U (Proc.devRef .tc main_arg7) := by
  after_results_simp <;> rfl

set_option maxHeartbeats 16000000 in
theorem keep_arg8 : after (ops0 (F := Ideal)) U (Proc.devRef .tc main_arg8) = U (Proc.devRef .tc main_arg8) := by
  after_results_simp <;> rfl

set_option maxHeartbeats 16000000 in
theorem keep_arg9 : after (ops0 (F := Ideal)) U (Proc.devRef .tc main_arg9) = U (Proc.devRef .tc main_arg9) := by
  after_results_simp <;> rfl

set_option maxHeartbeats 16000000 in
theorem keep_arg10 : after (ops0 (F := Ideal)) U (Proc.devRef .tc main_arg10) = U (Proc.devRef .tc main_arg10) := by
  after_results_simp <;> rfl

set_option maxHeartbeats 16000000 in
theorem keep_arg11 : after (ops0 (F := Ideal)) U (Proc.devRef .tc main_arg11) = U (Proc.devRef .tc main_arg11) := by
  after_results_simp <;> rfl

set_option maxHeartbeats 16000000 in
theorem keep_arg12 : after (ops0 (F := Ideal)) U (Proc.devRef .tc main_arg12) = U (Proc.devRef .tc main_arg12) := by
  after_results_simp <;> rfl

end Cert.ReferenceIdeal.Stretch0

end
-- ==== Proof.RStretch1.lean ====
/-
  Stretch 1 of the reference's line of host operations, read from any starting contents `U`.

  The stretch is layer 1: the aggregation of the node array along the edges, slot 1 of each stacked parameter
  array, and the layer's operations on whole arrays, then the addition of the skip connection's array. Given what `U` holds in the buffers it reads, what it leaves
  in its last buffer is the network's layer 1 of the aggregated array; and the buffers it does not write hold
  after it what they held before.
-/
import proofs.«126544_j10213432229997_1_alg».proof.Proof.RefRun
import proofs.«126544_j10213432229997_1_alg».proof.Proof.RefLayer
import proofs.«126544_j10213432229997_1_alg».proof.Proof.LibHostStretches
import proofs.«126544_j10213432229997_1_alg».proof.Proof.LibRefTransport

set_option maxRecDepth 16384

noncomputable section

namespace Cert.ReferenceIdeal.Stretch1

open Cert.ReferenceIdeal Cert.ReferenceIdeal.Gen Cert.ReferenceIdeal.ValueP Idealize.ShloMosaic Idealize.ShloMosaic.TcCoe
open Idealize.ShloMosaic.StableHlo Idealize.SL.Sem Cert.Gin Cert.ReferenceIdeal.Layer

variable (U : Valuation τ sig (Elt Ideal))

set_option maxHeartbeats 16000000 in
/-- THE STRETCH'S ARRAY: the network's layer 1 of the aggregated array, plus the skip connection's. -/
theorem out (P : Args) (X : Nodes) (R : Nodes)
    (hx : U (Proc.devRef .tc main_v53) = X)
    (h1 : U (Proc.devRef .tc main_v1) = src P.e)
    (h3 : U (Proc.devRef .tc main_v3) = dst P.e)
    (a3 : U (Proc.devRef .tc main_arg3) = P.w1s)
    (a4 : U (Proc.devRef .tc main_arg4) = P.b1s)
    (a5 : U (Proc.devRef .tc main_arg5) = P.w2s)
    (a6 : U (Proc.devRef .tc main_arg6) = P.b2s)
    (a7 : U (Proc.devRef .tc main_arg7) = P.gamma)
    (a8 : U (Proc.devRef .tc main_arg8) = P.beta)
    (a9 : U (Proc.devRef .tc main_arg9) = P.mean)
    (a10 : U (Proc.devRef .tc main_arg10) = P.var)
    (hr : U (Proc.devRef .tc main_arg0) = R) :
    after (ops1 (F := Ideal)) U (Proc.devRef .tc main_v104) = layerResAt 1 Cert.KernelIdeal.Gen.slices_S6x128x128_S1x128x128_1_0_0 Cert.KernelIdeal.Gen.slices_S6x128_S1x128_1_0 P (agg X (src P.e) (dst P.e)) R := by
  after_results_simp
  simp only [Cert.HostLine.ofBuf_toBuf]
  erw [Cert.HostLine.toBuf_self main_v103, Cert.HostLine.ofBuf_self main_v102, Cert.HostLine.toBuf_self main_v85, Cert.HostLine.ofBuf_self main_v84]
  rw [hx, h1, h3, a3, a4, a5, a6, a7, a8, a9, a10, hr]
  exact hostLayer_layerResAt 1 _ _ P _ _

set_option maxHeartbeats 16000000 in
theorem keep_v1 : after (ops1 (F := Ideal)) U (Proc.devRef .tc main_v1) = U (Proc.devRef .tc main_v1) := by
  after_results_simp <;> rfl

set_option maxHeartbeats 16000000 in
theorem keep_v3 : after (ops1 (F := Ideal)) U (Proc.devRef .tc main_v3) = U (Proc.devRef .tc main_v3) := by
  after_results_simp <;> rfl

set_option maxHeartbeats 16000000 in
theorem keep_arg0 : after (ops1 (F := Ideal)) U (Proc.devRef .tc main_arg0) = U (Proc.devRef .tc main_arg0) := by
  after_results_simp <;> rfl

set_option maxHeartbeats 16000000 in
theorem keep_arg1 : after (ops1 (F := Ideal)) U (Proc.devRef .tc main_arg1) = U (Proc.devRef .tc main_arg1) := by
  after_results_simp <;> rfl

set_option maxHeartbeats 16000000 in
theorem keep_arg2 : after (ops1 (F := Ideal)) U (Proc.devRef .tc main_arg2) = U (Proc.devRef .tc main_arg2) := by
  after_results_simp <;> rfl

set_option maxHeartbeats 16000000 in
theorem keep_arg3 : after (ops1 (F := Ideal)) U (Proc.devRef .tc main_arg3) = U (Proc.devRef .tc main_arg3) := by
  after_results_simp <;> rfl

set_option maxHeartbeats 16000000 in
theorem keep_arg4 : after (ops1 (F := Ideal)) U (Proc.devRef .tc main_arg4) = U (Proc.devRef .tc main_arg4) := by
  after_results_simp <;> rfl

set_option maxHeartbeats 16000000 in
theorem keep_arg5 : after (ops1 (F := Ideal)) U (Proc.devRef .tc main_arg5) = U (Proc.devRef .tc main_arg5) := by
  after_results_simp <;> rfl

set_option maxHeartbeats 16000000 in
theorem keep_arg6 : after (ops1 (F := Ideal)) U (Proc.devRef .tc main_arg6) = U (Proc.devRef .tc main_arg6) := by
  after_results_simp <;> rfl

set_option maxHeartbeats 16000000 in
theorem keep_arg7 : after (ops1 (F := Ideal)) U (Proc.devRef .tc main_arg7) = U (Proc.devRef .tc main_arg7) := by
  after_results_simp <;> rfl

set_option maxHeartbeats 16000000 in
theorem keep_arg8 : after (ops1 (F := Ideal)) U (Proc.devRef .tc main_arg8) = U (Proc.devRef .tc main_arg8) := by
  after_results_simp <;> rfl

set_option maxHeartbeats 16000000 in
theorem keep_arg9 : after (ops1 (F := Ideal)) U (Proc.devRef .tc main_arg9) = U (Proc.devRef .tc main_arg9) := by
  after_results_simp <;> rfl

set_option maxHeartbeats 16000000 in
theorem keep_arg10 : after (ops1 (F := Ideal)) U (Proc.devRef .tc main_arg10) = U (Proc.devRef .tc main_arg10) := by
  after_results_simp <;> rfl

set_option maxHeartbeats 16000000 in
theorem keep_arg11 : after (ops1 (F := Ideal)) U (Proc.devRef .tc main_arg11) = U (Proc.devRef .tc main_arg11) := by
  after_results_simp <;> rfl

set_option maxHeartbeats 16000000 in
theorem keep_arg12 : after (ops1 (F := Ideal)) U (Proc.devRef .tc main_arg12) = U (Proc.devRef .tc main_arg12) := by
  after_results_simp <;> rfl

end Cert.ReferenceIdeal.Stretch1

end
-- ==== Proof.RStretch2.lean ====
/-
  Stretch 2 of the reference's line of host operations, read from any starting contents `U`.

  The stretch is layer 2: the aggregation of the node array along the edges, slot 2 of each stacked parameter
  array, and the layer's operations on whole arrays. Given what `U` holds in the buffers it reads, what it leaves
  in its last buffer is the network's layer 2 of the aggregated array; and the buffers it does not write hold
  after it what they held before.
-/
import proofs.«126544_j10213432229997_1_alg».proof.Proof.RefRun
import proofs.«126544_j10213432229997_1_alg».proof.Proof.RefLayer
import proofs.«126544_j10213432229997_1_alg».proof.Proof.LibHostStretches
import proofs.«126544_j10213432229997_1_alg».proof.Proof.LibRefTransport

set_option maxRecDepth 16384

noncomputable section

namespace Cert.ReferenceIdeal.Stretch2

open Cert.ReferenceIdeal Cert.ReferenceIdeal.Gen Cert.ReferenceIdeal.ValueP Idealize.ShloMosaic Idealize.ShloMosaic.TcCoe
open Idealize.ShloMosaic.StableHlo Idealize.SL.Sem Cert.Gin Cert.ReferenceIdeal.Layer

variable (U : Valuation τ sig (Elt Ideal))

set_option maxHeartbeats 16000000 in
/-- THE STRETCH'S ARRAY: the network's layer 2 of the aggregated array. -/
theorem out (P : Args) (X : Nodes)
    (hx : U (Proc.devRef .tc main_v104) = X)
    (h1 : U (Proc.devRef .tc main_v1) = src P.e)
    (h3 : U (Proc.devRef .tc main_v3) = dst P.e)
    (a3 : U (Proc.devRef .tc main_arg3) = P.w1s)
    (a4 : U (Proc.devRef .tc main_arg4) = P.b1s)
    (a5 : U (Proc.devRef .tc main_arg5) = P.w2s)
    (a6 : U (Proc.devRef .tc main_arg6) = P.b2s)
    (a7 : U (Proc.devRef .tc main_arg7) = P.gamma)
    (a8 : U (Proc.devRef .tc main_arg8) = P.beta)
    (a9 : U (Proc.devRef .tc main_arg9) = P.mean)
    (a10 : U (Proc.devRef .tc main_arg10) = P.var) :
    after (ops2 (F := Ideal)) U (Proc.devRef .tc main_v154) = layerAt 2 Cert.KernelIdeal.Gen.slices_S6x128x128_S1x128x128_2_0_0 Cert.KernelIdeal.Gen.slices_S6x128_S1x128_2_0 P (agg X (src P.e) (dst P.e)) := by
  after_results_simp
  simp only [Cert.HostLine.ofBuf_toBuf]
  erw [Cert.HostLine.toBuf_self main_v154, Cert.HostLine.ofBuf_self main_v153, Cert.HostLine.toBuf_self main_v136, Cert.HostLine.ofBuf_self main_v135]
  rw [hx, h1, h3, a3, a4, a5, a6, a7, a8, a9, a10]
  exact hostLayer_layerAt 2 _ _ P _

set_option maxHeartbeats 16000000 in
theorem keep_v1 : after (ops2 (F := Ideal)) U (Proc.devRef .tc main_v1) = U (Proc.devRef .tc main_v1) := by
  after_results_simp <;> rfl

set_option maxHeartbeats 16000000 in
theorem keep_v3 : after (ops2 (F := Ideal)) U (Proc.devRef .tc main_v3) = U (Proc.devRef .tc main_v3) := by
  after_results_simp <;> rfl

set_option maxHeartbeats 16000000 in
theorem keep_arg0 : after (ops2 (F := Ideal)) U (Proc.devRef .tc main_arg0) = U (Proc.devRef .tc main_arg0) := by
  after_results_simp <;> rfl

set_option maxHeartbeats 16000000 in
theorem keep_arg1 : after (ops2 (F := Ideal)) U (Proc.devRef .tc main_arg1) = U (Proc.devRef .tc main_arg1) := by
  after_results_simp <;> rfl

set_option maxHeartbeats 16000000 in
theorem keep_arg2 : after (ops2 (F := Ideal)) U (Proc.devRef .tc main_arg2) = U (Proc.devRef .tc main_arg2) := by
  after_results_simp <;> rfl

set_option maxHeartbeats 16000000 in
theorem keep_arg3 : after (ops2 (F := Ideal)) U (Proc.devRef .tc main_arg3) = U (Proc.devRef .tc main_arg3) := by
  after_results_simp <;> rfl

set_option maxHeartbeats 16000000 in
theorem keep_arg4 : after (ops2 (F := Ideal)) U (Proc.devRef .tc main_arg4) = U (Proc.devRef .tc main_arg4) := by
  after_results_simp <;> rfl

set_option maxHeartbeats 16000000 in
theorem keep_arg5 : after (ops2 (F := Ideal)) U (Proc.devRef .tc main_arg5) = U (Proc.devRef .tc main_arg5) := by
  after_results_simp <;> rfl

set_option maxHeartbeats 16000000 in
theorem keep_arg6 : after (ops2 (F := Ideal)) U (Proc.devRef .tc main_arg6) = U (Proc.devRef .tc main_arg6) := by
  after_results_simp <;> rfl

set_option maxHeartbeats 16000000 in
theorem keep_arg7 : after (ops2 (F := Ideal)) U (Proc.devRef .tc main_arg7) = U (Proc.devRef .tc main_arg7) := by
  after_results_simp <;> rfl

set_option maxHeartbeats 16000000 in
theorem keep_arg8 : after (ops2 (F := Ideal)) U (Proc.devRef .tc main_arg8) = U (Proc.devRef .tc main_arg8) := by
  after_results_simp <;> rfl

set_option maxHeartbeats 16000000 in
theorem keep_arg9 : after (ops2 (F := Ideal)) U (Proc.devRef .tc main_arg9) = U (Proc.devRef .tc main_arg9) := by
  after_results_simp <;> rfl

set_option maxHeartbeats 16000000 in
theorem keep_arg10 : after (ops2 (F := Ideal)) U (Proc.devRef .tc main_arg10) = U (Proc.devRef .tc main_arg10) := by
  after_results_simp <;> rfl

set_option maxHeartbeats 16000000 in
theorem keep_arg11 : after (ops2 (F := Ideal)) U (Proc.devRef .tc main_arg11) = U (Proc.devRef .tc main_arg11) := by
  after_results_simp <;> rfl

set_option maxHeartbeats 16000000 in
theorem keep_arg12 : after (ops2 (F := Ideal)) U (Proc.devRef .tc main_arg12) = U (Proc.devRef .tc main_arg12) := by
  after_results_simp <;> rfl

set_option maxHeartbeats 16000000 in
theorem keep_v104 : after (ops2 (F := Ideal)) U (Proc.devRef .tc main_v104) = U (Proc.devRef .tc main_v104) := by
  after_results_simp <;> rfl

end Cert.ReferenceIdeal.Stretch2

end
-- ==== Proof.RStretch3.lean ====
/-
  Stretch 3 of the reference's line of host operations, read from any starting contents `U`.

  The stretch is layer 3: the aggregation of the node array along the edges, slot 3 of each stacked parameter
  array, and the layer's operations on whole arrays, then the addition of the skip connection's array. Given what `U` holds in the buffers it reads, what it leaves
  in its last buffer is the network's layer 3 of the aggregated array; and the buffers it does not write hold
  after it what they held before.
-/
import proofs.«126544_j10213432229997_1_alg».proof.Proof.RefRun
import proofs.«126544_j10213432229997_1_alg».proof.Proof.RefLayer
import proofs.«126544_j10213432229997_1_alg».proof.Proof.LibHostStretches
import proofs.«126544_j10213432229997_1_alg».proof.Proof.LibRefTransport

set_option maxRecDepth 16384

noncomputable section

namespace Cert.ReferenceIdeal.Stretch3

open Cert.ReferenceIdeal Cert.ReferenceIdeal.Gen Cert.ReferenceIdeal.ValueP Idealize.ShloMosaic Idealize.ShloMosaic.TcCoe
open Idealize.ShloMosaic.StableHlo Idealize.SL.Sem Cert.Gin Cert.ReferenceIdeal.Layer

variable (U : Valuation τ sig (Elt Ideal))

set_option maxHeartbeats 16000000 in
/-- THE STRETCH'S ARRAY: the network's layer 3 of the aggregated array, plus the skip connection's. -/
theorem out (P : Args) (X : Nodes) (R : Nodes)
    (hx : U (Proc.devRef .tc main_v154) = X)
    (h1 : U (Proc.devRef .tc main_v1) = src P.e)
    (h3 : U (Proc.devRef .tc main_v3) = dst P.e)
    (a3 : U (Proc.devRef .tc main_arg3) = P.w1s)
    (a4 : U (Proc.devRef .tc main_arg4) = P.b1s)
    (a5 : U (Proc.devRef .tc main_arg5) = P.w2s)
    (a6 : U (Proc.devRef .tc main_arg6) = P.b2s)
    (a7 : U (Proc.devRef .tc main_arg7) = P.gamma)
    (a8 : U (Proc.devRef .tc main_arg8) = P.beta)
    (a9 : U (Proc.devRef .tc main_arg9) = P.mean)
    (a10 : U (Proc.devRef .tc main_arg10) = P.var)
    (hr : U (Proc.devRef .tc main_v104) = R) :
    after (ops3 (F := Ideal)) U (Proc.devRef .tc main_v205) = layerResAt 3 Cert.KernelIdeal.Gen.slices_S6x128x128_S1x128x128_3_0_0 Cert.KernelIdeal.Gen.slices_S6x128_S1x128_3_0 P (agg X (src P.e) (dst P.e)) R := by
  after_results_simp
  simp only [Cert.HostLine.ofBuf_toBuf]
  erw [Cert.HostLine.toBuf_self main_v204, Cert.HostLine.ofBuf_self main_v203, Cert.HostLine.toBuf_self main_v186, Cert.HostLine.ofBuf_self main_v185]
  rw [hx, h1, h3, a3, a4, a5, a6, a7, a8, a9, a10, hr]
  exact hostLayer_layerResAt 3 _ _ P _ _

set_option maxHeartbeats 16000000 in
theorem keep_v1 : after (ops3 (F := Ideal)) U (Proc.devRef .tc main_v1) = U (Proc.devRef .tc main_v1) := by
  after_results_simp <;> rfl

set_option maxHeartbeats 16000000 in
theorem keep_v3 : after (ops3 (F := Ideal)) U (Proc.devRef .tc main_v3) = U (Proc.devRef .tc main_v3) := by
  after_results_simp <;> rfl

set_option maxHeartbeats 16000000 in
theorem keep_arg0 : after (ops3 (F := Ideal)) U (Proc.devRef .tc main_arg0) = U (Proc.devRef .tc main_arg0) := by
  after_results_simp <;> rfl

set_option maxHeartbeats 16000000 in
theorem keep_arg1 : after (ops3 (F := Ideal)) U (Proc.devRef .tc main_arg1) = U (Proc.devRef .tc main_arg1) := by
  after_results_simp <;> rfl

set_option maxHeartbeats 16000000 in
theorem keep_arg2 : after (ops3 (F := Ideal)) U (Proc.devRef .tc main_arg2) = U (Proc.devRef .tc main_arg2) := by
  after_results_simp <;> rfl

set_option maxHeartbeats 16000000 in
theorem keep_arg3 : after (ops3 (F := Ideal)) U (Proc.devRef .tc main_arg3) = U (Proc.devRef .tc main_arg3) := by
  after_results_simp <;> rfl

set_option maxHeartbeats 16000000 in
theorem keep_arg4 : after (ops3 (F := Ideal)) U (Proc.devRef .tc main_arg4) = U (Proc.devRef .tc main_arg4) := by
  after_results_simp <;> rfl

set_option maxHeartbeats 16000000 in
theorem keep_arg5 : after (ops3 (F := Ideal)) U (Proc.devRef .tc main_arg5) = U (Proc.devRef .tc main_arg5) := by
  after_results_simp <;> rfl

set_option maxHeartbeats 16000000 in
theorem keep_arg6 : after (ops3 (F := Ideal)) U (Proc.devRef .tc main_arg6) = U (Proc.devRef .tc main_arg6) := by
  after_results_simp <;> rfl

set_option maxHeartbeats 16000000 in
theorem keep_arg7 : after (ops3 (F := Ideal)) U (Proc.devRef .tc main_arg7) = U (Proc.devRef .tc main_arg7) := by
  after_results_simp <;> rfl

set_option maxHeartbeats 16000000 in
theorem keep_arg8 : after (ops3 (F := Ideal)) U (Proc.devRef .tc main_arg8) = U (Proc.devRef .tc main_arg8) := by
  after_results_simp <;> rfl

set_option maxHeartbeats 16000000 in
theorem keep_arg9 : after (ops3 (F := Ideal)) U (Proc.devRef .tc main_arg9) = U (Proc.devRef .tc main_arg9) := by
  after_results_simp <;> rfl

set_option maxHeartbeats 16000000 in
theorem keep_arg10 : after (ops3 (F := Ideal)) U (Proc.devRef .tc main_arg10) = U (Proc.devRef .tc main_arg10) := by
  after_results_simp <;> rfl

set_option maxHeartbeats 16000000 in
theorem keep_arg11 : after (ops3 (F := Ideal)) U (Proc.devRef .tc main_arg11) = U (Proc.devRef .tc main_arg11) := by
  after_results_simp <;> rfl

set_option maxHeartbeats 16000000 in
theorem keep_arg12 : after (ops3 (F := Ideal)) U (Proc.devRef .tc main_arg12) = U (Proc.devRef .tc main_arg12) := by
  after_results_simp <;> rfl

end Cert.ReferenceIdeal.Stretch3

end
-- ==== Proof.RStretch4.lean ====
/-
  Stretch 4 of the reference's line of host operations, read from any starting contents `U`.

  The stretch is layer 4: the aggregation of the node array along the edges, slot 4 of each stacked parameter
  array, and the layer's operations on whole arrays. Given what `U` holds in the buffers it reads, what it leaves
  in its last buffer is the network's layer 4 of the aggregated array; and the buffers it does not write hold
  after it what they held before.
-/
import proofs.«126544_j10213432229997_1_alg».proof.Proof.RefRun
import proofs.«126544_j10213432229997_1_alg».proof.Proof.RefLayer
import proofs.«126544_j10213432229997_1_alg».proof.Proof.LibHostStretches
import proofs.«126544_j10213432229997_1_alg».proof.Proof.LibRefTransport

set_option maxRecDepth 16384

noncomputable section

namespace Cert.ReferenceIdeal.Stretch4

open Cert.ReferenceIdeal Cert.ReferenceIdeal.Gen Cert.ReferenceIdeal.ValueP Idealize.ShloMosaic Idealize.ShloMosaic.TcCoe
open Idealize.ShloMosaic.StableHlo Idealize.SL.Sem Cert.Gin Cert.ReferenceIdeal.Layer

variable (U : Valuation τ sig (Elt Ideal))

set_option maxHeartbeats 16000000 in
/-- THE STRETCH'S ARRAY: the network's layer 4 of the aggregated array. -/
theorem out (P : Args) (X : Nodes)
    (hx : U (Proc.devRef .tc main_v205) = X)
    (h1 : U (Proc.devRef .tc main_v1) = src P.e)
    (h3 : U (Proc.devRef .tc main_v3) = dst P.e)
    (a3 : U (Proc.devRef .tc main_arg3) = P.w1s)
    (a4 : U (Proc.devRef .tc main_arg4) = P.b1s)
    (a5 : U (Proc.devRef .tc main_arg5) = P.w2s)
    (a6 : U (Proc.devRef .tc main_arg6) = P.b2s)
    (a7 : U (Proc.devRef .tc main_arg7) = P.gamma)
    (a8 : U (Proc.devRef .tc main_arg8) = P.beta)
    (a9 : U (Proc.devRef .tc main_arg9) = P.mean)
    (a10 : U (Proc.devRef .tc main_arg10) = P.var) :
    after (ops4 (F := Ideal)) U (Proc.devRef .tc main_v255) = layerAt 4 Cert.KernelIdeal.Gen.slices_S6x128x128_S1x128x128_4_0_0 Cert.KernelIdeal.Gen.slices_S6x128_S1x128_4_0 P (agg X (src P.e) (dst P.e)) := by
  after_results_simp
  simp only [Cert.HostLine.ofBuf_toBuf]
  erw [Cert.HostLine.toBuf_self main_v255, Cert.HostLine.ofBuf_self main_v254, Cert.HostLine.toBuf_self main_v237, Cert.HostLine.ofBuf_self main_v236]
  rw [hx, h1, h3, a3, a4, a5, a6, a7, a8, a9, a10]
  exact hostLayer_layerAt 4 _ _ P _

set_option maxHeartbeats 16000000 in
theorem keep_v1 : after (ops4 (F := Ideal)) U (Proc.devRef .tc main_v1) = U (Proc.devRef .tc main_v1) := by
  after_results_simp <;> rfl

set_option maxHeartbeats 16000000 in
theorem keep_v3 : after (ops4 (F := Ideal)) U (Proc.devRef .tc main_v3) = U (Proc.devRef .tc main_v3) := by
  after_results_simp <;> rfl

set_option maxHeartbeats 16000000 in
theorem keep_arg0 : after (ops4 (F := Ideal)) U (Proc.devRef .tc main_arg0) = U (Proc.devRef .tc main_arg0) := by
  after_results_simp <;> rfl

set_option maxHeartbeats 16000000 in
theorem keep_arg1 : after (ops4 (F := Ideal)) U (Proc.devRef .tc main_arg1) = U (Proc.devRef .tc main_arg1) := by
  after_results_simp <;> rfl

set_option maxHeartbeats 16000000 in
theorem keep_arg2 : after (ops4 (F := Ideal)) U (Proc.devRef .tc main_arg2) = U (Proc.devRef .tc main_arg2) := by
  after_results_simp <;> rfl

set_option maxHeartbeats 16000000 in
theorem keep_arg3 : after (ops4 (F := Ideal)) U (Proc.devRef .tc main_arg3) = U (Proc.devRef .tc main_arg3) := by
  after_results_simp <;> rfl

set_option maxHeartbeats 16000000 in
theorem keep_arg4 : after (ops4 (F := Ideal)) U (Proc.devRef .tc main_arg4) = U (Proc.devRef .tc main_arg4) := by
  after_results_simp <;> rfl

set_option maxHeartbeats 16000000 in
theorem keep_arg5 : after (ops4 (F := Ideal)) U (Proc.devRef .tc main_arg5) = U (Proc.devRef .tc main_arg5) := by
  after_results_simp <;> rfl

set_option maxHeartbeats 16000000 in
theorem keep_arg6 : after (ops4 (F := Ideal)) U (Proc.devRef .tc main_arg6) = U (Proc.devRef .tc main_arg6) := by
  after_results_simp <;> rfl

set_option maxHeartbeats 16000000 in
theorem keep_arg7 : after (ops4 (F := Ideal)) U (Proc.devRef .tc main_arg7) = U (Proc.devRef .tc main_arg7) := by
  after_results_simp <;> rfl

set_option maxHeartbeats 16000000 in
theorem keep_arg8 : after (ops4 (F := Ideal)) U (Proc.devRef .tc main_arg8) = U (Proc.devRef .tc main_arg8) := by
  after_results_simp <;> rfl

set_option maxHeartbeats 16000000 in
theorem keep_arg9 : after (ops4 (F := Ideal)) U (Proc.devRef .tc main_arg9) = U (Proc.devRef .tc main_arg9) := by
  after_results_simp <;> rfl

set_option maxHeartbeats 16000000 in
theorem keep_arg10 : after (ops4 (F := Ideal)) U (Proc.devRef .tc main_arg10) = U (Proc.devRef .tc main_arg10) := by
  after_results_simp <;> rfl

set_option maxHeartbeats 16000000 in
theorem keep_arg11 : after (ops4 (F := Ideal)) U (Proc.devRef .tc main_arg11) = U (Proc.devRef .tc main_arg11) := by
  after_results_simp <;> rfl

set_option maxHeartbeats 16000000 in
theorem keep_arg12 : after (ops4 (F := Ideal)) U (Proc.devRef .tc main_arg12) = U (Proc.devRef .tc main_arg12) := by
  after_results_simp <;> rfl

set_option maxHeartbeats 16000000 in
theorem keep_v205 : after (ops4 (F := Ideal)) U (Proc.devRef .tc main_v205) = U (Proc.devRef .tc main_v205) := by
  after_results_simp <;> rfl

end Cert.ReferenceIdeal.Stretch4

end
-- ==== Proof.RStretch5.lean ====
/-
  Stretch 5 of the reference's line of host operations, read from any starting contents `U`.

  The stretch is layer 5: the aggregation of the node array along the edges, slot 5 of each stacked parameter
  array, and the layer's operations on whole arrays, then the addition of the skip connection's array. Given what `U` holds in the buffers it reads, what it leaves
  in its last buffer is the network's layer 5 of the aggregated array; and the buffers it does not write hold
  after it what they held before.
-/
import proofs.«126544_j10213432229997_1_alg».proof.Proof.RefRun
import proofs.«126544_j10213432229997_1_alg».proof.Proof.RefLayer
import proofs.«126544_j10213432229997_1_alg».proof.Proof.LibHostStretches
import proofs.«126544_j10213432229997_1_alg».proof.Proof.LibRefTransport

set_option maxRecDepth 16384

noncomputable section

namespace Cert.ReferenceIdeal.Stretch5

open Cert.ReferenceIdeal Cert.ReferenceIdeal.Gen Cert.ReferenceIdeal.ValueP Idealize.ShloMosaic Idealize.ShloMosaic.TcCoe
open Idealize.ShloMosaic.StableHlo Idealize.SL.Sem Cert.Gin Cert.ReferenceIdeal.Layer

variable (U : Valuation τ sig (Elt Ideal))

set_option maxHeartbeats 16000000 in
/-- THE STRETCH'S ARRAY: the network's layer 5 of the aggregated array, plus the skip connection's. -/
theorem out (P : Args) (X : Nodes) (R : Nodes)
    (hx : U (Proc.devRef .tc main_v255) = X)
    (h1 : U (Proc.devRef .tc main_v1) = src P.e)
    (h3 : U (Proc.devRef .tc main_v3) = dst P.e)
    (a3 : U (Proc.devRef .tc main_arg3) = P.w1s)
    (a4 : U (Proc.devRef .tc main_arg4) = P.b1s)
    (a5 : U (Proc.devRef .tc main_arg5) = P.w2s)
    (a6 : U (Proc.devRef .tc main_arg6) = P.b2s)
    (a7 : U (Proc.devRef .tc main_arg7) = P.gamma)
    (a8 : U (Proc.devRef .tc main_arg8) = P.beta)
    (a9 : U (Proc.devRef .tc main_arg9) = P.mean)
    (a10 : U (Proc.devRef .tc main_arg10) = P.var)
    (hr : U (Proc.devRef .tc main_v205) = R) :
    after (ops5 (F := Ideal)) U (Proc.devRef .tc main_v306) = layerResAt 5 Cert.KernelIdeal.Gen.slices_S6x128x128_S1x128x128_5_0_0 Cert.KernelIdeal.Gen.slices_S6x128_S1x128_5_0 P (agg X (src P.e) (dst P.e)) R := by
  after_results_simp
  simp only [Cert.HostLine.ofBuf_toBuf]
  erw [Cert.HostLine.toBuf_self main_v305, Cert.HostLine.ofBuf_self main_v304, Cert.HostLine.toBuf_self main_v287, Cert.HostLine.ofBuf_self main_v286]
  rw [hx, h1, h3, a3, a4, a5, a6, a7, a8, a9, a10, hr]
  exact hostLayer_layerResAt 5 _ _ P _ _

set_option maxHeartbeats 16000000 in
theorem keep_v1 : after (ops5 (F := Ideal)) U (Proc.devRef .tc main_v1) = U (Proc.devRef .tc main_v1) := by
  after_results_simp <;> rfl

set_option maxHeartbeats 16000000 in
theorem keep_v3 : after (ops5 (F := Ideal)) U (Proc.devRef .tc main_v3) = U (Proc.devRef .tc main_v3) := by
  after_results_simp <;> rfl

set_option maxHeartbeats 16000000 in
theorem keep_arg0 : after (ops5 (F := Ideal)) U (Proc.devRef .tc main_arg0) = U (Proc.devRef .tc main_arg0) := by
  after_results_simp <;> rfl

set_option maxHeartbeats 16000000 in
theorem keep_arg1 : after (ops5 (F := Ideal)) U (Proc.devRef .tc main_arg1) = U (Proc.devRef .tc main_arg1) := by
  after_results_simp <;> rfl

set_option maxHeartbeats 16000000 in
theorem keep_arg2 : after (ops5 (F := Ideal)) U (Proc.devRef .tc main_arg2) = U (Proc.devRef .tc main_arg2) := by
  after_results_simp <;> rfl

set_option maxHeartbeats 16000000 in
theorem keep_arg3 : after (ops5 (F := Ideal)) U (Proc.devRef .tc main_arg3) = U (Proc.devRef .tc main_arg3) := by
  after_results_simp <;> rfl

set_option maxHeartbeats 16000000 in
theorem keep_arg4 : after (ops5 (F := Ideal)) U (Proc.devRef .tc main_arg4) = U (Proc.devRef .tc main_arg4) := by
  after_results_simp <;> rfl

set_option maxHeartbeats 16000000 in
theorem keep_arg5 : after (ops5 (F := Ideal)) U (Proc.devRef .tc main_arg5) = U (Proc.devRef .tc main_arg5) := by
  after_results_simp <;> rfl

set_option maxHeartbeats 16000000 in
theorem keep_arg6 : after (ops5 (F := Ideal)) U (Proc.devRef .tc main_arg6) = U (Proc.devRef .tc main_arg6) := by
  after_results_simp <;> rfl

set_option maxHeartbeats 16000000 in
theorem keep_arg7 : after (ops5 (F := Ideal)) U (Proc.devRef .tc main_arg7) = U (Proc.devRef .tc main_arg7) := by
  after_results_simp <;> rfl

set_option maxHeartbeats 16000000 in
theorem keep_arg8 : after (ops5 (F := Ideal)) U (Proc.devRef .tc main_arg8) = U (Proc.devRef .tc main_arg8) := by
  after_results_simp <;> rfl

set_option maxHeartbeats 16000000 in
theorem keep_arg9 : after (ops5 (F := Ideal)) U (Proc.devRef .tc main_arg9) = U (Proc.devRef .tc main_arg9) := by
  after_results_simp <;> rfl

set_option maxHeartbeats 16000000 in
theorem keep_arg10 : after (ops5 (F := Ideal)) U (Proc.devRef .tc main_arg10) = U (Proc.devRef .tc main_arg10) := by
  after_results_simp <;> rfl

set_option maxHeartbeats 16000000 in
theorem keep_arg11 : after (ops5 (F := Ideal)) U (Proc.devRef .tc main_arg11) = U (Proc.devRef .tc main_arg11) := by
  after_results_simp <;> rfl

set_option maxHeartbeats 16000000 in
theorem keep_arg12 : after (ops5 (F := Ideal)) U (Proc.devRef .tc main_arg12) = U (Proc.devRef .tc main_arg12) := by
  after_results_simp <;> rfl

end Cert.ReferenceIdeal.Stretch5

end
-- ==== Proof.RStretch6.lean ====
/-
  Stretch 6 of the reference's line of host operations, read from any starting contents `U`.

  The last stretch is the head: the rows pooled by graph, divided by the graphs' sizes, and the last linear map.
  It is read here as the network's `head` of what `U` holds.
-/
import proofs.«126544_j10213432229997_1_alg».proof.Proof.RefRun
import proofs.«126544_j10213432229997_1_alg».proof.Proof.RefLayer

set_option maxRecDepth 16384

noncomputable section

namespace Cert.ReferenceIdeal.Stretch6

open Cert.ReferenceIdeal Cert.ReferenceIdeal.Gen Cert.ReferenceIdeal.ValueP Idealize.ShloMosaic Idealize.ShloMosaic.TcCoe
open Idealize.ShloMosaic.StableHlo Idealize.SL.Sem Cert.Gin Cert.ReferenceIdeal.Layer

variable (U : Valuation τ sig (Elt Ideal))

set_option maxHeartbeats 16000000 in
/-- The result buffer after the head's operations. -/
theorem head_eq : after (ops6 (F := Ideal)) U (Proc.devRef .tc main_v322)
    = head (U (Proc.devRef .tc main_v306)) (U (Proc.devRef .tc main_arg2)) (U (Proc.devRef .tc main_arg11)) (U (Proc.devRef .tc main_arg12)) := by
  after_results_simp <;> rfl

set_option maxHeartbeats 16000000 in
theorem keep_v1 : after (ops6 (F := Ideal)) U (Proc.devRef .tc main_v1) = U (Proc.devRef .tc main_v1) := by
  after_results_simp <;> rfl

set_option maxHeartbeats 16000000 in
theorem keep_v3 : after (ops6 (F := Ideal)) U (Proc.devRef .tc main_v3) = U (Proc.devRef .tc main_v3) := by
  after_results_simp <;> rfl

set_option maxHeartbeats 16000000 in
theorem keep_arg0 : after (ops6 (F := Ideal)) U (Proc.devRef .tc main_arg0) = U (Proc.devRef .tc main_arg0) := by
  after_results_simp <;> rfl

set_option maxHeartbeats 16000000 in
theorem keep_arg1 : after (ops6 (F := Ideal)) U (Proc.devRef .tc main_arg1) = U (Proc.devRef .tc main_arg1) := by
  after_results_simp <;> rfl

set_option maxHeartbeats 16000000 in
theorem keep_arg2 : after (ops6 (F := Ideal)) U (Proc.devRef .tc main_arg2) = U (Proc.devRef .tc main_arg2) := by
  after_results_simp <;> rfl

set_option maxHeartbeats 16000000 in
theorem keep_arg3 : after (ops6 (F := Ideal)) U (Proc.devRef .tc main_arg3) = U (Proc.devRef .tc main_arg3) := by
  after_results_simp <;> rfl

set_option maxHeartbeats 16000000 in
theorem keep_arg4 : after (ops6 (F := Ideal)) U (Proc.devRef .tc main_arg4) = U (Proc.devRef .tc main_arg4) := by
  after_results_simp <;> rfl

set_option maxHeartbeats 16000000 in
theorem keep_arg5 : after (ops6 (F := Ideal)) U (Proc.devRef .tc main_arg5) = U (Proc.devRef .tc main_arg5) := by
  after_results_simp <;> rfl

set_option maxHeartbeats 16000000 in
theorem keep_arg6 : after (ops6 (F := Ideal)) U (Proc.devRef .tc main_arg6) = U (Proc.devRef .tc main_arg6) := by
  after_results_simp <;> rfl

set_option maxHeartbeats 16000000 in
theorem keep_arg7 : after (ops6 (F := Ideal)) U (Proc.devRef .tc main_arg7) = U (Proc.devRef .tc main_arg7) := by
  after_results_simp <;> rfl

set_option maxHeartbeats 16000000 in
theorem keep_arg8 : after (ops6 (F := Ideal)) U (Proc.devRef .tc main_arg8) = U (Proc.devRef .tc main_arg8) := by
  after_results_simp <;> rfl

set_option maxHeartbeats 16000000 in
theorem keep_arg9 : after (ops6 (F := Ideal)) U (Proc.devRef .tc main_arg9) = U (Proc.devRef .tc main_arg9) := by
  after_results_simp <;> rfl

set_option maxHeartbeats 16000000 in
theorem keep_arg10 : after (ops6 (F := Ideal)) U (Proc.devRef .tc main_arg10) = U (Proc.devRef .tc main_arg10) := by
  after_results_simp <;> rfl

set_option maxHeartbeats 16000000 in
theorem keep_arg11 : after (ops6 (F := Ideal)) U (Proc.devRef .tc main_arg11) = U (Proc.devRef .tc main_arg11) := by
  after_results_simp <;> rfl

set_option maxHeartbeats 16000000 in
theorem keep_arg12 : after (ops6 (F := Ideal)) U (Proc.devRef .tc main_arg12) = U (Proc.devRef .tc main_arg12) := by
  after_results_simp <;> rfl

end Cert.ReferenceIdeal.Stretch6

end
-- ==== Proof.RefValue.lean ====
/-
  The value the reference program computes: the same network of the launch contents of its arguments.

  The reference is one line of 375 host operations. Read in seven stretches — one per layer and one for the head (the
  stretches' own modules) —, from contents named at each boundary: the node array after layer `k` is `x_k` of the
  arguments, the two rows of the edge list and the argument arrays stay what they were (no operation writes them),
  and the last stretch is the head.
-/
import proofs.«126544_j10213432229997_1_alg».proof.Proof.RefRun
import proofs.«126544_j10213432229997_1_alg».proof.Proof.RefLayer
import proofs.«126544_j10213432229997_1_alg».proof.Proof.GinNet
import proofs.«126544_j10213432229997_1_alg».proof.Proof.LibHostStretches
import proofs.«126544_j10213432229997_1_alg».proof.Proof.RStretch0
import proofs.«126544_j10213432229997_1_alg».proof.Proof.RStretch1
import proofs.«126544_j10213432229997_1_alg».proof.Proof.RStretch2
import proofs.«126544_j10213432229997_1_alg».proof.Proof.RStretch3
import proofs.«126544_j10213432229997_1_alg».proof.Proof.RStretch4
import proofs.«126544_j10213432229997_1_alg».proof.Proof.RStretch5
import proofs.«126544_j10213432229997_1_alg».proof.Proof.RStretch6

set_option maxRecDepth 16384

noncomputable section

namespace Cert.ReferenceIdeal.NetValue

open Cert.ReferenceIdeal Cert.ReferenceIdeal.Gen Cert.ReferenceIdeal.ValueP Idealize.ShloMosaic Idealize.ShloMosaic.TcCoe
open Idealize.ShloMosaic.StableHlo Idealize.SL.Sem Cert.Gin

variable (m' : (ℓ : Loc nD τ sig) → Buf (Elt Ideal) ℓ)

/-- The argument arrays as launched, on core `c`. -/
def argsOfR (c : Dev nD) : Args where
  x := m' ((c : Thread nD τ).loc main_arg0)
  e := m' ((c : Thread nD τ).loc main_arg1)
  batch := m' ((c : Thread nD τ).loc main_arg2)
  w1s := m' ((c : Thread nD τ).loc main_arg3)
  b1s := m' ((c : Thread nD τ).loc main_arg4)
  w2s := m' ((c : Thread nD τ).loc main_arg5)
  b2s := m' ((c : Thread nD τ).loc main_arg6)
  gamma := m' ((c : Thread nD τ).loc main_arg7)
  beta := m' ((c : Thread nD τ).loc main_arg8)
  mean := m' ((c : Thread nD τ).loc main_arg9)
  var := m' ((c : Thread nD τ).loc main_arg10)
  linw := m' ((c : Thread nD τ).loc main_arg11)
  linb := m' ((c : Thread nD τ).loc main_arg12)

/-! ## The contents at the stretches' boundaries -/

def U0 (c : Dev nD) : Valuation τ sig (Elt Ideal) := launchContents m' c
def U1 (c : Dev nD) : Valuation τ sig (Elt Ideal) := after (ops0 (F := Ideal)) (U0 m' c)
def U2 (c : Dev nD) : Valuation τ sig (Elt Ideal) := after (ops1 (F := Ideal)) (U1 m' c)
def U3 (c : Dev nD) : Valuation τ sig (Elt Ideal) := after (ops2 (F := Ideal)) (U2 m' c)
def U4 (c : Dev nD) : Valuation τ sig (Elt Ideal) := after (ops3 (F := Ideal)) (U3 m' c)
def U5 (c : Dev nD) : Valuation τ sig (Elt Ideal) := after (ops4 (F := Ideal)) (U4 m' c)
def U6 (c : Dev nD) : Valuation τ sig (Elt Ideal) := after (ops5 (F := Ideal)) (U5 m' c)
def U7 (c : Dev nD) : Valuation τ sig (Elt Ideal) := after (ops6 (F := Ideal)) (U6 m' c)

/-- The whole line is its seven stretches run one after the other. -/
theorem fold_eq (c : Dev nD) : after (ops (F := Ideal)) (launchContents m' c) = U7 m' c := by
  simp only [ops, Cert.HostLine.after_append]
  rfl

/-- What every boundary after the first stretch keeps: the two rows of the edge list and the argument arrays. -/
def RCarried (W : Valuation τ sig (Elt Ideal)) (P : Args) : Prop :=
  W (Proc.devRef .tc main_v1) = src P.e
    ∧ W (Proc.devRef .tc main_v3) = dst P.e
    ∧ W (Proc.devRef .tc main_arg0) = P.x
    ∧ W (Proc.devRef .tc main_arg1) = P.e
    ∧ W (Proc.devRef .tc main_arg2) = P.batch
    ∧ W (Proc.devRef .tc main_arg3) = P.w1s
    ∧ W (Proc.devRef .tc main_arg4) = P.b1s
    ∧ W (Proc.devRef .tc main_arg5) = P.w2s
    ∧ W (Proc.devRef .tc main_arg6) = P.b2s
    ∧ W (Proc.devRef .tc main_arg7) = P.gamma
    ∧ W (Proc.devRef .tc main_arg8) = P.beta
    ∧ W (Proc.devRef .tc main_arg9) = P.mean
    ∧ W (Proc.devRef .tc main_arg10) = P.var
    ∧ W (Proc.devRef .tc main_arg11) = P.linw
    ∧ W (Proc.devRef .tc main_arg12) = P.linb

/-! ## The layers -/

/-- The node array after layer 0. -/
theorem rout0 (c : Dev nD) : U1 m' c (Proc.devRef .tc main_v53) = x1 (argsOfR m' c) :=
  Stretch0.out (U0 m' c) (argsOfR m' c) rfl rfl rfl rfl rfl rfl rfl rfl rfl rfl

/-- After the first stretch the edge rows are its slices of the edge list, and the arrays are as launched. -/
theorem rcarried1 (c : Dev nD) : RCarried (U1 m' c) (argsOfR m' c) :=
  ⟨Stretch0.src_eq (U0 m' c), Stretch0.dst_eq (U0 m' c),
    Stretch0.keep_arg0 (U0 m' c),
    Stretch0.keep_arg1 (U0 m' c),
    Stretch0.keep_arg2 (U0 m' c),
    Stretch0.keep_arg3 (U0 m' c),
    Stretch0.keep_arg4 (U0 m' c),
    Stretch0.keep_arg5 (U0 m' c),
    Stretch0.keep_arg6 (U0 m' c),
    Stretch0.keep_arg7 (U0 m' c),
    Stretch0.keep_arg8 (U0 m' c),
    Stretch0.keep_arg9 (U0 m' c),
    Stretch0.keep_arg10 (U0 m' c),
    Stretch0.keep_arg11 (U0 m' c),
    Stretch0.keep_arg12 (U0 m' c)⟩

/-- The node array after layer 1. -/
theorem rout1 (c : Dev nD) : U2 m' c (Proc.devRef .tc main_v104) = x2 (argsOfR m' c) := by
  obtain ⟨h_v1, h_v3, h_arg0, h_arg1, h_arg2, h_arg3, h_arg4, h_arg5, h_arg6, h_arg7, h_arg8, h_arg9, h_arg10, h_arg11, h_arg12⟩ := rcarried1 m' c
  exact Stretch1.out (U1 m' c) (argsOfR m' c) (x1 (argsOfR m' c)) ((argsOfR m' c).x) (rout0 m' c) h_v1 h_v3 h_arg3 h_arg4 h_arg5 h_arg6 h_arg7 h_arg8 h_arg9 h_arg10 h_arg0

/-- Stretch 1 writes neither the edge rows nor an argument array. -/
theorem rcarried2 (c : Dev nD) : RCarried (U2 m' c) (argsOfR m' c) := by
  obtain ⟨h_v1, h_v3, h_arg0, h_arg1, h_arg2, h_arg3, h_arg4, h_arg5, h_arg6, h_arg7, h_arg8, h_arg9, h_arg10, h_arg11, h_arg12⟩ := rcarried1 m' c
  exact ⟨(Stretch1.keep_v1 (U1 m' c)).trans h_v1,
    (Stretch1.keep_v3 (U1 m' c)).trans h_v3,
    (Stretch1.keep_arg0 (U1 m' c)).trans h_arg0,
    (Stretch1.keep_arg1 (U1 m' c)).trans h_arg1,
    (Stretch1.keep_arg2 (U1 m' c)).trans h_arg2,
    (Stretch1.keep_arg3 (U1 m' c)).trans h_arg3,
    (Stretch1.keep_arg4 (U1 m' c)).trans h_arg4,
    (Stretch1.keep_arg5 (U1 m' c)).trans h_arg5,
    (Stretch1.keep_arg6 (U1 m' c)).trans h_arg6,
    (Stretch1.keep_arg7 (U1 m' c)).trans h_arg7,
    (Stretch1.keep_arg8 (U1 m' c)).trans h_arg8,
    (Stretch1.keep_arg9 (U1 m' c)).trans h_arg9,
    (Stretch1.keep_arg10 (U1 m' c)).trans h_arg10,
    (Stretch1.keep_arg11 (U1 m' c)).trans h_arg11,
    (Stretch1.keep_arg12 (U1 m' c)).trans h_arg12⟩

/-- The node array after layer 2. -/
theorem rout2 (c : Dev nD) : U3 m' c (Proc.devRef .tc main_v154) = x3 (argsOfR m' c) := by
  obtain ⟨h_v1, h_v3, h_arg0, h_arg1, h_arg2, h_arg3, h_arg4, h_arg5, h_arg6, h_arg7, h_arg8, h_arg9, h_arg10, h_arg11, h_arg12⟩ := rcarried2 m' c
  exact Stretch2.out (U2 m' c) (argsOfR m' c) (x2 (argsOfR m' c)) (rout1 m' c) h_v1 h_v3 h_arg3 h_arg4 h_arg5 h_arg6 h_arg7 h_arg8 h_arg9 h_arg10

/-- Stretch 2 writes neither the edge rows nor an argument array. -/
theorem rcarried3 (c : Dev nD) : RCarried (U3 m' c) (argsOfR m' c) := by
  obtain ⟨h_v1, h_v3, h_arg0, h_arg1, h_arg2, h_arg3, h_arg4, h_arg5, h_arg6, h_arg7, h_arg8, h_arg9, h_arg10, h_arg11, h_arg12⟩ := rcarried2 m' c
  exact ⟨(Stretch2.keep_v1 (U2 m' c)).trans h_v1,
    (Stretch2.keep_v3 (U2 m' c)).trans h_v3,
    (Stretch2.keep_arg0 (U2 m' c)).trans h_arg0,
    (Stretch2.keep_arg1 (U2 m' c)).trans h_arg1,
    (Stretch2.keep_arg2 (U2 m' c)).trans h_arg2,
    (Stretch2.keep_arg3 (U2 m' c)).trans h_arg3,
    (Stretch2.keep_arg4 (U2 m' c)).trans h_arg4,
    (Stretch2.keep_arg5 (U2 m' c)).trans h_arg5,
    (Stretch2.keep_arg6 (U2 m' c)).trans h_arg6,
    (Stretch2.keep_arg7 (U2 m' c)).trans h_arg7,
    (Stretch2.keep_arg8 (U2 m' c)).trans h_arg8,
    (Stretch2.keep_arg9 (U2 m' c)).trans h_arg9,
    (Stretch2.keep_arg10 (U2 m' c)).trans h_arg10,
    (Stretch2.keep_arg11 (U2 m' c)).trans h_arg11,
    (Stretch2.keep_arg12 (U2 m' c)).trans h_arg12⟩

/-- Layer 1's array is still in its buffer when layer 3 adds it as its skip connection. -/
theorem rres3 (c : Dev nD) : U3 m' c (Proc.devRef .tc main_v104) = x2 (argsOfR m' c) :=
  (Stretch2.keep_v104 (U2 m' c)).trans (rout1 m' c)

/-- The node array after layer 3. -/
theorem rout3 (c : Dev nD) : U4 m' c (Proc.devRef .tc main_v205) = x4 (argsOfR m' c) := by
  obtain ⟨h_v1, h_v3, h_arg0, h_arg1, h_arg2, h_arg3, h_arg4, h_arg5, h_arg6, h_arg7, h_arg8, h_arg9, h_arg10, h_arg11, h_arg12⟩ := rcarried3 m' c
  exact Stretch3.out (U3 m' c) (argsOfR m' c) (x3 (argsOfR m' c)) (x2 (argsOfR m' c)) (rout2 m' c) h_v1 h_v3 h_arg3 h_arg4 h_arg5 h_arg6 h_arg7 h_arg8 h_arg9 h_arg10 (rres3 m' c)

/-- Stretch 3 writes neither the edge rows nor an argument array. -/
theorem rcarried4 (c : Dev nD) : RCarried (U4 m' c) (argsOfR m' c) := by
  obtain ⟨h_v1, h_v3, h_arg0, h_arg1, h_arg2, h_arg3, h_arg4, h_arg5, h_arg6, h_arg7, h_arg8, h_arg9, h_arg10, h_arg11, h_arg12⟩ := rcarried3 m' c
  exact ⟨(Stretch3.keep_v1 (U3 m' c)).trans h_v1,
    (Stretch3.keep_v3 (U3 m' c)).trans h_v3,
    (Stretch3.keep_arg0 (U3 m' c)).trans h_arg0,
    (Stretch3.keep_arg1 (U3 m' c)).trans h_arg1,
    (Stretch3.keep_arg2 (U3 m' c)).trans h_arg2,
    (Stretch3.keep_arg3 (U3 m' c)).trans h_arg3,
    (Stretch3.keep_arg4 (U3 m' c)).trans h_arg4,
    (Stretch3.keep_arg5 (U3 m' c)).trans h_arg5,
    (Stretch3.keep_arg6 (U3 m' c)).trans h_arg6,
    (Stretch3.keep_arg7 (U3 m' c)).trans h_arg7,
    (Stretch3.keep_arg8 (U3 m' c)).trans h_arg8,
    (Stretch3.keep_arg9 (U3 m' c)).trans h_arg9,
    (Stretch3.keep_arg10 (U3 m' c)).trans h_arg10,
    (Stretch3.keep_arg11 (U3 m' c)).trans h_arg11,
    (Stretch3.keep_arg12 (U3 m' c)).trans h_arg12⟩

/-- The node array after layer 4. -/
theorem rout4 (c : Dev nD) : U5 m' c (Proc.devRef .tc main_v255) = x5 (argsOfR m' c) := by
  obtain ⟨h_v1, h_v3, h_arg0, h_arg1, h_arg2, h_arg3, h_arg4, h_arg5, h_arg6, h_arg7, h_arg8, h_arg9, h_arg10, h_arg11, h_arg12⟩ := rcarried4 m' c
  exact Stretch4.out (U4 m' c) (argsOfR m' c) (x4 (argsOfR m' c)) (rout3 m' c) h_v1 h_v3 h_arg3 h_arg4 h_arg5 h_arg6 h_arg7 h_arg8 h_arg9 h_arg10

/-- Stretch 4 writes neither the edge rows nor an argument array. -/
theorem rcarried5 (c : Dev nD) : RCarried (U5 m' c) (argsOfR m' c) := by
  obtain ⟨h_v1, h_v3, h_arg0, h_arg1, h_arg2, h_arg3, h_arg4, h_arg5, h_arg6, h_arg7, h_arg8, h_arg9, h_arg10, h_arg11, h_arg12⟩ := rcarried4 m' c
  exact ⟨(Stretch4.keep_v1 (U4 m' c)).trans h_v1,
    (Stretch4.keep_v3 (U4 m' c)).trans h_v3,
    (Stretch4.keep_arg0 (U4 m' c)).trans h_arg0,
    (Stretch4.keep_arg1 (U4 m' c)).trans h_arg1,
    (Stretch4.keep_arg2 (U4 m' c)).trans h_arg2,
    (Stretch4.keep_arg3 (U4 m' c)).trans h_arg3,
    (Stretch4.keep_arg4 (U4 m' c)).trans h_arg4,
    (Stretch4.keep_arg5 (U4 m' c)).trans h_arg5,
    (Stretch4.keep_arg6 (U4 m' c)).trans h_arg6,
    (Stretch4.keep_arg7 (U4 m' c)).trans h_arg7,
    (Stretch4.keep_arg8 (U4 m' c)).trans h_arg8,
    (Stretch4.keep_arg9 (U4 m' c)).trans h_arg9,
    (Stretch4.keep_arg10 (U4 m' c)).trans h_arg10,
    (Stretch4.keep_arg11 (U4 m' c)).trans h_arg11,
    (Stretch4.keep_arg12 (U4 m' c)).trans h_arg12⟩

/-- Layer 3's array is still in its buffer when layer 5 adds it as its skip connection. -/
theorem rres5 (c : Dev nD) : U5 m' c (Proc.devRef .tc main_v205) = x4 (argsOfR m' c) :=
  (Stretch4.keep_v205 (U4 m' c)).trans (rout3 m' c)

/-- The node array after layer 5. -/
theorem rout5 (c : Dev nD) : U6 m' c (Proc.devRef .tc main_v306) = x6 (argsOfR m' c) := by
  obtain ⟨h_v1, h_v3, h_arg0, h_arg1, h_arg2, h_arg3, h_arg4, h_arg5, h_arg6, h_arg7, h_arg8, h_arg9, h_arg10, h_arg11, h_arg12⟩ := rcarried5 m' c
  exact Stretch5.out (U5 m' c) (argsOfR m' c) (x5 (argsOfR m' c)) (x4 (argsOfR m' c)) (rout4 m' c) h_v1 h_v3 h_arg3 h_arg4 h_arg5 h_arg6 h_arg7 h_arg8 h_arg9 h_arg10 (rres5 m' c)

/-- Stretch 5 writes neither the edge rows nor an argument array. -/
theorem rcarried6 (c : Dev nD) : RCarried (U6 m' c) (argsOfR m' c) := by
  obtain ⟨h_v1, h_v3, h_arg0, h_arg1, h_arg2, h_arg3, h_arg4, h_arg5, h_arg6, h_arg7, h_arg8, h_arg9, h_arg10, h_arg11, h_arg12⟩ := rcarried5 m' c
  exact ⟨(Stretch5.keep_v1 (U5 m' c)).trans h_v1,
    (Stretch5.keep_v3 (U5 m' c)).trans h_v3,
    (Stretch5.keep_arg0 (U5 m' c)).trans h_arg0,
    (Stretch5.keep_arg1 (U5 m' c)).trans h_arg1,
    (Stretch5.keep_arg2 (U5 m' c)).trans h_arg2,
    (Stretch5.keep_arg3 (U5 m' c)).trans h_arg3,
    (Stretch5.keep_arg4 (U5 m' c)).trans h_arg4,
    (Stretch5.keep_arg5 (U5 m' c)).trans h_arg5,
    (Stretch5.keep_arg6 (U5 m' c)).trans h_arg6,
    (Stretch5.keep_arg7 (U5 m' c)).trans h_arg7,
    (Stretch5.keep_arg8 (U5 m' c)).trans h_arg8,
    (Stretch5.keep_arg9 (U5 m' c)).trans h_arg9,
    (Stretch5.keep_arg10 (U5 m' c)).trans h_arg10,
    (Stretch5.keep_arg11 (U5 m' c)).trans h_arg11,
    (Stretch5.keep_arg12 (U5 m' c)).trans h_arg12⟩

/-- Stretch 6 writes neither the edge rows nor an argument array. -/
theorem rcarried7 (c : Dev nD) : RCarried (U7 m' c) (argsOfR m' c) := by
  obtain ⟨h_v1, h_v3, h_arg0, h_arg1, h_arg2, h_arg3, h_arg4, h_arg5, h_arg6, h_arg7, h_arg8, h_arg9, h_arg10, h_arg11, h_arg12⟩ := rcarried6 m' c
  exact ⟨(Stretch6.keep_v1 (U6 m' c)).trans h_v1,
    (Stretch6.keep_v3 (U6 m' c)).trans h_v3,
    (Stretch6.keep_arg0 (U6 m' c)).trans h_arg0,
    (Stretch6.keep_arg1 (U6 m' c)).trans h_arg1,
    (Stretch6.keep_arg2 (U6 m' c)).trans h_arg2,
    (Stretch6.keep_arg3 (U6 m' c)).trans h_arg3,
    (Stretch6.keep_arg4 (U6 m' c)).trans h_arg4,
    (Stretch6.keep_arg5 (U6 m' c)).trans h_arg5,
    (Stretch6.keep_arg6 (U6 m' c)).trans h_arg6,
    (Stretch6.keep_arg7 (U6 m' c)).trans h_arg7,
    (Stretch6.keep_arg8 (U6 m' c)).trans h_arg8,
    (Stretch6.keep_arg9 (U6 m' c)).trans h_arg9,
    (Stretch6.keep_arg10 (U6 m' c)).trans h_arg10,
    (Stretch6.keep_arg11 (U6 m' c)).trans h_arg11,
    (Stretch6.keep_arg12 (U6 m' c)).trans h_arg12⟩

/-! ## The head -/

/-- THE REFERENCE'S VALUE: what the line leaves in the result buffer is the network of the arguments as launched. -/
theorem result_eq (c : Dev nD) : after (ops (F := Ideal)) (launchContents m' c) (Proc.devRef .tc main_v322) = result (argsOfR m' c) := by
  obtain ⟨h_v1, h_v3, h_arg0, h_arg1, h_arg2, h_arg3, h_arg4, h_arg5, h_arg6, h_arg7, h_arg8, h_arg9, h_arg10, h_arg11, h_arg12⟩ := rcarried6 m' c
  rw [fold_eq]
  refine (Stretch6.head_eq (U6 m' c)).trans ?_
  rw [rout5 m' c, h_arg2, h_arg11, h_arg12]
  rfl

/-- No operation of the line writes an argument array: after the whole line each is as launched. -/
theorem args_kept (c : Dev nD) :
    after (ops (F := Ideal)) (launchContents m' c) (Proc.devRef .tc main_arg0) = m' ((c : Thread nD τ).loc main_arg0)
    ∧ after (ops (F := Ideal)) (launchContents m' c) (Proc.devRef .tc main_arg1) = m' ((c : Thread nD τ).loc main_arg1)
    ∧ after (ops (F := Ideal)) (launchContents m' c) (Proc.devRef .tc main_arg2) = m' ((c : Thread nD τ).loc main_arg2)
    ∧ after (ops (F := Ideal)) (launchContents m' c) (Proc.devRef .tc main_arg3) = m' ((c : Thread nD τ).loc main_arg3)
    ∧ after (ops (F := Ideal)) (launchContents m' c) (Proc.devRef .tc main_arg4) = m' ((c : Thread nD τ).loc main_arg4)
    ∧ after (ops (F := Ideal)) (launchContents m' c) (Proc.devRef .tc main_arg5) = m' ((c : Thread nD τ).loc main_arg5)
    ∧ after (ops (F := Ideal)) (launchContents m' c) (Proc.devRef .tc main_arg6) = m' ((c : Thread nD τ).loc main_arg6)
    ∧ after (ops (F := Ideal)) (launchContents m' c) (Proc.devRef .tc main_arg7) = m' ((c : Thread nD τ).loc main_arg7)
    ∧ after (ops (F := Ideal)) (launchContents m' c) (Proc.devRef .tc main_arg8) = m' ((c : Thread nD τ).loc main_arg8)
    ∧ after (ops (F := Ideal)) (launchContents m' c) (Proc.devRef .tc main_arg9) = m' ((c : Thread nD τ).loc main_arg9)
    ∧ after (ops (F := Ideal)) (launchContents m' c) (Proc.devRef .tc main_arg10) = m' ((c : Thread nD τ).loc main_arg10)
    ∧ after (ops (F := Ideal)) (launchContents m' c) (Proc.devRef .tc main_arg11) = m' ((c : Thread nD τ).loc main_arg11)
    ∧ after (ops (F := Ideal)) (launchContents m' c) (Proc.devRef .tc main_arg12) = m' ((c : Thread nD τ).loc main_arg12) := by
  obtain ⟨h_v1, h_v3, h_arg0, h_arg1, h_arg2, h_arg3, h_arg4, h_arg5, h_arg6, h_arg7, h_arg8, h_arg9, h_arg10, h_arg11, h_arg12⟩ := rcarried7 m' c
  rw [fold_eq]
  exact ⟨h_arg0, h_arg1, h_arg2, h_arg3, h_arg4, h_arg5, h_arg6, h_arg7, h_arg8, h_arg9, h_arg10, h_arg11, h_arg12⟩

end Cert.ReferenceIdeal.NetValue

end
-- ==== Proof.lean ====
/-
  The certificate of a six-layer graph network computed two ways.

  THE NETWORK. A layer takes the node array `x` (100000 rows of 128 numbers), aggregates it along the edges — every
  row plus the sum of the rows of the nodes with an edge into it —, and applies to each row of the aggregated array
  a dense step `max (row · W₁ + b₁) 0`, a normalisation `(h − mean) · (g · rsqrt (var + ε)) + beta` and a second dense
  step `max (h · W₂ + b₂) 0`; after layers 1, 3 and 5 the array of two layers before is added. The rows are then
  pooled by graph, divided by the graphs' sizes, and mapped by a last linear layer (`Cert.Gin.result`).

  THE TWO PROGRAMS. The reference computes each layer on the whole array with host operations. The kernel's program
  computes the aggregation and the head with the same host operations, and each layer's dense chain in a grid
  region that walks the rows in 20 blocks of 5000, the weights resident, the matrix products on the matrix unit with
  operands passed through a narrower float format.

  WHY THEY AGREE on the extended reals. A change of float format is the identity there. A matrix unit's product
  into a zero accumulator and the host's `dot_general` are the same sum of products. And every step of the dense
  chain acts on each row by itself, so the 20 blocks the region writes back are the 20 blocks of the one array the
  host computes. No rearrangement of a sum and no cancellation is involved: both sides are the same operations in
  the same order, which is why the precondition (finite inputs) is never used.

  The claim's five parts: the two kernel programs' frames are the generated ones; the reference's frame is its run
  with the argument arrays read back; nothing was rewritten by the idealization; and the two idealized programs
  end with the same result, `Cert.Gin.result` of the launch contents of the arguments.
-/
import proofs.«126544_j10213432229997_1_alg».proof.Defs
import proofs.«126544_j10213432229997_1_alg».proof.Proof.Gen.Kernel
import proofs.«126544_j10213432229997_1_alg».proof.Proof.Gen.Kernel.Skeleton
import proofs.«126544_j10213432229997_1_alg».proof.Proof.Gen.Kernel.Launch
import proofs.«126544_j10213432229997_1_alg».proof.Proof.Gen.Kernel.Points
import proofs.«126544_j10213432229997_1_alg».proof.Proof.Gen.Kernel.Frame
import proofs.«126544_j10213432229997_1_alg».proof.Proof.Gen.KernelIdeal
import proofs.«126544_j10213432229997_1_alg».proof.Proof.Gen.KernelIdeal.Skeleton
import proofs.«126544_j10213432229997_1_alg».proof.Proof.Gen.KernelIdeal.Launch
import proofs.«126544_j10213432229997_1_alg».proof.Proof.Gen.KernelIdeal.Points
import proofs.«126544_j10213432229997_1_alg».proof.Proof.Gen.KernelIdeal.Frame
import proofs.«126544_j10213432229997_1_alg».proof.Proof.Gen.ReferenceIdeal
import proofs.«126544_j10213432229997_1_alg».proof.Proof.Gen.Pre_finite_inputs
import proofs.«126544_j10213432229997_1_alg».proof.Proof.KernelRun
import proofs.«126544_j10213432229997_1_alg».proof.Proof.KernelValue
import proofs.«126544_j10213432229997_1_alg».proof.Proof.RefRun
import proofs.«126544_j10213432229997_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and no operation of its line writes an argument array. -/
theorem frame_referenceIdeal : Cert.frame_ReferenceIdeal := fun m ρ _ =>
  (θ_run Cert.ReferenceIdeal.defs _ _).mono (fun r h c => by
    obtain ⟨k0, k1, k2, k3, k4, k5, k6, k7, k8, k9, k10, k11, k12⟩ := Cert.ReferenceIdeal.NetValue.args_kept m c
    exact ⟨(h c Cert.ReferenceIdeal.main_arg0).trans k0,
      (h c Cert.ReferenceIdeal.main_arg1).trans k1,
      (h c Cert.ReferenceIdeal.main_arg2).trans k2,
      (h c Cert.ReferenceIdeal.main_arg3).trans k3,
      (h c Cert.ReferenceIdeal.main_arg4).trans k4,
      (h c Cert.ReferenceIdeal.main_arg5).trans k5,
      (h c Cert.ReferenceIdeal.main_arg6).trans k6,
      (h c Cert.ReferenceIdeal.main_arg7).trans k7,
      (h c Cert.ReferenceIdeal.main_arg8).trans k8,
      (h c Cert.ReferenceIdeal.main_arg9).trans k9,
      (h c Cert.ReferenceIdeal.main_arg10).trans k10,
      (h c Cert.ReferenceIdeal.main_arg11).trans k11,
      (h c Cert.ReferenceIdeal.main_arg12).trans k12⟩)
    (Cert.ReferenceIdeal.ValueP.run_fold m ρ)

/-- From memories that agree on the arguments both idealized programs end with the network of those arguments in
    their result buffers: the kernel's through its six regions' row blocks, the reference's through whole-array
    layers. -/
theorem algebraic : Cert.algebraic_KernelIdeal_ReferenceIdeal := by
  intro m ρ m' ρ' _ hagree
  refine ⟨fun c => Cert.Gin.result (Cert.KernelIdeal.NetValue.argsOf m c), ?_, ?_⟩
  · exact (θ_run Cert.KernelIdeal.defs _ _).mono
      (fun r h c => ⟨(h c).1.trans (Cert.KernelIdeal.NetValue.result_eq m ρ c), (h c).2⟩)
      (Cert.KernelIdeal.NetRun.run_result m ρ)
  · refine (θ_run Cert.ReferenceIdeal.defs _ _).mono (fun r h c => ?_) (Cert.ReferenceIdeal.ValueP.run_fold m' ρ')
    obtain ⟨k0, k1, k2, k3, k4, k5, k6, k7, k8, k9, k10, k11, k12⟩ := Cert.ReferenceIdeal.NetValue.args_kept m' c
    obtain ⟨a0, a1, a2, a3, a4, a5, a6, a7, a8, a9, a10, a11, a12⟩ := hagree c
    have hargs : Cert.ReferenceIdeal.NetValue.argsOfR m' c = Cert.KernelIdeal.NetValue.argsOf m c := by
      unfold Cert.ReferenceIdeal.NetValue.argsOfR Cert.KernelIdeal.NetValue.argsOf
      rw [a0, a1, a2, a3, a4, a5, a6, a7, a8, a9, a10, a11, a12]
    exact ⟨((h c Cert.ReferenceIdeal.main_v322).trans (Cert.ReferenceIdeal.NetValue.result_eq m' c)).trans (congrArg Cert.Gin.result hargs),
      (h c Cert.ReferenceIdeal.main_arg0).trans k0,
      (h c Cert.ReferenceIdeal.main_arg1).trans k1,
      (h c Cert.ReferenceIdeal.main_arg2).trans k2,
      (h c Cert.ReferenceIdeal.main_arg3).trans k3,
      (h c Cert.ReferenceIdeal.main_arg4).trans k4,
      (h c Cert.ReferenceIdeal.main_arg5).trans k5,
      (h c Cert.ReferenceIdeal.main_arg6).trans k6,
      (h c Cert.ReferenceIdeal.main_arg7).trans k7,
      (h c Cert.ReferenceIdeal.main_arg8).trans k8,
      (h c Cert.ReferenceIdeal.main_arg9).trans k9,
      (h c Cert.ReferenceIdeal.main_arg10).trans k10,
      (h c Cert.ReferenceIdeal.main_arg11).trans k11,
      (h c Cert.ReferenceIdeal.main_arg12).trans k12⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
